-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v140)) (v1 : (c : Dev Cert.KernelIdeal.nD) → Buf (Elt Ideal) ((c.tc : Thread Cert.KernelIdeal.nD Cert.KernelIdeal.τ).loc Cert.KernelIdeal.main_v145)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_v145) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S100000x256 : Shape := ⟨2, ![100000, 256]⟩
abbrev S512x512 : Shape := ⟨2, ![512, 512]⟩
abbrev S512 : Shape := ⟨1, ![512]⟩
abbrev S256x512 : Shape := ⟨2, ![256, 512]⟩
abbrev S250000 : Shape := ⟨1, ![250000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512 .f32) (main_arg12 : FVec F S512x512 .f32) (main_arg13 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_v63 main_v67

def fn_part2 {F : FTy → Type} [FloatOps F] (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_v48 main_v49 main_v50

def fn_part1 {F : FTy → Type} [FloatOps F] (main_arg4 : FVec F S256x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x512 .f32) (main_arg1 : FVec F S100000x256 .f32) (main_arg2 : FVec F S512x512 .f32) (main_arg3 : FVec F S512 .f32) (main_arg4 : FVec F S256x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : IVec S250000 32) (main_arg15 : IVec S250000 32) (main_arg16 : IVec S250000 32) (main_arg17 : IVec S250000 32) (main_arg18 : IVec S250000 32) (main_arg19 : IVec S250000 32) (main_arg20 : IVec S250000 32) (main_arg21 : IVec S250000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x512 : Shape := ⟨2, ![100000, 512]⟩
abbrev S100000x256 : Shape := ⟨2, ![100000, 256]⟩
abbrev S512x512 : Shape := ⟨2, ![512, 512]⟩
abbrev S512 : Shape := ⟨1, ![512]⟩
abbrev S256x512 : Shape := ⟨2, ![256, 512]⟩
abbrev S250000 : Shape := ⟨1, ![250000]⟩
abbrev S1x512 : Shape := ⟨2, ![1, 512]⟩
abbrev S1000x512 : Shape := ⟨2, ![1000, 512]⟩
abbrev S1000x256 : Shape := ⟨2, ![1000, 256]⟩
abbrev S_ : Shape := ⟨0, ![]⟩
abbrev S100000 : Shape := ⟨1, ![100000]⟩
abbrev S250000x1 : Shape := ⟨2, ![250000, 1]⟩
abbrev S250000x512 : Shape := ⟨2, ![250000, 512]⟩
abbrev S100000x1 : Shape := ⟨2, ![100000, 1]⟩
abbrev S1000x1 : Shape := ⟨2, ![1000, 1]⟩

abbrev nBuf : Space → Nat
  | .hbm => 208
  | .vmem => 38
  | .smem => 0
  | _ => 0

abbrev hbmTy0_0 (i : Nat) : BufTy := match i % 128 with
  | 0 => ⟨S100000x512, .f32⟩
  | 1 => ⟨S100000x256, .f32⟩
  | 2 => ⟨S512x512, .f32⟩
  | 3 => ⟨S512, .f32⟩
  | 4 => ⟨S256x512, .f32⟩
  | 5 => ⟨S512, .f32⟩
  | 6 => ⟨S512x512, .f32⟩
  | 7 => ⟨S512, .f32⟩
  | 8 => ⟨S512x512, .f32⟩
  | 9 => ⟨S512, .f32⟩
  | 10 => ⟨S512x512, .f32⟩
  | 11 => ⟨S512, .f32⟩
  | 12 => ⟨S512x512, .f32⟩
  | 13 => ⟨S512, .f32⟩
  | 14 => ⟨S250000, .i32⟩
  | 15 => ⟨S250000, .i32⟩
  | 16 => ⟨S250000, .i32⟩
  | 17 => ⟨S250000, .i32⟩
  | 18 => ⟨S250000, .i32⟩
  | 19 => ⟨S250000, .i32⟩
  | 20 => ⟨S250000, .i32⟩
  | 21 => ⟨S250000, .i32⟩
  | 22 => ⟨S1x512, .f32⟩
  | 23 => ⟨S100000x512, .f32⟩
  | 24 => ⟨S1x512, .f32⟩
  | 25 => ⟨S100000x512, .f32⟩
  | 26 => ⟨S_, .f32⟩
  | 27 => ⟨S250000, .f32⟩
  | 28 => ⟨S_, .f32⟩
  | 29 => ⟨S100000, .f32⟩
  | 30 => ⟨S250000x1, .i32⟩
  | 31 => ⟨S100000, .f32⟩
  | 32 => ⟨S_, .f32⟩
  | 33 => ⟨S100000, .f32⟩
  | 34 => ⟨S250000x1, .i32⟩
  | 35 => ⟨S100000, .f32⟩
  | 36 => ⟨S_, .f32⟩
  | 37 => ⟨S100000, .f32⟩
  | 38 => ⟨S100000, .f32⟩
  | 39 => ⟨S100000, .f32⟩
  | 40 => ⟨S_, .f32⟩
  | 41 => ⟨S100000, .f32⟩
  | 42 => ⟨S100000, .f32⟩
  | 43 => ⟨S100000, .f32⟩
  | 44 => ⟨S_, .i32⟩
  | 45 => ⟨S250000, .i32⟩
  | 46 => ⟨S250000, .i1⟩
  | 47 => ⟨S_, .i32⟩
  | 48 => ⟨S250000, .i32⟩
  | 49 => ⟨S250000, .i32⟩
  | 50 => ⟨S250000, .i32⟩
  | 51 => ⟨S250000x1, .i32⟩
  | 52 => ⟨S250000x512, .f32⟩
  | 53 => ⟨S_, .i32⟩
  | 54 => ⟨S250000, .i32⟩
  | 55 => ⟨S250000, .i1⟩
  | 56 => ⟨S_, .i32⟩
  | 57 => ⟨S250000, .i32⟩
  | 58 => ⟨S250000, .i32⟩
  | 59 => ⟨S250000, .i32⟩
  | 60 => ⟨S250000x1, .i32⟩
  | 61 => ⟨S250000, .f32⟩
  | 62 => ⟨S250000x1, .f32⟩
  | 63 => ⟨S250000x512, .f32⟩
  | 64 => ⟨S250000x512, .f32⟩
  | 65 => ⟨S_, .f32⟩
  | 66 => ⟨S100000x512, .f32⟩
  | 67 => ⟨S250000x1, .i32⟩
  | 68 => ⟨S100000x512, .f32⟩
  | 69 => ⟨S_, .f32⟩
  | 70 => ⟨S250000, .f32⟩
  | 71 => ⟨S_, .f32⟩
  | 72 => ⟨S100000, .f32⟩
  | 73 => ⟨S250000x1, .i32⟩
  | 74 => ⟨S100000, .f32⟩
  | 75 => ⟨S_, .f32⟩
  | 76 => ⟨S100000, .f32⟩
  | 77 => ⟨S250000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .f32⟩
  | 84 => ⟨S100000, .f32⟩
  | 85 => ⟨S100000, .f32⟩
  | 86 => ⟨S100000, .f32⟩
  | 87 => ⟨S_, .i32⟩
  | 88 => ⟨S250000, .i32⟩
  | 89 => ⟨S250000, .i1⟩
  | 90 => ⟨S_, .i32⟩
  | 91 => ⟨S250000, .i32⟩
  | 92 => ⟨S250000, .i32⟩
  | 93 => ⟨S250000, .i32⟩
  | 94 => ⟨S250000x1, .i32⟩
  | 95 => ⟨S250000x512, .f32⟩
  | 96 => ⟨S_, .i32⟩
  | 97 => ⟨S250000, .i32⟩
  | 98 => ⟨S250000, .i1⟩
  | 99 => ⟨S_, .i32⟩
  | 100 => ⟨S250000, .i32⟩
  | 101 => ⟨S250000, .i32⟩
  | 102 => ⟨S250000, .i32⟩
  | 103 => ⟨S250000x1, .i32⟩
  | 104 => ⟨S250000, .f32⟩
  | 105 => ⟨S250000x1, .f32⟩
  | 106 => ⟨S250000x512, .f32⟩
  | 107 => ⟨S250000x512, .f32⟩
  | 108 => ⟨S_, .f32⟩
  | 109 => ⟨S100000x512, .f32⟩
  | 110 => ⟨S250000x1, .i32⟩
  | 111 => ⟨S100000x512, .f32⟩
  | 112 => ⟨S_, .f32⟩
  | 113 => ⟨S250000, .f32⟩
  | 114 => ⟨S_, .f32⟩
  | 115 => ⟨S100000, .f32⟩
  | 116 => ⟨S250000x1, .i32⟩
  | 117 => ⟨S100000, .f32⟩
  | 118 => ⟨S_, .f32⟩
  | 119 => ⟨S100000, .f32⟩
  | 120 => ⟨S250000x1, .i32⟩
  | 121 => ⟨S100000, .f32⟩
  | 122 => ⟨S_, .f32⟩
  | 123 => ⟨S100000, .f32⟩
  | 124 => ⟨S100000, .f32⟩
  | 125 => ⟨S100000, .f32⟩
  | 126 => ⟨S_, .f32⟩
  | 127 => ⟨S100000, .f32⟩
  | _ => ⟨S100000x512, .f32⟩

abbrev hbmTy0_1 (i : Nat) : BufTy := match i % 128 with
  | 0 => ⟨S100000, .f32⟩
  | 1 => ⟨S100000, .f32⟩
  | 2 => ⟨S_, .i32⟩
  | 3 => ⟨S250000, .i32⟩
  | 4 => ⟨S250000, .i1⟩
  | 5 => ⟨S_, .i32⟩
  | 6 => ⟨S250000, .i32⟩
  | 7 => ⟨S250000, .i32⟩
  | 8 => ⟨S250000, .i32⟩
  | 9 => ⟨S250000x1, .i32⟩
  | 10 => ⟨S250000x512, .f32⟩
  | 11 => ⟨S_, .i32⟩
  | 12 => ⟨S250000, .i32⟩
  | 13 => ⟨S250000, .i1⟩
  | 14 => ⟨S_, .i32⟩
  | 15 => ⟨S250000, .i32⟩
  | 16 => ⟨S250000, .i32⟩
  | 17 => ⟨S250000, .i32⟩
  | 18 => ⟨S250000x1, .i32⟩
  | 19 => ⟨S250000, .f32⟩
  | 20 => ⟨S250000x1, .f32⟩
  | 21 => ⟨S250000x512, .f32⟩
  | 22 => ⟨S250000x512, .f32⟩
  | 23 => ⟨S_, .f32⟩
  | 24 => ⟨S100000x512, .f32⟩
  | 25 => ⟨S250000x1, .i32⟩
  | 26 => ⟨S100000x512, .f32⟩
  | 27 => ⟨S_, .f32⟩
  | 28 => ⟨S250000, .f32⟩
  | 29 => ⟨S_, .f32⟩
  | 30 => ⟨S100000, .f32⟩
  | 31 => ⟨S250000x1, .i32⟩
  | 32 => ⟨S100000, .f32⟩
  | 33 => ⟨S_, .f32⟩
  | 34 => ⟨S100000, .f32⟩
  | 35 => ⟨S250000x1, .i32⟩
  | 36 => ⟨S100000, .f32⟩
  | 37 => ⟨S_, .f32⟩
  | 38 => ⟨S100000, .f32⟩
  | 39 => ⟨S100000, .f32⟩
  | 40 => ⟨S100000, .f32⟩
  | 41 => ⟨S_, .f32⟩
  | 42 => ⟨S100000, .f32⟩
  | 43 => ⟨S100000, .f32⟩
  | 44 => ⟨S100000, .f32⟩
  | 45 => ⟨S_, .i32⟩
  | 46 => ⟨S250000, .i32⟩
  | 47 => ⟨S250000, .i1⟩
  | 48 => ⟨S_, .i32⟩
  | 49 => ⟨S250000, .i32⟩
  | 50 => ⟨S250000, .i32⟩
  | 51 => ⟨S250000, .i32⟩
  | 52 => ⟨S250000x1, .i32⟩
  | 53 => ⟨S250000x512, .f32⟩
  | 54 => ⟨S_, .i32⟩
  | 55 => ⟨S250000, .i32⟩
  | 56 => ⟨S250000, .i1⟩
  | 57 => ⟨S_, .i32⟩
  | 58 => ⟨S250000, .i32⟩
  | 59 => ⟨S250000, .i32⟩
  | 60 => ⟨S250000, .i32⟩
  | 61 => ⟨S250000x1, .i32⟩
  | 62 => ⟨S250000, .f32⟩
  | 63 => ⟨S250000x1, .f32⟩
  | 64 => ⟨S250000x512, .f32⟩
  | 65 => ⟨S250000x512, .f32⟩
  | 66 => ⟨S_, .f32⟩
  | 67 => ⟨S100000x512, .f32⟩
  | 68 => ⟨S250000x1, .i32⟩
  | 69 => ⟨S100000x512, .f32⟩
  | 70 => ⟨S512, .f32⟩
  | 71 => ⟨S100000x1, .f32⟩
  | 72 => ⟨S100000x1, .f32⟩
  | 73 => ⟨S1x512, .f32⟩
  | 74 => ⟨S100000x512, .f32⟩
  | 75 => ⟨S512, .f32⟩
  | 76 => ⟨S100000x1, .f32⟩
  | 77 => ⟨S100000x1, .f32⟩
  | 78 => ⟨S1x512, .f32⟩
  | 79 => ⟨S100000x512, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1x512, .f32⟩
  | .local _ .vmem, ⟨4, _⟩ => ⟨S1000x512, .f32⟩
  | .local _ .vmem, ⟨5, _⟩ => ⟨S1000x512, .f32⟩
  | .local _ .vmem, ⟨6, _⟩ => ⟨S1000x256, .f32⟩
  | .local _ .vmem, ⟨7, _⟩ => ⟨S1000x256, .f32⟩
  | .local _ .vmem, ⟨8, _⟩ => ⟨S256x512, .f32⟩
  | .local _ .vmem, ⟨9, _⟩ => ⟨S1x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S1000x512, .f32⟩
  | .local _ .vmem, ⟨14, _⟩ => ⟨S1000x512, .f32⟩
  | .local _ .vmem, ⟨15, _⟩ => ⟨S1000x512, .f32⟩
  | .local _ .vmem, ⟨16, _⟩ => ⟨S1000x1, .f32⟩
  | .local _ .vmem, ⟨17, _⟩ => ⟨S1000x1, .f32⟩
  | .local _ .vmem, ⟨18, _⟩ => ⟨S1000x1, .f32⟩
  | .local _ .vmem, ⟨19, _⟩ => ⟨S1000x1, .f32⟩
  | .local _ .vmem, ⟨20, _⟩ => ⟨S512x512, .f32⟩
  | .local _ .vmem, ⟨21, _⟩ => ⟨S512x512, .f32⟩
  | .local _ .vmem, ⟨22, _⟩ => ⟨S1x512, .f32⟩
  | .local _ .vmem, ⟨23, _⟩ => ⟨S1000x512, .f32⟩
  | .local _ .vmem, ⟨24, _⟩ => ⟨S1000x512, .f32⟩
  | .local _ .vmem, ⟨25, _⟩ => ⟨S1000x512, .f32⟩
  | .local _ .vmem, ⟨26, _⟩ => ⟨S1000x512, .f32⟩
  | .local _ .vmem, ⟨27, _⟩ => ⟨S1000x512, .f32⟩
  | .local _ .vmem, ⟨28, _⟩ => ⟨S1000x512, .f32⟩
  | .local _ .vmem, ⟨29, _⟩ => ⟨S1000x1, .f32⟩
  | .local _ .vmem, ⟨30, _⟩ => ⟨S1000x1, .f32⟩
  | .local _ .vmem, ⟨31, _⟩ => ⟨S1000x1, .f32⟩
  | .local _ .vmem, ⟨32, _⟩ => ⟨S1000x1, .f32⟩
  | .local _ .vmem, ⟨33, _⟩ => ⟨S512x512, .f32⟩
  | .local _ .vmem, ⟨34, _⟩ => ⟨S512x512, .f32⟩
  | .local _ .vmem, ⟨35, _⟩ => ⟨S1x512, .f32⟩
  | .local _ .vmem, ⟨36, _⟩ => ⟨S1000x512, .f32⟩
  | .local _ .vmem, ⟨37, _⟩ => ⟨S1000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_2 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_3 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c : Ref sig .tc := ⟨.hbm, 44, rfl⟩
abbrev main_v17 : Ref sig .tc := ⟨.hbm, 45, rfl⟩
abbrev main_v18 : Ref sig .tc := ⟨.hbm, 46, rfl⟩
abbrev main_c_4 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_c_6 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_7 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_8 : Ref sig .tc := ⟨.hbm, 69, rfl⟩
abbrev main_v37 : Ref sig .tc := ⟨.hbm, 70, rfl⟩
abbrev main_cst_9 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_10 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_11 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_12 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_13 : Ref sig .tc := ⟨.hbm, 87, rfl⟩
abbrev main_v50 : Ref sig .tc := ⟨.hbm, 88, rfl⟩
abbrev main_v51 : Ref sig .tc := ⟨.hbm, 89, rfl⟩
abbrev main_c_14 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_c_15 : Ref sig .tc := ⟨.hbm, 96, rfl⟩
abbrev main_v57 : Ref sig .tc := ⟨.hbm, 97, rfl⟩
abbrev main_v58 : Ref sig .tc := ⟨.hbm, 98, rfl⟩
abbrev main_c_16 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_17 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_18 : Ref sig .tc := ⟨.hbm, 112, rfl⟩
abbrev main_v70 : Ref sig .tc := ⟨.hbm, 113, rfl⟩
abbrev main_cst_19 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_20 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_21 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_22 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_c_23 : Ref sig .tc := ⟨.hbm, 130, rfl⟩
abbrev main_v83 : Ref sig .tc := ⟨.hbm, 131, rfl⟩
abbrev main_v84 : Ref sig .tc := ⟨.hbm, 132, rfl⟩
abbrev main_c_24 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_c_25 : Ref sig .tc := ⟨.hbm, 139, rfl⟩
abbrev main_v90 : Ref sig .tc := ⟨.hbm, 140, rfl⟩
abbrev main_v91 : Ref sig .tc := ⟨.hbm, 141, rfl⟩
abbrev main_c_26 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_cst_27 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_28 : Ref sig .tc := ⟨.hbm, 155, rfl⟩
abbrev main_v103 : Ref sig .tc := ⟨.hbm, 156, rfl⟩
abbrev main_cst_29 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_cst_30 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_cst_31 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_cst_32 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_c_33 : Ref sig .tc := ⟨.hbm, 173, rfl⟩
abbrev main_v116 : Ref sig .tc := ⟨.hbm, 174, rfl⟩
abbrev main_v117 : Ref sig .tc := ⟨.hbm, 175, rfl⟩
abbrev main_c_34 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_c_35 : Ref sig .tc := ⟨.hbm, 182, rfl⟩
abbrev main_v123 : Ref sig .tc := ⟨.hbm, 183, rfl⟩
abbrev main_v124 : Ref sig .tc := ⟨.hbm, 184, rfl⟩
abbrev main_c_36 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_cst_37 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg7_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem7_1 : DmaSem sig := 37

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S512x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1000x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S512x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1000x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x256_S1000x256_0_0 : ∀ a, (![0, 0] : Fin 2 → Nat) a + S1000x256.size a ≤ S1000x256.size a
  h_S1000x256 : 0 < S1000x256.numel
  inb_S256x512_S256x512_0_0 : ∀ a, (![0, 0] : Fin 2 → Nat) a + S256x512.size a ≤ S256x512.size a
  h_S256x512 : 0 < S256x512.numel
  bcast_S_S250000 : S_.BroadcastsInDim S250000 (![] : Fin 0 → Fin S250000.rank)
  bcast_S_S100000 : S_.BroadcastsInDim S100000 (![] : Fin 0 → Fin S100000.rank)
  bcast_S250000_S250000x1_0 : S250000.BroadcastsInDim S250000x1 (![0] : Fin 1 → Fin S250000x1.rank)
  bcast_S250000x1_S250000x512_0_1 : S250000x1.BroadcastsInDim S250000x512 (![0, 1] : Fin 2 → Fin S250000x512.rank)
  bcast_S_S100000x512 : S_.BroadcastsInDim S100000x512 (![] : Fin 0 → Fin S100000x512.rank)
  shapeCasts_S100000_S100000x1 : S100000.ShapeCasts S100000x1
  shapeCasts_S1000x512_S1000x512 : S1000x512.ShapeCasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  dot_S1000x512_S512x512_S1000x512_1_0_0_1_n_n_wf : DotDims.WF S1000x512 S512x512 S1000x512 [1] [0] [0] [1] [] []
  dot_S1000x256_S256x512_S1000x512_1_0_0_1_n_n_wf : DotDims.WF S1000x256 S256x512 S1000x512 [1] [0] [0] [1] [] []
  scatter_S100000_S250000x1_S250000_n_0_0_1_wf : ScatterDims.WF S100000 S250000x1 S250000 [] [0] [0] 1
  gather_S100000x512_S250000x1_S250000x512_1_0_n_n_0_1_1512_wf : GatherDims.WF S100000x512 S250000x1 S250000x512 [1] [0] [] [0] [] 1 ![1, 512]
  gather_S100000_S250000x1_S250000_n_0_n_n_0_1_1_wf : GatherDims.WF S100000 S250000x1 S250000 [] [0] [] [0] [] 1 ![1]
  scatter_S100000x512_S250000x1_S250000x512_1_0_0_1_wf : ScatterDims.WF S100000x512 S250000x1 S250000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S100000x512.size a
  hwx0_0 : ∀ i : grid0.Coords, EltTy.bits .f32 = 32 ∨ (Rect.block (s := S100000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S100000x512.size a
  hwx0_3 : ∀ i : grid0.Coords, EltTy.bits .f32 = 32 ∨ (Rect.block (s := S100000x512) S1000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S100000x256.size a
  hwx1_0 : ∀ i : grid1.Coords, EltTy.bits .f32 = 32 ∨ (Rect.block (s := S100000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .f32 = 32 ∨ (Rect.block (s := S256x512) S256x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x512.size a ≤ S100000x512.size a
  hwx1_3 : ∀ i : grid1.Coords, EltTy.bits .f32 = 32 ∨ (Rect.block (s := S100000x512) S1000x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S100000x512.size a
  hwx2_0 : ∀ i : grid2.Coords, EltTy.bits .f32 = 32 ∨ (Rect.block (s := S100000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x512.size a ≤ S100000x512.size a
  hwx2_1 : ∀ i : grid2.Coords, EltTy.bits .f32 = 32 ∨ (Rect.block (s := S100000x512) S1000x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S100000x1.size a
  hwx2_2 : ∀ i : grid2.Coords, EltTy.bits .f32 = 32 ∨ (Rect.block (s := S100000x1) S1000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x1.size a ≤ S100000x1.size a
  hwx2_3 : ∀ i : grid2.Coords, EltTy.bits .f32 = 32 ∨ (Rect.block (s := S100000x1) S1000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S512x512.size a
  hwx2_4 : ∀ i : grid2.Coords, EltTy.bits .f32 = 32 ∨ (Rect.block (s := S512x512) S512x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S512x512.size a
  hwx2_5 : ∀ i : grid2.Coords, EltTy.bits .f32 = 32 ∨ (Rect.block (s := S512x512) S512x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x512.size a ≤ S100000x512.size a
  hwx2_7 : ∀ i : grid2.Coords, EltTy.bits .f32 = 32 ∨ (Rect.block (s := S100000x512) S1000x512.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S100000x512.size a
  hwx3_0 : ∀ i : grid3.Coords, EltTy.bits .f32 = 32 ∨ (Rect.block (s := S100000x512) S1000x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x512.size a ≤ S100000x512.size a
  hwx3_1 : ∀ i : grid3.Coords, EltTy.bits .f32 = 32 ∨ (Rect.block (s := S100000x512) S1000x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x1.size a ≤ S100000x1.size a
  hwx3_2 : ∀ i : grid3.Coords, EltTy.bits .f32 = 32 ∨ (Rect.block (s := S100000x1) S1000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x1.size a ≤ S100000x1.size a
  hwx3_3 : ∀ i : grid3.Coords, EltTy.bits .f32 = 32 ∨ (Rect.block (s := S100000x1) S1000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S512x512.size a
  hwx3_4 : ∀ i : grid3.Coords, EltTy.bits .f32 = 32 ∨ (Rect.block (s := S512x512) S512x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x512.size a ≤ S512x512.size a
  hwx3_5 : ∀ i : grid3.Coords, EltTy.bits .f32 = 32 ∨ (Rect.block (s := S512x512) S512x512.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x512.size a ≤ S1x512.size a
  hwx3_6 : ∀ i : grid3.Coords, EltTy.bits .f32 = 32 ∨ (Rect.block (s := S1x512) S1x512.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1000x512.size a ≤ S100000x512.size a
  hwx3_7 : ∀ i : grid3.Coords, EltTy.bits .f32 = 32 ∨ (Rect.block (s := S100000x512) S1000x512.size (cc3_transform_7 i) (hinb3_7 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf
def scatter_S100000_S250000x1_S250000_n_0_0_1 : ScatterDims S100000 S250000x1 S250000 where
  updateWindowDims := []
  insertedWindowDims := [0]
  scatterDimsToOperandDims := [0]
  indexVectorDim := 1
  wf := scatter_S100000_S250000x1_S250000_n_0_0_1_wf
def gather_S100000x512_S250000x1_S250000x512_1_0_n_n_0_1_1512 : GatherDims S100000x512 S250000x1 S250000x512 where
  offsetDims := [1]
  collapsedSliceDims := [0]
  operandBatchingDims := []
  startIndicesBatchingDims := []
  startIndexMap := [0]
  indexVectorDim := 1
  sliceSizes := ![1, 512]
  wf := gather_S100000x512_S250000x1_S250000x512_1_0_n_n_0_1_1512_wf
def gather_S100000_S250000x1_S250000_n_0_n_n_0_1_1 : GatherDims S100000 S250000x1 S250000 where
  offsetDims := []
  collapsedSliceDims := [0]
  operandBatchingDims := []
  startIndicesBatchingDims := []
  startIndexMap := [0]
  indexVectorDim := 1
  sliceSizes := ![1]
  wf := gather_S100000_S250000x1_S250000_n_0_n_n_0_1_1_wf
def scatter_S100000x512_S250000x1_S250000x512_1_0_0_1 : ScatterDims S100000x512 S250000x1 S250000x512 where
  updateWindowDims := [1]
  insertedWindowDims := [0]
  scatterDimsToOperandDims := [0]
  indexVectorDim := 1
  wf := scatter_S100000x512_S250000x1_S250000x512_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v36) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S1000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v137) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v138) S1000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S512x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S512x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v139) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v140) S1000x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v102) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v135) S1000x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v142) S1000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v143) S1000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S512x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S512x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v144) S1x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v145) S1000x512.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x512 : Shape := ⟨2, ![100000, 512]⟩
abbrev S100000x256 : Shape := ⟨2, ![100000, 256]⟩
abbrev S512x512 : Shape := ⟨2, ![512, 512]⟩
abbrev S512 : Shape := ⟨1, ![512]⟩
abbrev S256x512 : Shape := ⟨2, ![256, 512]⟩
abbrev S250000 : Shape := ⟨1, ![250000]⟩
abbrev S1x512 : Shape := ⟨2, ![1, 512]⟩
abbrev S_ : Shape := ⟨0, ![]⟩
abbrev S100000 : Shape := ⟨1, ![100000]⟩
abbrev S250000x1 : Shape := ⟨2, ![250000, 1]⟩
abbrev S100000x1 : Shape := ⟨2, ![100000, 1]⟩
abbrev S250000x512 : Shape := ⟨2, ![250000, 512]⟩

abbrev nBuf : Space → Nat
  | .hbm => 202
  | .vmem => 0
  | .smem => 0
  | _ => 0

abbrev hbmTy0_0 (i : Nat) : BufTy := match i % 128 with
  | 0 => ⟨S100000x512, .f32⟩
  | 1 => ⟨S100000x256, .f32⟩
  | 2 => ⟨S512x512, .f32⟩
  | 3 => ⟨S512, .f32⟩
  | 4 => ⟨S256x512, .f32⟩
  | 5 => ⟨S512, .f32⟩
  | 6 => ⟨S512x512, .f32⟩
  | 7 => ⟨S512, .f32⟩
  | 8 => ⟨S512x512, .f32⟩
  | 9 => ⟨S512, .f32⟩
  | 10 => ⟨S512x512, .f32⟩
  | 11 => ⟨S512, .f32⟩
  | 12 => ⟨S512x512, .f32⟩
  | 13 => ⟨S512, .f32⟩
  | 14 => ⟨S250000, .i32⟩
  | 15 => ⟨S250000, .i32⟩
  | 16 => ⟨S250000, .i32⟩
  | 17 => ⟨S250000, .i32⟩
  | 18 => ⟨S250000, .i32⟩
  | 19 => ⟨S250000, .i32⟩
  | 20 => ⟨S250000, .i32⟩
  | 21 => ⟨S250000, .i32⟩
  | 22 => ⟨S100000x512, .f32⟩
  | 23 => ⟨S1x512, .f32⟩
  | 24 => ⟨S100000x512, .f32⟩
  | 25 => ⟨S100000x512, .f32⟩
  | 26 => ⟨S100000x512, .f32⟩
  | 27 => ⟨S1x512, .f32⟩
  | 28 => ⟨S100000x512, .f32⟩
  | 29 => ⟨S100000x512, .f32⟩
  | 30 => ⟨S_, .f32⟩
  | 31 => ⟨S250000, .f32⟩
  | 32 => ⟨S_, .f32⟩
  | 33 => ⟨S100000, .f32⟩
  | 34 => ⟨S250000x1, .i32⟩
  | 35 => ⟨S100000, .f32⟩
  | 36 => ⟨S_, .f32⟩
  | 37 => ⟨S100000, .f32⟩
  | 38 => ⟨S250000x1, .i32⟩
  | 39 => ⟨S100000, .f32⟩
  | 40 => ⟨S_, .f32⟩
  | 41 => ⟨S100000, .f32⟩
  | 42 => ⟨S100000, .f32⟩
  | 43 => ⟨S100000, .f32⟩
  | 44 => ⟨S_, .f32⟩
  | 45 => ⟨S100000, .f32⟩
  | 46 => ⟨S100000, .f32⟩
  | 47 => ⟨S100000, .f32⟩
  | 48 => ⟨S100000x1, .f32⟩
  | 49 => ⟨S100000x512, .f32⟩
  | 50 => ⟨S100000x512, .f32⟩
  | 51 => ⟨S_, .i32⟩
  | 52 => ⟨S250000, .i32⟩
  | 53 => ⟨S250000, .i1⟩
  | 54 => ⟨S_, .i32⟩
  | 55 => ⟨S250000, .i32⟩
  | 56 => ⟨S250000, .i32⟩
  | 57 => ⟨S250000, .i32⟩
  | 58 => ⟨S250000x1, .i32⟩
  | 59 => ⟨S250000x512, .f32⟩
  | 60 => ⟨S_, .f32⟩
  | 61 => ⟨S100000x512, .f32⟩
  | 62 => ⟨S250000x1, .i32⟩
  | 63 => ⟨S100000x512, .f32⟩
  | 64 => ⟨S100000x1, .f32⟩
  | 65 => ⟨S100000x512, .f32⟩
  | 66 => ⟨S100000x512, .f32⟩
  | 67 => ⟨S100000x512, .f32⟩
  | 68 => ⟨S1x512, .f32⟩
  | 69 => ⟨S100000x512, .f32⟩
  | 70 => ⟨S100000x512, .f32⟩
  | 71 => ⟨S_, .f32⟩
  | 72 => ⟨S250000, .f32⟩
  | 73 => ⟨S_, .f32⟩
  | 74 => ⟨S100000, .f32⟩
  | 75 => ⟨S250000x1, .i32⟩
  | 76 => ⟨S100000, .f32⟩
  | 77 => ⟨S_, .f32⟩
  | 78 => ⟨S100000, .f32⟩
  | 79 => ⟨S250000x1, .i32⟩
  | 80 => ⟨S100000, .f32⟩
  | 81 => ⟨S_, .f32⟩
  | 82 => ⟨S100000, .f32⟩
  | 83 => ⟨S100000, .f32⟩
  | 84 => ⟨S100000, .f32⟩
  | 85 => ⟨S_, .f32⟩
  | 86 => ⟨S100000, .f32⟩
  | 87 => ⟨S100000, .f32⟩
  | 88 => ⟨S100000, .f32⟩
  | 89 => ⟨S100000x1, .f32⟩
  | 90 => ⟨S100000x512, .f32⟩
  | 91 => ⟨S100000x512, .f32⟩
  | 92 => ⟨S_, .i32⟩
  | 93 => ⟨S250000, .i32⟩
  | 94 => ⟨S250000, .i1⟩
  | 95 => ⟨S_, .i32⟩
  | 96 => ⟨S250000, .i32⟩
  | 97 => ⟨S250000, .i32⟩
  | 98 => ⟨S250000, .i32⟩
  | 99 => ⟨S250000x1, .i32⟩
  | 100 => ⟨S250000x512, .f32⟩
  | 101 => ⟨S_, .f32⟩
  | 102 => ⟨S100000x512, .f32⟩
  | 103 => ⟨S250000x1, .i32⟩
  | 104 => ⟨S100000x512, .f32⟩
  | 105 => ⟨S100000x1, .f32⟩
  | 106 => ⟨S100000x512, .f32⟩
  | 107 => ⟨S100000x512, .f32⟩
  | 108 => ⟨S100000x512, .f32⟩
  | 109 => ⟨S1x512, .f32⟩
  | 110 => ⟨S100000x512, .f32⟩
  | 111 => ⟨S100000x512, .f32⟩
  | 112 => ⟨S_, .f32⟩
  | 113 => ⟨S250000, .f32⟩
  | 114 => ⟨S_, .f32⟩
  | 115 => ⟨S100000, .f32⟩
  | 116 => ⟨S250000x1, .i32⟩
  | 117 => ⟨S100000, .f32⟩
  | 118 => ⟨S_, .f32⟩
  | 119 => ⟨S100000, .f32⟩
  | 120 => ⟨S250000x1, .i32⟩
  | 121 => ⟨S100000, .f32⟩
  | 122 => ⟨S_, .f32⟩
  | 123 => ⟨S100000, .f32⟩
  | 124 => ⟨S100000, .f32⟩
  | 125 => ⟨S100000, .f32⟩
  | 126 => ⟨S_, .f32⟩
  | 127 => ⟨S100000, .f32⟩
  | _ => ⟨S100000x512, .f32⟩

abbrev hbmTy0_1 (i : Nat) : BufTy := match i % 128 with
  | 0 => ⟨S100000, .f32⟩
  | 1 => ⟨S100000, .f32⟩
  | 2 => ⟨S100000x1, .f32⟩
  | 3 => ⟨S100000x512, .f32⟩
  | 4 => ⟨S100000x512, .f32⟩
  | 5 => ⟨S_, .i32⟩
  | 6 => ⟨S250000, .i32⟩
  | 7 => ⟨S250000, .i1⟩
  | 8 => ⟨S_, .i32⟩
  | 9 => ⟨S250000, .i32⟩
  | 10 => ⟨S250000, .i32⟩
  | 11 => ⟨S250000, .i32⟩
  | 12 => ⟨S250000x1, .i32⟩
  | 13 => ⟨S250000x512, .f32⟩
  | 14 => ⟨S_, .f32⟩
  | 15 => ⟨S100000x512, .f32⟩
  | 16 => ⟨S250000x1, .i32⟩
  | 17 => ⟨S100000x512, .f32⟩
  | 18 => ⟨S100000x1, .f32⟩
  | 19 => ⟨S100000x512, .f32⟩
  | 20 => ⟨S100000x512, .f32⟩
  | 21 => ⟨S100000x512, .f32⟩
  | 22 => ⟨S1x512, .f32⟩
  | 23 => ⟨S100000x512, .f32⟩
  | 24 => ⟨S100000x512, .f32⟩
  | 25 => ⟨S_, .f32⟩
  | 26 => ⟨S250000, .f32⟩
  | 27 => ⟨S_, .f32⟩
  | 28 => ⟨S100000, .f32⟩
  | 29 => ⟨S250000x1, .i32⟩
  | 30 => ⟨S100000, .f32⟩
  | 31 => ⟨S_, .f32⟩
  | 32 => ⟨S100000, .f32⟩
  | 33 => ⟨S250000x1, .i32⟩
  | 34 => ⟨S100000, .f32⟩
  | 35 => ⟨S_, .f32⟩
  | 36 => ⟨S100000, .f32⟩
  | 37 => ⟨S100000, .f32⟩
  | 38 => ⟨S100000, .f32⟩
  | 39 => ⟨S_, .f32⟩
  | 40 => ⟨S100000, .f32⟩
  | 41 => ⟨S100000, .f32⟩
  | 42 => ⟨S100000, .f32⟩
  | 43 => ⟨S100000x1, .f32⟩
  | 44 => ⟨S100000x512, .f32⟩
  | 45 => ⟨S100000x512, .f32⟩
  | 46 => ⟨S_, .i32⟩
  | 47 => ⟨S250000, .i32⟩
  | 48 => ⟨S250000, .i1⟩
  | 49 => ⟨S_, .i32⟩
  | 50 => ⟨S250000, .i32⟩
  | 51 => ⟨S250000, .i32⟩
  | 52 => ⟨S250000, .i32⟩
  | 53 => ⟨S250000x1, .i32⟩
  | 54 => ⟨S250000x512, .f32⟩
  | 55 => ⟨S_, .f32⟩
  | 56 => ⟨S100000x512, .f32⟩
  | 57 => ⟨S250000x1, .i32⟩
  | 58 => ⟨S100000x512, .f32⟩
  | 59 => ⟨S100000x1, .f32⟩
  | 60 => ⟨S100000x512, .f32⟩
  | 61 => ⟨S100000x512, .f32⟩
  | 62 => ⟨S100000x512, .f32⟩
  | 63 => ⟨S1x512, .f32⟩
  | 64 => ⟨S100000x512, .f32⟩
  | 65 => ⟨S100000x512, .f32⟩
  | 66 => ⟨S100000x512, .f32⟩
  | 67 => ⟨S_, .f32⟩
  | 68 => ⟨S100000x512, .f32⟩
  | 69 => ⟨S100000x512, .f32⟩
  | 70 => ⟨S100000x512, .f32⟩
  | 71 => ⟨S_, .f32⟩
  | 72 => ⟨S100000x512, .f32⟩
  | 73 => ⟨S100000x512, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_cst_0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_1 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_2 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c : Ref sig .tc := ⟨.hbm, 51, rfl⟩
abbrev main_v24 : Ref sig .tc := ⟨.hbm, 52, rfl⟩
abbrev main_v25 : Ref sig .tc := ⟨.hbm, 53, rfl⟩
abbrev main_c_4 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_5 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_6 : Ref sig .tc := ⟨.hbm, 71, rfl⟩
abbrev main_v41 : Ref sig .tc := ⟨.hbm, 72, rfl⟩
abbrev main_cst_7 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_8 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_9 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_10 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_11 : Ref sig .tc := ⟨.hbm, 92, rfl⟩
abbrev main_v57 : Ref sig .tc := ⟨.hbm, 93, rfl⟩
abbrev main_v58 : Ref sig .tc := ⟨.hbm, 94, rfl⟩
abbrev main_c_12 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_13 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_14 : Ref sig .tc := ⟨.hbm, 112, rfl⟩
abbrev main_v74 : Ref sig .tc := ⟨.hbm, 113, rfl⟩
abbrev main_cst_15 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_16 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_17 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_18 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_c_19 : Ref sig .tc := ⟨.hbm, 133, rfl⟩
abbrev main_v90 : Ref sig .tc := ⟨.hbm, 134, rfl⟩
abbrev main_v91 : Ref sig .tc := ⟨.hbm, 135, rfl⟩
abbrev main_c_20 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_21 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_22 : Ref sig .tc := ⟨.hbm, 153, rfl⟩
abbrev main_v107 : Ref sig .tc := ⟨.hbm, 154, rfl⟩
abbrev main_cst_23 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_cst_24 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_25 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_26 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_c_27 : Ref sig .tc := ⟨.hbm, 174, rfl⟩
abbrev main_v123 : Ref sig .tc := ⟨.hbm, 175, rfl⟩
abbrev main_v124 : Ref sig .tc := ⟨.hbm, 176, rfl⟩
abbrev main_c_28 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_cst_29 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_cst_30 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_cst_31 : Ref sig .tc := ⟨.hbm, 199, rfl⟩
abbrev main_v144 : Ref sig .tc := ⟨.hbm, 200, rfl⟩
abbrev main_v145 : Ref sig .tc := ⟨.hbm, 201, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S250000 : S_.BroadcastsInDim S250000 (![] : Fin 0 → Fin S250000.rank)
  bcast_S_S100000 : S_.BroadcastsInDim S100000 (![] : Fin 0 → Fin S100000.rank)
  bcast_S250000_S250000x1_0 : S250000.BroadcastsInDim S250000x1 (![0] : Fin 1 → Fin S250000x1.rank)
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  bcast_S_S100000x512 : S_.BroadcastsInDim S100000x512 (![] : Fin 0 → Fin S100000x512.rank)
  dot_S100000x512_S512x512_S100000x512_1_0_0_1_n_n_wf : DotDims.WF S100000x512 S512x512 S100000x512 [1] [0] [0] [1] [] []
  dot_S100000x256_S256x512_S100000x512_1_0_0_1_n_n_wf : DotDims.WF S100000x256 S256x512 S100000x512 [1] [0] [0] [1] [] []
  scatter_S100000_S250000x1_S250000_n_0_0_1_wf : ScatterDims.WF S100000 S250000x1 S250000 [] [0] [0] 1
  gather_S100000x512_S250000x1_S250000x512_1_0_n_n_0_1_1512_wf : GatherDims.WF S100000x512 S250000x1 S250000x512 [1] [0] [] [0] [] 1 ![1, 512]
  scatter_S100000x512_S250000x1_S250000x512_1_0_0_1_wf : ScatterDims.WF S100000x512 S250000x1 S250000x512 [1] [0] [0] 1

variable [Facts₀]

def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def dot_S100000x256_S256x512_S100000x512_1_0_0_1_n_n : DotDims S100000x256 S256x512 S100000x512 where
  lhsContracting := [1]
  rhsContracting := [0]
  lhsNonContracting := [0]
  rhsNonContracting := [1]
  lhsBatch := []
  rhsBatch := []
  wf := dot_S100000x256_S256x512_S100000x512_1_0_0_1_n_n_wf
def scatter_S100000_S250000x1_S250000_n_0_0_1 : ScatterDims S100000 S250000x1 S250000 where
  updateWindowDims := []
  insertedWindowDims := [0]
  scatterDimsToOperandDims := [0]
  indexVectorDim := 1
  wf := scatter_S100000_S250000x1_S250000_n_0_0_1_wf
def gather_S100000x512_S250000x1_S250000x512_1_0_n_n_0_1_1512 : GatherDims S100000x512 S250000x1 S250000x512 where
  offsetDims := [1]
  collapsedSliceDims := [0]
  operandBatchingDims := []
  startIndicesBatchingDims := []
  startIndexMap := [0]
  indexVectorDim := 1
  sliceSizes := ![1, 512]
  wf := gather_S100000x512_S250000x1_S250000x512_1_0_n_n_0_1_1512_wf
def scatter_S100000x512_S250000x1_S250000x512_1_0_0_1 : ScatterDims S100000x512 S250000x1 S250000x512 where
  updateWindowDims := [1]
  insertedWindowDims := [0]
  scatterDimsToOperandDims := [0]
  indexVectorDim := 1
  wf := scatter_S100000x512_S250000x1_S250000x512_1_0_0_1_wf

class Facts : Prop extends Facts₀ where

variable [Facts]
-- ==== Proof.KernelRun.lean ====
/-
  The idealized kernel program's run with its two result buffers kept.

  @main is eight segments: a stretch of host operations, then a pipelined region, four times over. The generated frame
  carries every unscoped buffer through the segments at named contents — after the last region, core c's buffer b
  holds `W8 m ρ c b` — and then reads only the argument arrays back. Here the same run is read at the two result
  buffers as well: every weakly fair execution terminates with the drug result at `W8` of its buffer, the gene
  result at `W8` of its buffer, and the arguments as launched.
-/
import proofs.«149234_j88510686036237_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with each result buffer at the contents the
    last segment boundary names for it and the argument arrays as launched. -/
theorem run_results : θ_run defs (onTc (τ := τ) (main (F := F))) ⟨m, fun _ => 0, ρ⟩ (fun r => ∀ c : Dev nD,
      r.2.mem ((c.tc : Thread nD τ).loc main_v140) = W8 m ρ c (Proc.devRef .tc main_v140)
      ∧ r.2.mem ((c.tc : Thread nD τ).loc main_v145) = W8 m ρ c (Proc.devRef .tc main_v145)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v140 (by decide)),
       h c _ (mem_uc main_v145 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c)⟩)

end Cert.KernelIdeal.RunValue

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.BodyEntries.lean ====
/-
  The four kernel bodies read at one entry of their output block, at exact arithmetic.

  A projection body (two of them, with 512 and with 256 input features) stores, at entry (p, q) of its 1000 x 512
  block,   1 · Σₖ x(p,k) · W(k,q)  +  1 · b(0,q).
  A fused body (two of them, identical text) scales the rows of two aggregate blocks by two [1000,1] columns,
  multiplies each by its weight matrix, adds the two products and stores
      ½ · ( Σₖ (A(p,k)·nₐ(p,0)) · W₁(k,q) + Σₖ (B(p,k)·n_b(p,0)) · W₂(k,q) )  +  ½ · bias(0,q).
  The changes of float format on the way into the matrix unit are the identity at exact arithmetic, and a matrix
  product into a zero accumulator is the plain sum over the contracted axis.
-/
import proofs.«149234_j88510686036237_2_alg».proof.Proof.Gen.KernelIdeal.Skeleton
import proofs.«149234_j88510686036237_2_alg».proof.Proof.LibDotEntry
import proofs.«149234_j88510686036237_2_alg».proof.Proof.LibMatDims
import Idealize.ShloMosaic.Lib.ValueIdx
import Idealize.ShloMosaic.Lib.ValueLayout
import Idealize.ShloMosaic.Lib.Pipeline.Value

noncomputable section

namespace Cert.KernelIdeal.Entries

open Cert.KernelIdeal Cert.KernelIdeal.Gen Idealize.ShloMosaic Idealize.ShloMosaic.TcCoe Idealize.ShloMosaic.ValueIdx
open Cert.Lib

/-- An [a,1] column repeated along the rows of an [a,b] block reads, at (p, c), the column's row p. -/
theorem column_repeat {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The 1000 x 512 by 512 x 512 product of the matrix unit into a zero accumulator, at an entry. -/
theorem product512 {φ₁ φ₂ : FTy} (l : FVec Ideal S1000x512 φ₁) (r : FVec Ideal S512x512 φ₂) (p : Fin 1000) (q : Fin 512) :
    matmul dot_S1000x512_S512x512_S1000x512_1_0_0_1_n_n none l r (constant (F := Ideal) S1000x512 .f32 0x00000000#32) (ix2 p q)
      = ∑ k : Fin 512, l (ix2 p k) * r (ix2 k q) :=
  DotEntry.matmul_zero_ix2 (m := 1000) (K := 512) (n := 512) dot_S1000x512_S512x512_S1000x512_1_0_0_1_n_n
    (MatDims.contr_rank _ rfl) (MatDims.contr_size _ rfl) (MatDims.lhs_row _ rfl rfl) (MatDims.lhs_col _ rfl)
    (MatDims.rhs_row _ rfl rfl) (MatDims.rhs_col _ rfl rfl rfl rfl) l r p q

/-- The 1000 x 256 by 256 x 512 product of the matrix unit into a zero accumulator, at an entry. -/
theorem product256 {φ₁ φ₂ : FTy} (l : FVec Ideal S1000x256 φ₁) (r : FVec Ideal S256x512 φ₂) (p : Fin 1000) (q : Fin 512) :
    matmul dot_S1000x256_S256x512_S1000x512_1_0_0_1_n_n none l r (constant (F := Ideal) S1000x512 .f32 0x00000000#32) (ix2 p q)
      = ∑ k : Fin 256, l (ix2 p k) * r (ix2 k q) :=
  DotEntry.matmul_zero_ix2 (m := 1000) (K := 256) (n := 512) dot_S1000x256_S256x512_S1000x512_1_0_0_1_n_n
    (MatDims.contr_rank _ rfl) (MatDims.contr_size _ rfl) (MatDims.lhs_row _ rfl rfl) (MatDims.lhs_col _ rfl)
    (MatDims.rhs_row _ rfl rfl) (MatDims.rhs_col _ rfl rfl rfl rfl) l r p q

/-- The drug projection's body at entry (p, q). -/
theorem projection512 (x : FVec Ideal S1000x512 .f32) (w : FVec Ideal S512x512 .f32) (b : FVec Ideal S1x512 .f32)
    (p : Fin 1000) (q : Fin 512) :
    k0_pay1 (F := Ideal) x w b (ix2 p q)
      = Ideal.ofBits .f32 0x3F800000#32 * (∑ k : Fin 512, x (ix2 p k) * w (ix2 k q))
        + Ideal.ofBits .f32 0x3F800000#32 * b (ix2 (0 : Fin 1) q) := by
  unfold k0_pay1
  rw [addf_apply, mulf_apply, broadcast_apply, product512, ValueIdx.broadcastTo_1b_ab_apply, mulf_apply, broadcast_apply,
    shapeCast_self]
  rfl

/-- The gene projection's body at entry (p, q). -/
theorem projection256 (x : FVec Ideal S1000x256 .f32) (w : FVec Ideal S256x512 .f32) (b : FVec Ideal S1x512 .f32)
    (p : Fin 1000) (q : Fin 512) :
    k1_pay1 (F := Ideal) x w b (ix2 p q)
      = Ideal.ofBits .f32 0x3F800000#32 * (∑ k : Fin 256, x (ix2 p k) * w (ix2 k q))
        + Ideal.ofBits .f32 0x3F800000#32 * b (ix2 (0 : Fin 1) q) := by
  unfold k1_pay1
  rw [addf_apply, mulf_apply, broadcast_apply, product256, ValueIdx.broadcastTo_1b_ab_apply, mulf_apply, broadcast_apply,
    shapeCast_self]
  rfl

/-- The fused body (drug side) at entry (p, q). -/
theorem fused (a : FVec Ideal S1000x512 .f32) (na : FVec Ideal S1000x1 .f32) (b : FVec Ideal S1000x512 .f32)
    (nb : FVec Ideal S1000x1 .f32) (w1 w2 : FVec Ideal S512x512 .f32) (bias : FVec Ideal S1x512 .f32)
    (p : Fin 1000) (q : Fin 512) :
    k2_pay1 (F := Ideal) a na b nb w1 w2 bias (ix2 p q)
      = Ideal.ofBits .f32 0x3F000000#32
          * ((∑ k : Fin 512, (a (ix2 p k) * na (ix2 p (0 : Fin 1))) * w1 (ix2 k q))
            + ∑ k : Fin 512, (b (ix2 p k) * nb (ix2 p (0 : Fin 1))) * w2 (ix2 k q))
        + Ideal.ofBits .f32 0x3F000000#32 * bias (ix2 (0 : Fin 1) q) := by
  unfold k2_pay1
  rw [addf_apply, mulf_apply, broadcast_apply, addf_apply, product512, product512, ValueIdx.broadcastTo_1b_ab_apply,
    mulf_apply, broadcast_apply]
  simp only [truncf_apply, mulf_apply, shapeCast_self, column_repeat]
  rfl

/-- The gene side's fused body is the same text. -/
theorem fused' (a : FVec Ideal S1000x512 .f32) (na : FVec Ideal S1000x1 .f32) (b : FVec Ideal S1000x512 .f32)
    (nb : FVec Ideal S1000x1 .f32) (w1 w2 : FVec Ideal S512x512 .f32) (bias : FVec Ideal S1x512 .f32)
    (p : Fin 1000) (q : Fin 512) :
    k3_pay1 (F := Ideal) a na b nb w1 w2 bias (ix2 p q)
      = Ideal.ofBits .f32 0x3F000000#32
          * ((∑ k : Fin 512, (a (ix2 p k) * na (ix2 p (0 : Fin 1))) * w1 (ix2 k q))
            + ∑ k : Fin 512, (b (ix2 p k) * nb (ix2 p (0 : Fin 1))) * w2 (ix2 k q))
        + Ideal.ofBits .f32 0x3F000000#32 * bias (ix2 (0 : Fin 1) q) :=
  fused a na b nb w1 w2 bias p q

end Cert.KernelIdeal.Entries

end
-- ==== Proof.Arrays.lean ====
/-
  The two whole-array functions the pipelined regions compute, entry by entry, at exact arithmetic.

  `projected x W b` : an [n, K] matrix times a [K, 512] matrix plus a [1, 512] row, each scaled by the literal 1
  exactly as the projection body spells it:      1 · Σₖ x(r,k)·W(k,q) + 1 · b(0,q).
  `mixed A B nₐ n_b W₁ W₂ bias` : the two aggregates, rows scaled by two [n,1] columns, through two weight matrices,
  halved, plus half the bias row:   ½ · (Σₖ (A(r,k)·nₐ(r,0))·W₁(k,q) + Σₖ (B(r,k)·n_b(r,0))·W₂(k,q)) + ½ · bias(0,q).
  The literals stay as their bit patterns here; only the final comparison with the reference reads them as reals.
-/
import Idealize.ShloMosaic.Lib.ValueIdx
import Idealize.ShloMosaic.PureOps.Ideal

noncomputable section

namespace Cert.Arrays

open Idealize.ShloMosaic Idealize.ShloMosaic.ValueIdx

/-- An [a, b] array given entry by entry. -/
def arrOf {a b : ℕ} (g : Fin a → Fin b → EReal) : (⟨2, ![a, b]⟩ : Shape).Idx → EReal := fun i => g (i 0) (i 1)

theorem arrOf_ix2 {a b : ℕ} (g : Fin a → Fin b → EReal) (p : Fin a) (q : Fin b) : arrOf g (ix2 p q) = g p q := rfl

/-- The literal 1 of the projection bodies. -/
abbrev lit1 : EReal := Ideal.ofBits .f32 0x3F800000#32
/-- The literal 1/2 of the fused bodies. -/
abbrev litHalf : EReal := Ideal.ofBits .f32 0x3F000000#32

/-- A projection: (x · W) and the bias row, each times the literal 1. -/
def projected {n K : ℕ} (x : (⟨2, ![n, K]⟩ : Shape).Idx → EReal) (w : (⟨2, ![K, 512]⟩ : Shape).Idx → EReal)
    (b : (⟨2, ![1, 512]⟩ : Shape).Idx → EReal) : (⟨2, ![n, 512]⟩ : Shape).Idx → EReal :=
  arrOf fun r q => lit1 * (∑ k : Fin K, x (ix2 r k) * w (ix2 k q)) + lit1 * b (ix2 (0 : Fin 1) q)

/-- The mean of two edge types' layers as the fused body spells it. -/
def mixed {n : ℕ} (a b : (⟨2, ![n, 512]⟩ : Shape).Idx → EReal) (na nb : (⟨2, ![n, 1]⟩ : Shape).Idx → EReal)
    (w1 w2 : (⟨2, ![512, 512]⟩ : Shape).Idx → EReal) (bias : (⟨2, ![1, 512]⟩ : Shape).Idx → EReal) :
    (⟨2, ![n, 512]⟩ : Shape).Idx → EReal :=
  arrOf fun r q =>
    litHalf * ((∑ k : Fin 512, (a (ix2 r k) * na (ix2 r (0 : Fin 1))) * w1 (ix2 k q))
      + ∑ k : Fin 512, (b (ix2 r k) * nb (ix2 r (0 : Fin 1))) * w2 (ix2 k q))
    + litHalf * bias (ix2 (0 : Fin 1) q)

end Cert.Arrays

end
-- ==== Proof.Region0.lean ====
/-
  Region 0 (a projection): what its output array holds after the region.

  The grid has 100 points; point t reads rows 1000·t … 1000·t + 999 of the [100000, 512] input, the whole weight
  matrix and the whole bias row, and writes back rows 1000·t … 1000·t + 999 of the output. At entry (p, q) of its block
  the body leaves  1 · Σₖ x(1000·t + p, k) · W(k, q) + 1 · b(0, q),  which is entry (1000·t + p, q) of ONE function of the
  whole arrays; the 100 blocks tile the output, so after the region the output array IS that function of the arrays
  the region found.
-/
import proofs.«149234_j88510686036237_2_alg».proof.Proof.Gen.KernelIdeal.Frame
import proofs.«149234_j88510686036237_2_alg».proof.Proof.BodyEntries
import proofs.«149234_j88510686036237_2_alg».proof.Proof.Arrays

set_option maxRecDepth 16384

noncomputable section

namespace Cert.KernelIdeal.Region0

open Cert.KernelIdeal Cert.KernelIdeal.Gen Cert.Arrays
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input and the output move one block of rows per point, the weight
    matrix and the bias row stay. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 100 := lt_of_lt_of_eq t.isLt N_0

/-- Row p of point t's block is row 1000·t + p of the array. -/
def rowAt (t : Fin cfg0.N) (p : Fin 1000) : Fin 100000 :=
  ⟨t.val * 1000 + p.val, by have := point_lt t; have := p.isLt; omega⟩

/-- The input block at a point, read at an entry. -/
theorem read_input (c : Dev nD) (t : Fin cfg0.N) (p : Fin 1000) (k : Fin 512) :
    iblk0 V c 0 t (ix2 p k) = V c main_arg0 (ix2 (rowAt t p) k) := by
  obtain ⟨e0, e1, -⟩ := index_maps t
  show V c main_arg0 (((cfg0.win 0).blk t).view.emb (ix2 p k)) = _
  refine congrArg (V c main_arg0) (funext fun a => Fin.ext ?_)
  match a with
  | ⟨0, _⟩ => show win0_0.index t (0 : Fin 2) * 1000 + 1 * p.val = t.val * 1000 + p.val; omega
  | ⟨1, _⟩ => show win0_0.index t (1 : Fin 2) * 512 + 1 * k.val = k.val; omega

/-- The weight block at any point is the whole matrix. -/
theorem read_weight (c : Dev nD) (t : Fin cfg0.N) (k : Fin 512) (q : Fin 512) :
    iblk0 V c 1 t (ix2 k q) = V c main_arg2 (ix2 k q) := by
  obtain ⟨-, -, e0, e1, -⟩ := index_maps t
  show V c main_arg2 (((cfg0.win 1).blk t).view.emb (ix2 k q)) = _
  refine congrArg (V c main_arg2) (funext fun a => Fin.ext ?_)
  match a with
  | ⟨0, _⟩ => show win0_1.index t (0 : Fin 2) * 512 + 1 * k.val = k.val; omega
  | ⟨1, _⟩ => show win0_1.index t (1 : Fin 2) * 512 + 1 * q.val = q.val; omega

/-- The bias block at any point is the whole row. -/
theorem read_bias (c : Dev nD) (t : Fin cfg0.N) (z : Fin 1) (q : Fin 512) :
    iblk0 V c 2 t (ix2 z q) = V c main_v0 (ix2 z q) := by
  obtain ⟨-, -, -, -, e0, e1, -⟩ := index_maps t
  show V c main_v0 (((cfg0.win 2).blk t).view.emb (ix2 z q)) = _
  refine congrArg (V c main_v0) (funext fun a => Fin.ext ?_)
  match a with
  | ⟨0, _⟩ => show win0_2.index t (0 : Fin 2) * 1 + 1 * z.val = z.val; omega
  | ⟨1, _⟩ => show win0_2.index t (1 : Fin 2) * 512 + 1 * q.val = q.val; omega

/-- Entry (p, q) of point t's output block sits at (1000·t + p, q) of the output array. -/
theorem out_position (t : Fin cfg0.N) (p : Fin 1000) (q : Fin 512) :
    ((cfg0.win 3).blk t).view.emb (ix2 p q) = ix2 (rowAt t p) q := by
  obtain ⟨-, -, -, -, -, -, e0, e1⟩ := index_maps t
  refine funext fun a => Fin.ext ?_
  match a with
  | ⟨0, _⟩ => show win0_3.index t (0 : Fin 2) * 1000 + 1 * p.val = t.val * 1000 + p.val; omega
  | ⟨1, _⟩ => show win0_3.index t (1 : Fin 2) * 512 + 1 * q.val = q.val; omega

/-- What point t writes back is block t of the projection of the arrays the region found. -/
theorem flushed_eq (c : Dev nD) (t : Fin cfg0.N) :
    (dat0 V c).flushed 3 t
      = ((cfg0.win 3).blk t).view.read (Elt Ideal) (projected (V c main_arg0) (V c main_arg2) (V c main_v0)) := by
  show (cfg0.win 3).cut (grid0.coords t) ((dat0 V c).after 3 t) = _
  rw [after0_3]
  unfold out0_3
  rw [View.canon_unit_zero origin]
  simp only [View.ld_unit_zero (S := S1000x512) origin, View.ld_unit_zero (S := S512x512) origin,
    View.ld_unit_zero (S := S1x512) origin]
  funext j
  obtain ⟨p, q, rfl⟩ : ∃ (p : Fin 1000) (q : Fin 512), j = ix2 p q := ⟨j 0, j 1, eq_ix2 j⟩
  refine (Entries.projection512 (iblk0 V c 0 t) (iblk0 V c 1 t) (iblk0 V c 2 t) p q).trans ?_
  show _ = projected (V c main_arg0) (V c main_arg2) (V c main_v0) (((cfg0.win 3).blk t).view.emb (ix2 p q))
  rw [out_position t p q]
  simp only [read_input, read_weight, read_bias]
  rfl

/-- Every row of the output lies in some point's block: row r in point r / 1000's. -/
theorem covered (i : S100000x512.Idx) :
    ∃ t : Fin cfg0.N, (cfg0.win 3).flush t = true ∧ i ∈ ((cfg0.win 3).blk t).view.set := by
  have hi0 : (i 0).val < 100000 := idx2_lt0 i
  have hi1 : (i 1).val < 512 := idx2_lt1 i
  obtain ⟨t, ht⟩ : ∃ t : Fin cfg0.N, t.val = (i 0).val / 1000 :=
    ⟨⟨(i 0).val / 1000, lt_of_lt_of_eq (by omega : (i 0).val / 1000 < 100) N_0.symm⟩, rfl⟩
  obtain ⟨-, -, -, -, -, -, e0, e1⟩ := index_maps t
  refine ⟨t, flush0_3 t, ?_⟩
  show i ∈ ((View.whole main_v1).slice (win0_3.rect t)).set
  rw [View.set_slice_whole, Rect.mem_set_unit]
  intro a
  match a with
  | ⟨0, _⟩ =>
    show win0_3.index t (0 : Fin 2) * 1000 ≤ (i 0).val ∧ (i 0).val < win0_3.index t (0 : Fin 2) * 1000 + 1000
    omega
  | ⟨1, _⟩ =>
    show win0_3.index t (1 : Fin 2) * 512 ≤ (i 1).val ∧ (i 1).val < win0_3.index t (1 : Fin 2) * 512 + 512
    omega

/-- After the region its output array is the projection of the arrays it found. -/
theorem final (c : Dev nD) :
    (dat0 V c).arrAt 3 cfg0.N = projected (V c main_arg0) (V c main_arg2) (V c main_v0) :=
  (dat0 V c).arrAt_eq_of_cover 3 _ (fun t _ => flushed_eq V c t) covered

end Cert.KernelIdeal.Region0

end
-- ==== Proof.Region1.lean ====
/-
  Region 1 (a projection): what its output array holds after the region.

  The grid has 100 points; point t reads rows 1000·t … 1000·t + 999 of the [100000, 256] input, the whole weight
  matrix and the whole bias row, and writes back rows 1000·t … 1000·t + 999 of the output. At entry (p, q) of its block
  the body leaves  1 · Σₖ x(1000·t + p, k) · W(k, q) + 1 · b(0, q),  which is entry (1000·t + p, q) of ONE function of the
  whole arrays; the 100 blocks tile the output, so after the region the output array IS that function of the arrays
  the region found.
-/
import proofs.«149234_j88510686036237_2_alg».proof.Proof.Gen.KernelIdeal.Frame
import proofs.«149234_j88510686036237_2_alg».proof.Proof.BodyEntries
import proofs.«149234_j88510686036237_2_alg».proof.Proof.Arrays

set_option maxRecDepth 16384

noncomputable section

namespace Cert.KernelIdeal.Region1

open Cert.KernelIdeal Cert.KernelIdeal.Gen Cert.Arrays
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input and the output move one block of rows per point, the weight
    matrix and the bias row stay. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 100 := lt_of_lt_of_eq t.isLt N_1

/-- Row p of point t's block is row 1000·t + p of the array. -/
def rowAt (t : Fin cfg1.N) (p : Fin 1000) : Fin 100000 :=
  ⟨t.val * 1000 + p.val, by have := point_lt t; have := p.isLt; omega⟩

/-- The input block at a point, read at an entry. -/
theorem read_input (c : Dev nD) (t : Fin cfg1.N) (p : Fin 1000) (k : Fin 256) :
    iblk1 V c 0 t (ix2 p k) = V c main_arg1 (ix2 (rowAt t p) k) := by
  obtain ⟨e0, e1, -⟩ := index_maps t
  show V c main_arg1 (((cfg1.win 0).blk t).view.emb (ix2 p k)) = _
  refine congrArg (V c main_arg1) (funext fun a => Fin.ext ?_)
  match a with
  | ⟨0, _⟩ => show win1_0.index t (0 : Fin 2) * 1000 + 1 * p.val = t.val * 1000 + p.val; omega
  | ⟨1, _⟩ => show win1_0.index t (1 : Fin 2) * 256 + 1 * k.val = k.val; omega

/-- The weight block at any point is the whole matrix. -/
theorem read_weight (c : Dev nD) (t : Fin cfg1.N) (k : Fin 256) (q : Fin 512) :
    iblk1 V c 1 t (ix2 k q) = V c main_arg4 (ix2 k q) := by
  obtain ⟨-, -, e0, e1, -⟩ := index_maps t
  show V c main_arg4 (((cfg1.win 1).blk t).view.emb (ix2 k q)) = _
  refine congrArg (V c main_arg4) (funext fun a => Fin.ext ?_)
  match a with
  | ⟨0, _⟩ => show win1_1.index t (0 : Fin 2) * 256 + 1 * k.val = k.val; omega
  | ⟨1, _⟩ => show win1_1.index t (1 : Fin 2) * 512 + 1 * q.val = q.val; omega

/-- The bias block at any point is the whole row. -/
theorem read_bias (c : Dev nD) (t : Fin cfg1.N) (z : Fin 1) (q : Fin 512) :
    iblk1 V c 2 t (ix2 z q) = V c main_v2 (ix2 z q) := by
  obtain ⟨-, -, -, -, e0, e1, -⟩ := index_maps t
  show V c main_v2 (((cfg1.win 2).blk t).view.emb (ix2 z q)) = _
  refine congrArg (V c main_v2) (funext fun a => Fin.ext ?_)
  match a with
  | ⟨0, _⟩ => show win1_2.index t (0 : Fin 2) * 1 + 1 * z.val = z.val; omega
  | ⟨1, _⟩ => show win1_2.index t (1 : Fin 2) * 512 + 1 * q.val = q.val; omega

/-- Entry (p, q) of point t's output block sits at (1000·t + p, q) of the output array. -/
theorem out_position (t : Fin cfg1.N) (p : Fin 1000) (q : Fin 512) :
    ((cfg1.win 3).blk t).view.emb (ix2 p q) = ix2 (rowAt t p) q := by
  obtain ⟨-, -, -, -, -, -, e0, e1⟩ := index_maps t
  refine funext fun a => Fin.ext ?_
  match a with
  | ⟨0, _⟩ => show win1_3.index t (0 : Fin 2) * 1000 + 1 * p.val = t.val * 1000 + p.val; omega
  | ⟨1, _⟩ => show win1_3.index t (1 : Fin 2) * 512 + 1 * q.val = q.val; omega

/-- What point t writes back is block t of the projection of the arrays the region found. -/
theorem flushed_eq (c : Dev nD) (t : Fin cfg1.N) :
    (dat1 V c).flushed 3 t
      = ((cfg1.win 3).blk t).view.read (Elt Ideal) (projected (V c main_arg1) (V c main_arg4) (V c main_v2)) := by
  show (cfg1.win 3).cut (grid1.coords t) ((dat1 V c).after 3 t) = _
  rw [after1_3]
  unfold out1_3
  rw [View.canon_unit_zero origin]
  simp only [View.ld_unit_zero (S := S1000x256) origin, View.ld_unit_zero (S := S256x512) origin,
    View.ld_unit_zero (S := S1x512) origin]
  funext j
  obtain ⟨p, q, rfl⟩ : ∃ (p : Fin 1000) (q : Fin 512), j = ix2 p q := ⟨j 0, j 1, eq_ix2 j⟩
  refine (Entries.projection256 (iblk1 V c 0 t) (iblk1 V c 1 t) (iblk1 V c 2 t) p q).trans ?_
  show _ = projected (V c main_arg1) (V c main_arg4) (V c main_v2) (((cfg1.win 3).blk t).view.emb (ix2 p q))
  rw [out_position t p q]
  simp only [read_input, read_weight, read_bias]
  rfl

/-- Every row of the output lies in some point's block: row r in point r / 1000's. -/
theorem covered (i : S100000x512.Idx) :
    ∃ t : Fin cfg1.N, (cfg1.win 3).flush t = true ∧ i ∈ ((cfg1.win 3).blk t).view.set := by
  have hi0 : (i 0).val < 100000 := idx2_lt0 i
  have hi1 : (i 1).val < 512 := idx2_lt1 i
  obtain ⟨t, ht⟩ : ∃ t : Fin cfg1.N, t.val = (i 0).val / 1000 :=
    ⟨⟨(i 0).val / 1000, lt_of_lt_of_eq (by omega : (i 0).val / 1000 < 100) N_1.symm⟩, rfl⟩
  obtain ⟨-, -, -, -, -, -, e0, e1⟩ := index_maps t
  refine ⟨t, flush1_3 t, ?_⟩
  show i ∈ ((View.whole main_v3).slice (win1_3.rect t)).set
  rw [View.set_slice_whole, Rect.mem_set_unit]
  intro a
  match a with
  | ⟨0, _⟩ =>
    show win1_3.index t (0 : Fin 2) * 1000 ≤ (i 0).val ∧ (i 0).val < win1_3.index t (0 : Fin 2) * 1000 + 1000
    omega
  | ⟨1, _⟩ =>
    show win1_3.index t (1 : Fin 2) * 512 ≤ (i 1).val ∧ (i 1).val < win1_3.index t (1 : Fin 2) * 512 + 512
    omega

/-- After the region its output array is the projection of the arrays it found. -/
theorem final (c : Dev nD) :
    (dat1 V c).arrAt 3 cfg1.N = projected (V c main_arg1) (V c main_arg4) (V c main_v2) :=
  (dat1 V c).arrAt_eq_of_cover 3 _ (fun t _ => flushed_eq V c t) covered

end Cert.KernelIdeal.Region1

end
-- ==== Proof.Region2.lean ====
/-
  Region 2 (a fused mean of two edge types): what its output array holds after the region.

  The grid has 100 points; point t reads rows 1000·t … 1000·t + 999 of the two [100000, 512] aggregates and of the two
  [100000, 1] columns of destination norms, the two whole weight matrices and the whole bias row, and writes back the
  same rows of the output. At entry (p, q) of its block the body leaves
      ½ · ( Σₖ (A(r,k)·nₐ(r,0))·W₁(k,q) + Σₖ (B(r,k)·n_b(r,0))·W₂(k,q) ) + ½ · bias(0,q),      r = 1000·t + p,
  entry (r, q) of ONE function of the whole arrays; the 100 blocks tile the output, so after the region the output array
  IS that function of the arrays the region found.
-/
import proofs.«149234_j88510686036237_2_alg».proof.Proof.Gen.KernelIdeal.Frame
import proofs.«149234_j88510686036237_2_alg».proof.Proof.BodyEntries
import proofs.«149234_j88510686036237_2_alg».proof.Proof.Arrays

set_option maxRecDepth 16384

noncomputable section

namespace Cert.KernelIdeal.Region2

open Cert.KernelIdeal Cert.KernelIdeal.Gen Cert.Arrays
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the aggregates, the norm columns and the output move one block of rows per
    point; the weight matrices and the bias row stay. -/
theorem index_maps : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

theorem point_lt (t : Fin cfg2.N) : t.val < 100 := lt_of_lt_of_eq t.isLt N_2

/-- Row p of point t's block is row 1000·t + p of the array. -/
def rowAt (t : Fin cfg2.N) (p : Fin 1000) : Fin 100000 :=
  ⟨t.val * 1000 + p.val, by have := point_lt t; have := p.isLt; omega⟩

/-- The first aggregate's block at a point, read at an entry. -/
theorem read_first (c : Dev nD) (t : Fin cfg2.N) (p : Fin 1000) (k : Fin 512) :
    iblk2 V c 0 t (ix2 p k) = V c main_v36 (ix2 (rowAt t p) k) := by
  obtain ⟨e0, e1, -⟩ := index_maps t
  show V c main_v36 (((cfg2.win 0).blk t).view.emb (ix2 p k)) = _
  refine congrArg (V c main_v36) (funext fun a => Fin.ext ?_)
  match a with
  | ⟨0, _⟩ => show win2_0.index t (0 : Fin 2) * 1000 + 1 * p.val = t.val * 1000 + p.val; omega
  | ⟨1, _⟩ => show win2_0.index t (1 : Fin 2) * 512 + 1 * k.val = k.val; omega

/-- The second aggregate's block at a point, read at an entry. -/
theorem read_second (c : Dev nD) (t : Fin cfg2.N) (p : Fin 1000) (k : Fin 512) :
    iblk2 V c 1 t (ix2 p k) = V c main_v69 (ix2 (rowAt t p) k) := by
  obtain ⟨-, -, e0, e1, -⟩ := index_maps t
  show V c main_v69 (((cfg2.win 1).blk t).view.emb (ix2 p k)) = _
  refine congrArg (V c main_v69) (funext fun a => Fin.ext ?_)
  match a with
  | ⟨0, _⟩ => show win2_1.index t (0 : Fin 2) * 1000 + 1 * p.val = t.val * 1000 + p.val; omega
  | ⟨1, _⟩ => show win2_1.index t (1 : Fin 2) * 512 + 1 * k.val = k.val; omega

/-- The first norm column's block at a point. -/
theorem read_first_norm (c : Dev nD) (t : Fin cfg2.N) (p : Fin 1000) (z : Fin 1) :
    iblk2 V c 2 t (ix2 p z) = V c main_v137 (ix2 (rowAt t p) z) := by
  obtain ⟨-, -, -, -, e0, e1, -⟩ := index_maps t
  show V c main_v137 (((cfg2.win 2).blk t).view.emb (ix2 p z)) = _
  refine congrArg (V c main_v137) (funext fun a => Fin.ext ?_)
  match a with
  | ⟨0, _⟩ => show win2_2.index t (0 : Fin 2) * 1000 + 1 * p.val = t.val * 1000 + p.val; omega
  | ⟨1, _⟩ => show win2_2.index t (1 : Fin 2) * 1 + 1 * z.val = z.val; omega

/-- The second norm column's block at a point. -/
theorem read_second_norm (c : Dev nD) (t : Fin cfg2.N) (p : Fin 1000) (z : Fin 1) :
    iblk2 V c 3 t (ix2 p z) = V c main_v138 (ix2 (rowAt t p) z) := by
  obtain ⟨-, -, -, -, -, -, e0, e1, -⟩ := index_maps t
  show V c main_v138 (((cfg2.win 3).blk t).view.emb (ix2 p z)) = _
  refine congrArg (V c main_v138) (funext fun a => Fin.ext ?_)
  match a with
  | ⟨0, _⟩ => show win2_3.index t (0 : Fin 2) * 1000 + 1 * p.val = t.val * 1000 + p.val; omega
  | ⟨1, _⟩ => show win2_3.index t (1 : Fin 2) * 1 + 1 * z.val = z.val; omega

/-- The first weight block at any point is the whole matrix. -/
theorem read_first_weight (c : Dev nD) (t : Fin cfg2.N) (k : Fin 512) (q : Fin 512) :
    iblk2 V c 4 t (ix2 k q) = V c main_arg6 (ix2 k q) := by
  obtain ⟨-, -, -, -, -, -, -, -, e0, e1, -⟩ := index_maps t
  show V c main_arg6 (((cfg2.win 4).blk t).view.emb (ix2 k q)) = _
  refine congrArg (V c main_arg6) (funext fun a => Fin.ext ?_)
  match a with
  | ⟨0, _⟩ => show win2_4.index t (0 : Fin 2) * 512 + 1 * k.val = k.val; omega
  | ⟨1, _⟩ => show win2_4.index t (1 : Fin 2) * 512 + 1 * q.val = q.val; omega

/-- The second weight block at any point is the whole matrix. -/
theorem read_second_weight (c : Dev nD) (t : Fin cfg2.N) (k : Fin 512) (q : Fin 512) :
    iblk2 V c 5 t (ix2 k q) = V c main_arg10 (ix2 k q) := by
  obtain ⟨-, -, -, -, -, -, -, -, -, -, e0, e1, -⟩ := index_maps t
  show V c main_arg10 (((cfg2.win 5).blk t).view.emb (ix2 k q)) = _
  refine congrArg (V c main_arg10) (funext fun a => Fin.ext ?_)
  match a with
  | ⟨0, _⟩ => show win2_5.index t (0 : Fin 2) * 512 + 1 * k.val = k.val; omega
  | ⟨1, _⟩ => show win2_5.index t (1 : Fin 2) * 512 + 1 * q.val = q.val; omega

/-- The bias block at any point is the whole row. -/
theorem read_bias (c : Dev nD) (t : Fin cfg2.N) (z : Fin 1) (q : Fin 512) :
    iblk2 V c 6 t (ix2 z q) = V c main_v139 (ix2 z q) := by
  obtain ⟨-, -, -, -, -, -, -, -, -, -, -, -, e0, e1, -⟩ := index_maps t
  show V c main_v139 (((cfg2.win 6).blk t).view.emb (ix2 z q)) = _
  refine congrArg (V c main_v139) (funext fun a => Fin.ext ?_)
  match a with
  | ⟨0, _⟩ => show win2_6.index t (0 : Fin 2) * 1 + 1 * z.val = z.val; omega
  | ⟨1, _⟩ => show win2_6.index t (1 : Fin 2) * 512 + 1 * q.val = q.val; omega

/-- Entry (p, q) of point t's output block sits at (1000·t + p, q) of the output array. -/
theorem out_position (t : Fin cfg2.N) (p : Fin 1000) (q : Fin 512) :
    ((cfg2.win 7).blk t).view.emb (ix2 p q) = ix2 (rowAt t p) q := by
  obtain ⟨-, -, -, -, -, -, -, -, -, -, -, -, -, -, e0, e1⟩ := index_maps t
  refine funext fun a => Fin.ext ?_
  match a with
  | ⟨0, _⟩ => show win2_7.index t (0 : Fin 2) * 1000 + 1 * p.val = t.val * 1000 + p.val; omega
  | ⟨1, _⟩ => show win2_7.index t (1 : Fin 2) * 512 + 1 * q.val = q.val; omega

/-- What point t writes back is block t of the fused function of the arrays the region found. -/
theorem flushed_eq (c : Dev nD) (t : Fin cfg2.N) :
    (dat2 V c).flushed 7 t
      = ((cfg2.win 7).blk t).view.read (Elt Ideal)
          (mixed (V c main_v36) (V c main_v69) (V c main_v137) (V c main_v138) (V c main_arg6) (V c main_arg10) (V c main_v139)) := by
  show (cfg2.win 7).cut (grid2.coords t) ((dat2 V c).after 7 t) = _
  rw [after2_7]
  unfold out2_7
  rw [View.canon_unit_zero origin]
  simp only [View.ld_unit_zero (S := S1000x512) origin, View.ld_unit_zero (S := S1000x1) origin,
    View.ld_unit_zero (S := S512x512) origin, View.ld_unit_zero (S := S1x512) origin]
  funext j
  obtain ⟨p, q, rfl⟩ : ∃ (p : Fin 1000) (q : Fin 512), j = ix2 p q := ⟨j 0, j 1, eq_ix2 j⟩
  refine (Entries.fused (iblk2 V c 0 t) (iblk2 V c 2 t) (iblk2 V c 1 t) (iblk2 V c 3 t) (iblk2 V c 4 t)
    (iblk2 V c 5 t) (iblk2 V c 6 t) p q).trans ?_
  show _ = mixed (V c main_v36) (V c main_v69) (V c main_v137) (V c main_v138) (V c main_arg6) (V c main_arg10) (V c main_v139)
    (((cfg2.win 7).blk t).view.emb (ix2 p q))
  rw [out_position t p q]
  simp only [read_first, read_second, read_first_norm, read_second_norm, read_first_weight, read_second_weight, read_bias]
  rfl

/-- Every row of the output lies in some point's block: row r in point r / 1000's. -/
theorem covered (i : S100000x512.Idx) :
    ∃ t : Fin cfg2.N, (cfg2.win 7).flush t = true ∧ i ∈ ((cfg2.win 7).blk t).view.set := by
  have hi0 : (i 0).val < 100000 := idx2_lt0 i
  have hi1 : (i 1).val < 512 := idx2_lt1 i
  obtain ⟨t, ht⟩ : ∃ t : Fin cfg2.N, t.val = (i 0).val / 1000 :=
    ⟨⟨(i 0).val / 1000, lt_of_lt_of_eq (by omega : (i 0).val / 1000 < 100) N_2.symm⟩, rfl⟩
  obtain ⟨-, -, -, -, -, -, -, -, -, -, -, -, -, -, e0, e1⟩ := index_maps t
  refine ⟨t, flush2_7 t, ?_⟩
  show i ∈ ((View.whole main_v140).slice (win2_7.rect t)).set
  rw [View.set_slice_whole, Rect.mem_set_unit]
  intro a
  match a with
  | ⟨0, _⟩ =>
    show win2_7.index t (0 : Fin 2) * 1000 ≤ (i 0).val ∧ (i 0).val < win2_7.index t (0 : Fin 2) * 1000 + 1000
    omega
  | ⟨1, _⟩ =>
    show win2_7.index t (1 : Fin 2) * 512 ≤ (i 1).val ∧ (i 1).val < win2_7.index t (1 : Fin 2) * 512 + 512
    omega

/-- After the region its output array is the fused function of the arrays it found. -/
theorem final (c : Dev nD) :
    (dat2 V c).arrAt 7 cfg2.N
      = mixed (V c main_v36) (V c main_v69) (V c main_v137) (V c main_v138) (V c main_arg6) (V c main_arg10) (V c main_v139) :=
  (dat2 V c).arrAt_eq_of_cover 7 _ (fun t _ => flushed_eq V c t) covered

end Cert.KernelIdeal.Region2

end
-- ==== Proof.Region3.lean ====
/-
  Region 3 (a fused mean of two edge types): what its output array holds after the region.

  The grid has 100 points; point t reads rows 1000·t … 1000·t + 999 of the two [100000, 512] aggregates and of the two
  [100000, 1] columns of destination norms, the two whole weight matrices and the whole bias row, and writes back the
  same rows of the output. At entry (p, q) of its block the body leaves
      ½ · ( Σₖ (A(r,k)·nₐ(r,0))·W₁(k,q) + Σₖ (B(r,k)·n_b(r,0))·W₂(k,q) ) + ½ · bias(0,q),      r = 1000·t + p,
  entry (r, q) of ONE function of the whole arrays; the 100 blocks tile the output, so after the region the output array
  IS that function of the arrays the region found.
-/
import proofs.«149234_j88510686036237_2_alg».proof.Proof.Gen.KernelIdeal.Frame
import proofs.«149234_j88510686036237_2_alg».proof.Proof.BodyEntries
import proofs.«149234_j88510686036237_2_alg».proof.Proof.Arrays

set_option maxRecDepth 16384

noncomputable section

namespace Cert.KernelIdeal.Region3

open Cert.KernelIdeal Cert.KernelIdeal.Gen Cert.Arrays
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the aggregates, the norm columns and the output move one block of rows per
    point; the weight matrices and the bias row stay. -/
theorem index_maps : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

theorem point_lt (t : Fin cfg3.N) : t.val < 100 := lt_of_lt_of_eq t.isLt N_3

/-- Row p of point t's block is row 1000·t + p of the array. -/
def rowAt (t : Fin cfg3.N) (p : Fin 1000) : Fin 100000 :=
  ⟨t.val * 1000 + p.val, by have := point_lt t; have := p.isLt; omega⟩

/-- The first aggregate's block at a point, read at an entry. -/
theorem read_first (c : Dev nD) (t : Fin cfg3.N) (p : Fin 1000) (k : Fin 512) :
    iblk3 V c 0 t (ix2 p k) = V c main_v102 (ix2 (rowAt t p) k) := by
  obtain ⟨e0, e1, -⟩ := index_maps t
  show V c main_v102 (((cfg3.win 0).blk t).view.emb (ix2 p k)) = _
  refine congrArg (V c main_v102) (funext fun a => Fin.ext ?_)
  match a with
  | ⟨0, _⟩ => show win3_0.index t (0 : Fin 2) * 1000 + 1 * p.val = t.val * 1000 + p.val; omega
  | ⟨1, _⟩ => show win3_0.index t (1 : Fin 2) * 512 + 1 * k.val = k.val; omega

/-- The second aggregate's block at a point, read at an entry. -/
theorem read_second (c : Dev nD) (t : Fin cfg3.N) (p : Fin 1000) (k : Fin 512) :
    iblk3 V c 1 t (ix2 p k) = V c main_v135 (ix2 (rowAt t p) k) := by
  obtain ⟨-, -, e0, e1, -⟩ := index_maps t
  show V c main_v135 (((cfg3.win 1).blk t).view.emb (ix2 p k)) = _
  refine congrArg (V c main_v135) (funext fun a => Fin.ext ?_)
  match a with
  | ⟨0, _⟩ => show win3_1.index t (0 : Fin 2) * 1000 + 1 * p.val = t.val * 1000 + p.val; omega
  | ⟨1, _⟩ => show win3_1.index t (1 : Fin 2) * 512 + 1 * k.val = k.val; omega

/-- The first norm column's block at a point. -/
theorem read_first_norm (c : Dev nD) (t : Fin cfg3.N) (p : Fin 1000) (z : Fin 1) :
    iblk3 V c 2 t (ix2 p z) = V c main_v142 (ix2 (rowAt t p) z) := by
  obtain ⟨-, -, -, -, e0, e1, -⟩ := index_maps t
  show V c main_v142 (((cfg3.win 2).blk t).view.emb (ix2 p z)) = _
  refine congrArg (V c main_v142) (funext fun a => Fin.ext ?_)
  match a with
  | ⟨0, _⟩ => show win3_2.index t (0 : Fin 2) * 1000 + 1 * p.val = t.val * 1000 + p.val; omega
  | ⟨1, _⟩ => show win3_2.index t (1 : Fin 2) * 1 + 1 * z.val = z.val; omega

/-- The second norm column's block at a point. -/
theorem read_second_norm (c : Dev nD) (t : Fin cfg3.N) (p : Fin 1000) (z : Fin 1) :
    iblk3 V c 3 t (ix2 p z) = V c main_v143 (ix2 (rowAt t p) z) := by
  obtain ⟨-, -, -, -, -, -, e0, e1, -⟩ := index_maps t
  show V c main_v143 (((cfg3.win 3).blk t).view.emb (ix2 p z)) = _
  refine congrArg (V c main_v143) (funext fun a => Fin.ext ?_)
  match a with
  | ⟨0, _⟩ => show win3_3.index t (0 : Fin 2) * 1000 + 1 * p.val = t.val * 1000 + p.val; omega
  | ⟨1, _⟩ => show win3_3.index t (1 : Fin 2) * 1 + 1 * z.val = z.val; omega

/-- The first weight block at any point is the whole matrix. -/
theorem read_first_weight (c : Dev nD) (t : Fin cfg3.N) (k : Fin 512) (q : Fin 512) :
    iblk3 V c 4 t (ix2 k q) = V c main_arg8 (ix2 k q) := by
  obtain ⟨-, -, -, -, -, -, -, -, e0, e1, -⟩ := index_maps t
  show V c main_arg8 (((cfg3.win 4).blk t).view.emb (ix2 k q)) = _
  refine congrArg (V c main_arg8) (funext fun a => Fin.ext ?_)
  match a with
  | ⟨0, _⟩ => show win3_4.index t (0 : Fin 2) * 512 + 1 * k.val = k.val; omega
  | ⟨1, _⟩ => show win3_4.index t (1 : Fin 2) * 512 + 1 * q.val = q.val; omega

/-- The second weight block at any point is the whole matrix. -/
theorem read_second_weight (c : Dev nD) (t : Fin cfg3.N) (k : Fin 512) (q : Fin 512) :
    iblk3 V c 5 t (ix2 k q) = V c main_arg12 (ix2 k q) := by
  obtain ⟨-, -, -, -, -, -, -, -, -, -, e0, e1, -⟩ := index_maps t
  show V c main_arg12 (((cfg3.win 5).blk t).view.emb (ix2 k q)) = _
  refine congrArg (V c main_arg12) (funext fun a => Fin.ext ?_)
  match a with
  | ⟨0, _⟩ => show win3_5.index t (0 : Fin 2) * 512 + 1 * k.val = k.val; omega
  | ⟨1, _⟩ => show win3_5.index t (1 : Fin 2) * 512 + 1 * q.val = q.val; omega

/-- The bias block at any point is the whole row. -/
theorem read_bias (c : Dev nD) (t : Fin cfg3.N) (z : Fin 1) (q : Fin 512) :
    iblk3 V c 6 t (ix2 z q) = V c main_v144 (ix2 z q) := by
  obtain ⟨-, -, -, -, -, -, -, -, -, -, -, -, e0, e1, -⟩ := index_maps t
  show V c main_v144 (((cfg3.win 6).blk t).view.emb (ix2 z q)) = _
  refine congrArg (V c main_v144) (funext fun a => Fin.ext ?_)
  match a with
  | ⟨0, _⟩ => show win3_6.index t (0 : Fin 2) * 1 + 1 * z.val = z.val; omega
  | ⟨1, _⟩ => show win3_6.index t (1 : Fin 2) * 512 + 1 * q.val = q.val; omega

/-- Entry (p, q) of point t's output block sits at (1000·t + p, q) of the output array. -/
theorem out_position (t : Fin cfg3.N) (p : Fin 1000) (q : Fin 512) :
    ((cfg3.win 7).blk t).view.emb (ix2 p q) = ix2 (rowAt t p) q := by
  obtain ⟨-, -, -, -, -, -, -, -, -, -, -, -, -, -, e0, e1⟩ := index_maps t
  refine funext fun a => Fin.ext ?_
  match a with
  | ⟨0, _⟩ => show win3_7.index t (0 : Fin 2) * 1000 + 1 * p.val = t.val * 1000 + p.val; omega
  | ⟨1, _⟩ => show win3_7.index t (1 : Fin 2) * 512 + 1 * q.val = q.val; omega

/-- What point t writes back is block t of the fused function of the arrays the region found. -/
theorem flushed_eq (c : Dev nD) (t : Fin cfg3.N) :
    (dat3 V c).flushed 7 t
      = ((cfg3.win 7).blk t).view.read (Elt Ideal)
          (mixed (V c main_v102) (V c main_v135) (V c main_v142) (V c main_v143) (V c main_arg8) (V c main_arg12) (V c main_v144)) := by
  show (cfg3.win 7).cut (grid3.coords t) ((dat3 V c).after 7 t) = _
  rw [after3_7]
  unfold out3_7
  rw [View.canon_unit_zero origin]
  simp only [View.ld_unit_zero (S := S1000x512) origin, View.ld_unit_zero (S := S1000x1) origin,
    View.ld_unit_zero (S := S512x512) origin, View.ld_unit_zero (S := S1x512) origin]
  funext j
  obtain ⟨p, q, rfl⟩ : ∃ (p : Fin 1000) (q : Fin 512), j = ix2 p q := ⟨j 0, j 1, eq_ix2 j⟩
  refine (Entries.fused' (iblk3 V c 0 t) (iblk3 V c 2 t) (iblk3 V c 1 t) (iblk3 V c 3 t) (iblk3 V c 4 t)
    (iblk3 V c 5 t) (iblk3 V c 6 t) p q).trans ?_
  show _ = mixed (V c main_v102) (V c main_v135) (V c main_v142) (V c main_v143) (V c main_arg8) (V c main_arg12) (V c main_v144)
    (((cfg3.win 7).blk t).view.emb (ix2 p q))
  rw [out_position t p q]
  simp only [read_first, read_second, read_first_norm, read_second_norm, read_first_weight, read_second_weight, read_bias]
  rfl

/-- Every row of the output lies in some point's block: row r in point r / 1000's. -/
theorem covered (i : S100000x512.Idx) :
    ∃ t : Fin cfg3.N, (cfg3.win 7).flush t = true ∧ i ∈ ((cfg3.win 7).blk t).view.set := by
  have hi0 : (i 0).val < 100000 := idx2_lt0 i
  have hi1 : (i 1).val < 512 := idx2_lt1 i
  obtain ⟨t, ht⟩ : ∃ t : Fin cfg3.N, t.val = (i 0).val / 1000 :=
    ⟨⟨(i 0).val / 1000, lt_of_lt_of_eq (by omega : (i 0).val / 1000 < 100) N_3.symm⟩, rfl⟩
  obtain ⟨-, -, -, -, -, -, -, -, -, -, -, -, -, -, e0, e1⟩ := index_maps t
  refine ⟨t, flush3_7 t, ?_⟩
  show i ∈ ((View.whole main_v145).slice (win3_7.rect t)).set
  rw [View.set_slice_whole, Rect.mem_set_unit]
  intro a
  match a with
  | ⟨0, _⟩ =>
    show win3_7.index t (0 : Fin 2) * 1000 ≤ (i 0).val ∧ (i 0).val < win3_7.index t (0 : Fin 2) * 1000 + 1000
    omega
  | ⟨1, _⟩ =>
    show win3_7.index t (1 : Fin 2) * 512 ≤ (i 1).val ∧ (i 1).val < win3_7.index t (1 : Fin 2) * 512 + 512
    omega

/-- After the region its output array is the fused function of the arrays it found. -/
theorem final (c : Dev nD) :
    (dat3 V c).arrAt 7 cfg3.N
      = mixed (V c main_v102) (V c main_v135) (V c main_v142) (V c main_v143) (V c main_arg8) (V c main_arg12) (V c main_v144) :=
  (dat3 V c).arrAt_eq_of_cover 7 _ (fun t _ => flushed_eq V c t) covered

end Cert.KernelIdeal.Region3

end
-- ==== Proof.Stages.lean ====
/-
  The kernel program's host operations between the regions, as functions of what they read.

  For one edge type (source words s, destination words d, node features h : [100000, 512]):
    degNorm s      = rsqrt (max (count s, 1)),   count s (v) = the number of edges whose word is v (a scatter-add of ones)
    rowIdx s       = the source words as an [E,1] column of row indices (a negative word shifted up by 100000)
    messages h s   = h[rowIdx s] · (degNorm s)[rowIdx s]      (each gathered row times its source's norm)
    aggregate h s d = the scatter-add of the messages into the rows d names
  asColumn, asRow = a vector laid out as an [n,1] column, a [512] vector as a [1,512] row (reshapes).
  Each is the printed operations' own composition.
-/
import proofs.«149234_j88510686036237_2_alg».proof.Proof.Gen.KernelIdeal.Launch
import Idealize.ShloMosaic.Lib.StableHlo.Run
import Idealize.ShloMosaic.PureOps.Ideal

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]

/-- rsqrt (max (number of edges at each node, 1)). -/
def degNorm (s : (⟨S250000, .i32⟩ : BufTy).Contents (Elt F)) : (⟨S100000, .f32⟩ : BufTy).Contents (Elt F) :=
  Host.rsqrt (maximumf
    (Host.scatterAdd scatter_S100000_S250000x1_S250000_n_0_0_1
      (broadcastInDim S100000 ![] bcast_S_S100000 (constant S_ .f32 0x00000000#32))
      (broadcastInDim S250000x1 ![0] bcast_S250000_S250000x1_0 s)
      (broadcastInDim S250000 ![] bcast_S_S250000 (constant S_ .f32 0x3F800000#32)))
    (broadcastInDim S100000 ![] bcast_S_S100000 (constant S_ .f32 0x3F800000#32)))

/-- The source words as a column of row indices. -/
def rowIdx (s : (⟨S250000, .i32⟩ : BufTy).Contents (Elt F)) : (⟨S250000x1, .i32⟩ : BufTy).Contents (Elt F) :=
  broadcastInDim S250000x1 ![0] bcast_S250000_S250000x1_0
    (select (cmpi .slt s (broadcastInDim S250000 ![] bcast_S_S250000 (constantI S_ 32 0#32)))
      (addi s (broadcastInDim S250000 ![] bcast_S_S250000 (constantI S_ 32 100000#32))) s)

/-- Each edge's source row times its source's norm. -/
def messages (h : (⟨S100000x512, .f32⟩ : BufTy).Contents (Elt F)) (s : (⟨S250000, .i32⟩ : BufTy).Contents (Elt F)) : (⟨S250000x512, .f32⟩ : BufTy).Contents (Elt F) :=
  mulf (Host.gather gather_S100000x512_S250000x1_S250000x512_1_0_n_n_0_1_1512 h (rowIdx s))
    (broadcastInDim S250000x512 ![0, 1] bcast_S250000x1_S250000x512_0_1
      (broadcastInDim S250000x1 ![0] bcast_S250000_S250000x1_0
        (Host.gather gather_S100000_S250000x1_S250000_n_0_n_n_0_1_1 (degNorm s) (rowIdx s))))

/-- The messages summed into their destination rows. -/
def aggregate (h : (⟨S100000x512, .f32⟩ : BufTy).Contents (Elt F)) (s d : (⟨S250000, .i32⟩ : BufTy).Contents (Elt F)) : (⟨S100000x512, .f32⟩ : BufTy).Contents (Elt F) :=
  Host.scatterAdd scatter_S100000x512_S250000x1_S250000x512_1_0_0_1
    (broadcastInDim S100000x512 ![] bcast_S_S100000x512 (constant S_ .f32 0x00000000#32))
    (broadcastInDim S250000x1 ![0] bcast_S250000_S250000x1_0 d)
    (messages h s)

/-- A node vector as an [n,1] column. -/
def asColumn (v : (⟨S100000, .f32⟩ : BufTy).Contents (Elt F)) : (⟨S100000x1, .f32⟩ : BufTy).Contents (Elt F) := shapeCast S100000x1 v shapeCasts_S100000_S100000x1
/-- A bias vector as a [1,512] row. -/
def asRow (v : (⟨S512, .f32⟩ : BufTy).Contents (Elt F)) : (⟨S1x512, .f32⟩ : BufTy).Contents (Elt F) := shapeCast S1x512 v shapeCasts_S512_S1x512

end Cert.KernelIdeal.Stages

end
-- ==== Proof.Stretch2Drug.lean ====
/-
  The long stretch of host operations between the projections and the first fused region, read at the buffers the
  drug-side fused region consumes, over ANY contents W of the buffers before the stretch: the two aggregates into drug
  nodes, their destination norms as columns, the summed bias as a row, and the two weight matrices (not written).
-/
import proofs.«149234_j88510686036237_2_alg».proof.Proof.Stages

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]

variable (W : Valuation τ sig (Elt F))

set_option maxHeartbeats 40000000 in
/-- The drug→drug aggregate. -/
theorem stretch2_agg_dd : StableHlo.after hostOps2 W (Proc.devRef .tc main_v36) = aggregate (W (Proc.devRef .tc main_v1)) (W (Proc.devRef .tc main_arg14)) (W (Proc.devRef .tc main_arg15)) := by
  after_results_simp <;> first | rfl | (unfold aggregate messages rowIdx degNorm asColumn asRow; rfl)

set_option maxHeartbeats 40000000 in
/-- The gene→drug aggregate. -/
theorem stretch2_agg_gd : StableHlo.after hostOps2 W (Proc.devRef .tc main_v69) = aggregate (W (Proc.devRef .tc main_v3)) (W (Proc.devRef .tc main_arg18)) (W (Proc.devRef .tc main_arg19)) := by
  after_results_simp <;> first | rfl | (unfold aggregate messages rowIdx degNorm asColumn asRow; rfl)

set_option maxHeartbeats 40000000 in
/-- The drug→drug destination norms as a column. -/
theorem stretch2_norm_dd : StableHlo.after hostOps2 W (Proc.devRef .tc main_v137) = asColumn (degNorm (W (Proc.devRef .tc main_arg15))) := by
  after_results_simp <;> first | rfl | (unfold aggregate messages rowIdx degNorm asColumn asRow; rfl)

set_option maxHeartbeats 40000000 in
/-- The gene→drug destination norms as a column. -/
theorem stretch2_norm_gd : StableHlo.after hostOps2 W (Proc.devRef .tc main_v138) = asColumn (degNorm (W (Proc.devRef .tc main_arg19))) := by
  after_results_simp <;> first | rfl | (unfold aggregate messages rowIdx degNorm asColumn asRow; rfl)

set_option maxHeartbeats 40000000 in
/-- The two drug-side biases added, as a row. -/
theorem stretch2_bias : StableHlo.after hostOps2 W (Proc.devRef .tc main_v139) = asRow (addf (W (Proc.devRef .tc main_arg7)) (W (Proc.devRef .tc main_arg11))) := by
  after_results_simp <;> first | rfl | (unfold aggregate messages rowIdx degNorm asColumn asRow; rfl)

set_option maxHeartbeats 40000000 in
/-- The stretch does not write this argument. -/
theorem stretch2_keeps_arg6 : StableHlo.after hostOps2 W (Proc.devRef .tc main_arg6) = W (Proc.devRef .tc main_arg6) := by
  after_results_simp <;> first | rfl | (unfold aggregate messages rowIdx degNorm asColumn asRow; rfl)

set_option maxHeartbeats 40000000 in
/-- The stretch does not write this argument. -/
theorem stretch2_keeps_arg10 : StableHlo.after hostOps2 W (Proc.devRef .tc main_arg10) = W (Proc.devRef .tc main_arg10) := by
  after_results_simp <;> first | rfl | (unfold aggregate messages rowIdx degNorm asColumn asRow; rfl)

end Cert.KernelIdeal.Stages

end
-- ==== Proof.Stretch2Gene.lean ====
/-
  The same long stretch read at what the gene-side fused region will consume: the two aggregates into gene nodes,
  their destination norms, and the arguments it leaves alone.
-/
import proofs.«149234_j88510686036237_2_alg».proof.Proof.Stages

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]

variable (W : Valuation τ sig (Elt F))

set_option maxHeartbeats 40000000 in
/-- The drug→gene aggregate. -/
theorem stretch2_agg_dg : StableHlo.after hostOps2 W (Proc.devRef .tc main_v102) = aggregate (W (Proc.devRef .tc main_v1)) (W (Proc.devRef .tc main_arg16)) (W (Proc.devRef .tc main_arg17)) := by
  after_results_simp <;> first | rfl | (unfold aggregate messages rowIdx degNorm asColumn asRow; rfl)

set_option maxHeartbeats 40000000 in
/-- The gene→gene aggregate. -/
theorem stretch2_agg_gg : StableHlo.after hostOps2 W (Proc.devRef .tc main_v135) = aggregate (W (Proc.devRef .tc main_v3)) (W (Proc.devRef .tc main_arg20)) (W (Proc.devRef .tc main_arg21)) := by
  after_results_simp <;> first | rfl | (unfold aggregate messages rowIdx degNorm asColumn asRow; rfl)

set_option maxHeartbeats 40000000 in
/-- The drug→gene destination norms. -/
theorem stretch2_norm_dg : StableHlo.after hostOps2 W (Proc.devRef .tc main_v82) = degNorm (W (Proc.devRef .tc main_arg17)) := by
  after_results_simp <;> first | rfl | (unfold aggregate messages rowIdx degNorm asColumn asRow; rfl)

set_option maxHeartbeats 40000000 in
/-- The gene→gene destination norms. -/
theorem stretch2_norm_gg : StableHlo.after hostOps2 W (Proc.devRef .tc main_v115) = degNorm (W (Proc.devRef .tc main_arg21)) := by
  after_results_simp <;> first | rfl | (unfold aggregate messages rowIdx degNorm asColumn asRow; rfl)

set_option maxHeartbeats 40000000 in
/-- The stretch does not write this argument. -/
theorem stretch2_keeps_arg8 : StableHlo.after hostOps2 W (Proc.devRef .tc main_arg8) = W (Proc.devRef .tc main_arg8) := by
  after_results_simp <;> first | rfl | (unfold aggregate messages rowIdx degNorm asColumn asRow; rfl)

set_option maxHeartbeats 40000000 in
/-- The stretch does not write this argument. -/
theorem stretch2_keeps_arg12 : StableHlo.after hostOps2 W (Proc.devRef .tc main_arg12) = W (Proc.devRef .tc main_arg12) := by
  after_results_simp <;> first | rfl | (unfold aggregate messages rowIdx degNorm asColumn asRow; rfl)

set_option maxHeartbeats 40000000 in
/-- The stretch does not write this argument. -/
theorem stretch2_keeps_arg9 : StableHlo.after hostOps2 W (Proc.devRef .tc main_arg9) = W (Proc.devRef .tc main_arg9) := by
  after_results_simp <;> first | rfl | (unfold aggregate messages rowIdx degNorm asColumn asRow; rfl)

set_option maxHeartbeats 40000000 in
/-- The stretch does not write this argument. -/
theorem stretch2_keeps_arg13 : StableHlo.after hostOps2 W (Proc.devRef .tc main_arg13) = W (Proc.devRef .tc main_arg13) := by
  after_results_simp <;> first | rfl | (unfold aggregate messages rowIdx degNorm asColumn asRow; rfl)

end Cert.KernelIdeal.Stages

end
-- ==== Proof.ShortStretches.lean ====
/-
  The three short stretches of host operations (one reshape before each projection; an addition and three reshapes
  between the two fused regions), each read over ANY contents W of the buffers before it.
-/
import proofs.«149234_j88510686036237_2_alg».proof.Proof.Stages

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]

variable (W : Valuation τ sig (Elt F))

/-- The drug→gene destination norms as a column. -/
theorem stretch3_norm_dg : StableHlo.after hostOps3 W (Proc.devRef .tc main_v142) = asColumn (W (Proc.devRef .tc main_v82)) := by
  after_results_simp <;> first | rfl | (unfold aggregate messages rowIdx degNorm asColumn asRow; rfl)

/-- The gene→gene destination norms as a column. -/
theorem stretch3_norm_gg : StableHlo.after hostOps3 W (Proc.devRef .tc main_v143) = asColumn (W (Proc.devRef .tc main_v115)) := by
  after_results_simp <;> first | rfl | (unfold aggregate messages rowIdx degNorm asColumn asRow; rfl)

/-- The two gene-side biases added, as a row. -/
theorem stretch3_bias : StableHlo.after hostOps3 W (Proc.devRef .tc main_v144) = asRow (addf (W (Proc.devRef .tc main_arg9)) (W (Proc.devRef .tc main_arg13))) := by
  after_results_simp <;> first | rfl | (unfold aggregate messages rowIdx degNorm asColumn asRow; rfl)

/-- These four operations do not write this buffer. -/
theorem stretch3_keeps_v102 : StableHlo.after hostOps3 W (Proc.devRef .tc main_v102) = W (Proc.devRef .tc main_v102) := by
  after_results_simp <;> first | rfl | (unfold aggregate messages rowIdx degNorm asColumn asRow; rfl)

/-- These four operations do not write this buffer. -/
theorem stretch3_keeps_v135 : StableHlo.after hostOps3 W (Proc.devRef .tc main_v135) = W (Proc.devRef .tc main_v135) := by
  after_results_simp <;> first | rfl | (unfold aggregate messages rowIdx degNorm asColumn asRow; rfl)

/-- These four operations do not write this buffer. -/
theorem stretch3_keeps_arg8 : StableHlo.after hostOps3 W (Proc.devRef .tc main_arg8) = W (Proc.devRef .tc main_arg8) := by
  after_results_simp <;> first | rfl | (unfold aggregate messages rowIdx degNorm asColumn asRow; rfl)

/-- These four operations do not write this buffer. -/
theorem stretch3_keeps_arg12 : StableHlo.after hostOps3 W (Proc.devRef .tc main_arg12) = W (Proc.devRef .tc main_arg12) := by
  after_results_simp <;> first | rfl | (unfold aggregate messages rowIdx degNorm asColumn asRow; rfl)

/-- These four operations do not write this buffer. -/
theorem stretch3_keeps_v140 : StableHlo.after hostOps3 W (Proc.devRef .tc main_v140) = W (Proc.devRef .tc main_v140) := by
  after_results_simp <;> first | rfl | (unfold aggregate messages rowIdx degNorm asColumn asRow; rfl)

/-- The drug projection's bias as a row. -/
theorem stretch0_bias : StableHlo.after hostOps0 W (Proc.devRef .tc main_v0) = asRow (W (Proc.devRef .tc main_arg3)) := by
  after_results_simp <;> first | rfl | (unfold aggregate messages rowIdx degNorm asColumn asRow; rfl)

/-- The gene projection's bias as a row. -/
theorem stretch1_bias : StableHlo.after hostOps1 W (Proc.devRef .tc main_v2) = asRow (W (Proc.devRef .tc main_arg5)) := by
  after_results_simp <;> first | rfl | (unfold aggregate messages rowIdx degNorm asColumn asRow; rfl)

/-- The reshape does not write this argument. -/
theorem stretch0_keeps_arg0 : StableHlo.after hostOps0 W (Proc.devRef .tc main_arg0) = W (Proc.devRef .tc main_arg0) := by
  after_results_simp <;> first | rfl | (unfold aggregate messages rowIdx degNorm asColumn asRow; rfl)

/-- The reshape does not write this argument. -/
theorem stretch0_keeps_arg1 : StableHlo.after hostOps0 W (Proc.devRef .tc main_arg1) = W (Proc.devRef .tc main_arg1) := by
  after_results_simp <;> first | rfl | (unfold aggregate messages rowIdx degNorm asColumn asRow; rfl)

/-- The reshape does not write this argument. -/
theorem stretch0_keeps_arg2 : StableHlo.after hostOps0 W (Proc.devRef .tc main_arg2) = W (Proc.devRef .tc main_arg2) := by
  after_results_simp <;> first | rfl | (unfold aggregate messages rowIdx degNorm asColumn asRow; rfl)

/-- The reshape does not write this argument. -/
theorem stretch0_keeps_arg3 : StableHlo.after hostOps0 W (Proc.devRef .tc main_arg3) = W (Proc.devRef .tc main_arg3) := by
  after_results_simp <;> first | rfl | (unfold aggregate messages rowIdx degNorm asColumn asRow; rfl)

/-- The reshape does not write this argument. -/
theorem stretch0_keeps_arg4 : StableHlo.after hostOps0 W (Proc.devRef .tc main_arg4) = W (Proc.devRef .tc main_arg4) := by
  after_results_simp <;> first | rfl | (unfold aggregate messages rowIdx degNorm asColumn asRow; rfl)

/-- The reshape does not write this argument. -/
theorem stretch0_keeps_arg5 : StableHlo.after hostOps0 W (Proc.devRef .tc main_arg5) = W (Proc.devRef .tc main_arg5) := by
  after_results_simp <;> first | rfl | (unfold aggregate messages rowIdx degNorm asColumn asRow; rfl)

/-- The reshape does not write this argument. -/
theorem stretch0_keeps_arg6 : StableHlo.after hostOps0 W (Proc.devRef .tc main_arg6) = W (Proc.devRef .tc main_arg6) := by
  after_results_simp <;> first | rfl | (unfold aggregate messages rowIdx degNorm asColumn asRow; rfl)

/-- The reshape does not write this argument. -/
theorem stretch0_keeps_arg7 : StableHlo.after hostOps0 W (Proc.devRef .tc main_arg7) = W (Proc.devRef .tc main_arg7) := by
  after_results_simp <;> first | rfl | (unfold aggregate messages rowIdx degNorm asColumn asRow; rfl)

/-- The reshape does not write this argument. -/
theorem stretch0_keeps_arg8 : StableHlo.after hostOps0 W (Proc.devRef .tc main_arg8) = W (Proc.devRef .tc main_arg8) := by
  after_results_simp <;> first | rfl | (unfold aggregate messages rowIdx degNorm asColumn asRow; rfl)

/-- The reshape does not write this argument. -/
theorem stretch0_keeps_arg9 : StableHlo.after hostOps0 W (Proc.devRef .tc main_arg9) = W (Proc.devRef .tc main_arg9) := by
  after_results_simp <;> first | rfl | (unfold aggregate messages rowIdx degNorm asColumn asRow; rfl)

/-- The reshape does not write this argument. -/
theorem stretch0_keeps_arg10 : StableHlo.after hostOps0 W (Proc.devRef .tc main_arg10) = W (Proc.devRef .tc main_arg10) := by
  after_results_simp <;> first | rfl | (unfold aggregate messages rowIdx degNorm asColumn asRow; rfl)

/-- The reshape does not write this argument. -/
theorem stretch0_keeps_arg11 : StableHlo.after hostOps0 W (Proc.devRef .tc main_arg11) = W (Proc.devRef .tc main_arg11) := by
  after_results_simp <;> first | rfl | (unfold aggregate messages rowIdx degNorm asColumn asRow; rfl)

/-- The reshape does not write this argument. -/
theorem stretch0_keeps_arg12 : StableHlo.after hostOps0 W (Proc.devRef .tc main_arg12) = W (Proc.devRef .tc main_arg12) := by
  after_results_simp <;> first | rfl | (unfold aggregate messages rowIdx degNorm asColumn asRow; rfl)

/-- The reshape does not write this argument. -/
theorem stretch0_keeps_arg13 : StableHlo.after hostOps0 W (Proc.devRef .tc main_arg13) = W (Proc.devRef .tc main_arg13) := by
  after_results_simp <;> first | rfl | (unfold aggregate messages rowIdx degNorm asColumn asRow; rfl)

/-- The reshape does not write this argument. -/
theorem stretch0_keeps_arg14 : StableHlo.after hostOps0 W (Proc.devRef .tc main_arg14) = W (Proc.devRef .tc main_arg14) := by
  after_results_simp <;> first | rfl | (unfold aggregate messages rowIdx degNorm asColumn asRow; rfl)

/-- The reshape does not write this argument. -/
theorem stretch0_keeps_arg15 : StableHlo.after hostOps0 W (Proc.devRef .tc main_arg15) = W (Proc.devRef .tc main_arg15) := by
  after_results_simp <;> first | rfl | (unfold aggregate messages rowIdx degNorm asColumn asRow; rfl)

/-- The reshape does not write this argument. -/
theorem stretch0_keeps_arg16 : StableHlo.after hostOps0 W (Proc.devRef .tc main_arg16) = W (Proc.devRef .tc main_arg16) := by
  after_results_simp <;> first | rfl | (unfold aggregate messages rowIdx degNorm asColumn asRow; rfl)

/-- The reshape does not write this argument. -/
theorem stretch0_keeps_arg17 : StableHlo.after hostOps0 W (Proc.devRef .tc main_arg17) = W (Proc.devRef .tc main_arg17) := by
  after_results_simp <;> first | rfl | (unfold aggregate messages rowIdx degNorm asColumn asRow; rfl)

/-- The reshape does not write this argument. -/
theorem stretch0_keeps_arg18 : StableHlo.after hostOps0 W (Proc.devRef .tc main_arg18) = W (Proc.devRef .tc main_arg18) := by
  after_results_simp <;> first | rfl | (unfold aggregate messages rowIdx degNorm asColumn asRow; rfl)

/-- The reshape does not write this argument. -/
theorem stretch0_keeps_arg19 : StableHlo.after hostOps0 W (Proc.devRef .tc main_arg19) = W (Proc.devRef .tc main_arg19) := by
  after_results_simp <;> first | rfl | (unfold aggregate messages rowIdx degNorm asColumn asRow; rfl)

/-- The reshape does not write this argument. -/
theorem stretch0_keeps_arg20 : StableHlo.after hostOps0 W (Proc.devRef .tc main_arg20) = W (Proc.devRef .tc main_arg20) := by
  after_results_simp <;> first | rfl | (unfold aggregate messages rowIdx degNorm asColumn asRow; rfl)

/-- The reshape does not write this argument. -/
theorem stretch0_keeps_arg21 : StableHlo.after hostOps0 W (Proc.devRef .tc main_arg21) = W (Proc.devRef .tc main_arg21) := by
  after_results_simp <;> first | rfl | (unfold aggregate messages rowIdx degNorm asColumn asRow; rfl)

/-- The reshape does not write this buffer. -/
theorem stretch1_keeps_arg0 : StableHlo.after hostOps1 W (Proc.devRef .tc main_arg0) = W (Proc.devRef .tc main_arg0) := by
  after_results_simp <;> first | rfl | (unfold aggregate messages rowIdx degNorm asColumn asRow; rfl)

/-- The reshape does not write this buffer. -/
theorem stretch1_keeps_arg1 : StableHlo.after hostOps1 W (Proc.devRef .tc main_arg1) = W (Proc.devRef .tc main_arg1) := by
  after_results_simp <;> first | rfl | (unfold aggregate messages rowIdx degNorm asColumn asRow; rfl)

/-- The reshape does not write this buffer. -/
theorem stretch1_keeps_arg2 : StableHlo.after hostOps1 W (Proc.devRef .tc main_arg2) = W (Proc.devRef .tc main_arg2) := by
  after_results_simp <;> first | rfl | (unfold aggregate messages rowIdx degNorm asColumn asRow; rfl)

/-- The reshape does not write this buffer. -/
theorem stretch1_keeps_arg3 : StableHlo.after hostOps1 W (Proc.devRef .tc main_arg3) = W (Proc.devRef .tc main_arg3) := by
  after_results_simp <;> first | rfl | (unfold aggregate messages rowIdx degNorm asColumn asRow; rfl)

/-- The reshape does not write this buffer. -/
theorem stretch1_keeps_arg4 : StableHlo.after hostOps1 W (Proc.devRef .tc main_arg4) = W (Proc.devRef .tc main_arg4) := by
  after_results_simp <;> first | rfl | (unfold aggregate messages rowIdx degNorm asColumn asRow; rfl)

/-- The reshape does not write this buffer. -/
theorem stretch1_keeps_arg5 : StableHlo.after hostOps1 W (Proc.devRef .tc main_arg5) = W (Proc.devRef .tc main_arg5) := by
  after_results_simp <;> first | rfl | (unfold aggregate messages rowIdx degNorm asColumn asRow; rfl)

/-- The reshape does not write this buffer. -/
theorem stretch1_keeps_arg6 : StableHlo.after hostOps1 W (Proc.devRef .tc main_arg6) = W (Proc.devRef .tc main_arg6) := by
  after_results_simp <;> first | rfl | (unfold aggregate messages rowIdx degNorm asColumn asRow; rfl)

/-- The reshape does not write this buffer. -/
theorem stretch1_keeps_arg7 : StableHlo.after hostOps1 W (Proc.devRef .tc main_arg7) = W (Proc.devRef .tc main_arg7) := by
  after_results_simp <;> first | rfl | (unfold aggregate messages rowIdx degNorm asColumn asRow; rfl)

/-- The reshape does not write this buffer. -/
theorem stretch1_keeps_arg8 : StableHlo.after hostOps1 W (Proc.devRef .tc main_arg8) = W (Proc.devRef .tc main_arg8) := by
  after_results_simp <;> first | rfl | (unfold aggregate messages rowIdx degNorm asColumn asRow; rfl)

/-- The reshape does not write this buffer. -/
theorem stretch1_keeps_arg9 : StableHlo.after hostOps1 W (Proc.devRef .tc main_arg9) = W (Proc.devRef .tc main_arg9) := by
  after_results_simp <;> first | rfl | (unfold aggregate messages rowIdx degNorm asColumn asRow; rfl)

/-- The reshape does not write this buffer. -/
theorem stretch1_keeps_arg10 : StableHlo.after hostOps1 W (Proc.devRef .tc main_arg10) = W (Proc.devRef .tc main_arg10) := by
  after_results_simp <;> first | rfl | (unfold aggregate messages rowIdx degNorm asColumn asRow; rfl)

/-- The reshape does not write this buffer. -/
theorem stretch1_keeps_arg11 : StableHlo.after hostOps1 W (Proc.devRef .tc main_arg11) = W (Proc.devRef .tc main_arg11) := by
  after_results_simp <;> first | rfl | (unfold aggregate messages rowIdx degNorm asColumn asRow; rfl)

/-- The reshape does not write this buffer. -/
theorem stretch1_keeps_arg12 : StableHlo.after hostOps1 W (Proc.devRef .tc main_arg12) = W (Proc.devRef .tc main_arg12) := by
  after_results_simp <;> first | rfl | (unfold aggregate messages rowIdx degNorm asColumn asRow; rfl)

/-- The reshape does not write this buffer. -/
theorem stretch1_keeps_arg13 : StableHlo.after hostOps1 W (Proc.devRef .tc main_arg13) = W (Proc.devRef .tc main_arg13) := by
  after_results_simp <;> first | rfl | (unfold aggregate messages rowIdx degNorm asColumn asRow; rfl)

/-- The reshape does not write this buffer. -/
theorem stretch1_keeps_arg14 : StableHlo.after hostOps1 W (Proc.devRef .tc main_arg14) = W (Proc.devRef .tc main_arg14) := by
  after_results_simp <;> first | rfl | (unfold aggregate messages rowIdx degNorm asColumn asRow; rfl)

/-- The reshape does not write this buffer. -/
theorem stretch1_keeps_arg15 : StableHlo.after hostOps1 W (Proc.devRef .tc main_arg15) = W (Proc.devRef .tc main_arg15) := by
  after_results_simp <;> first | rfl | (unfold aggregate messages rowIdx degNorm asColumn asRow; rfl)

/-- The reshape does not write this buffer. -/
theorem stretch1_keeps_arg16 : StableHlo.after hostOps1 W (Proc.devRef .tc main_arg16) = W (Proc.devRef .tc main_arg16) := by
  after_results_simp <;> first | rfl | (unfold aggregate messages rowIdx degNorm asColumn asRow; rfl)

/-- The reshape does not write this buffer. -/
theorem stretch1_keeps_arg17 : StableHlo.after hostOps1 W (Proc.devRef .tc main_arg17) = W (Proc.devRef .tc main_arg17) := by
  after_results_simp <;> first | rfl | (unfold aggregate messages rowIdx degNorm asColumn asRow; rfl)

/-- The reshape does not write this buffer. -/
theorem stretch1_keeps_arg18 : StableHlo.after hostOps1 W (Proc.devRef .tc main_arg18) = W (Proc.devRef .tc main_arg18) := by
  after_results_simp <;> first | rfl | (unfold aggregate messages rowIdx degNorm asColumn asRow; rfl)

/-- The reshape does not write this buffer. -/
theorem stretch1_keeps_arg19 : StableHlo.after hostOps1 W (Proc.devRef .tc main_arg19) = W (Proc.devRef .tc main_arg19) := by
  after_results_simp <;> first | rfl | (unfold aggregate messages rowIdx degNorm asColumn asRow; rfl)

/-- The reshape does not write this buffer. -/
theorem stretch1_keeps_arg20 : StableHlo.after hostOps1 W (Proc.devRef .tc main_arg20) = W (Proc.devRef .tc main_arg20) := by
  after_results_simp <;> first | rfl | (unfold aggregate messages rowIdx degNorm asColumn asRow; rfl)

/-- The reshape does not write this buffer. -/
theorem stretch1_keeps_arg21 : StableHlo.after hostOps1 W (Proc.devRef .tc main_arg21) = W (Proc.devRef .tc main_arg21) := by
  after_results_simp <;> first | rfl | (unfold aggregate messages rowIdx degNorm asColumn asRow; rfl)

/-- The reshape does not write this buffer. -/
theorem stretch1_keeps_v1 : StableHlo.after hostOps1 W (Proc.devRef .tc main_v1) = W (Proc.devRef .tc main_v1) := by
  after_results_simp <;> first | rfl | (unfold aggregate messages rowIdx degNorm asColumn asRow; rfl)

end Cert.KernelIdeal.Stages

end
-- ==== Proof.KernelValue.lean ====
/-
  The idealized kernel program's two results as functions of the launch arrays.

  Walking each result buffer back through the eight segments (host stretch, region, four times): a region's output
  array is the region's function of what it found at its windows (Region0 … Region3), a host stretch's results are the
  stage functions of what the stretch found (Stages), a buffer nobody writes in a segment is unchanged. With
      h_d = projected x_drug W_drug (row b_drug),    h_g = projected x_gene W_gene (row b_gene),
  the drug result is
      mixed (aggregate h_d s_dd d_dd) (aggregate h_g s_gd d_gd) (column (degNorm d_dd)) (column (degNorm d_gd))
            W_dd W_gd (row (b_dd + b_gd))
  and the gene result the same with the edge types dg, gg and their weights and biases.
-/
import proofs.«149234_j88510686036237_2_alg».proof.Proof.Gen.KernelIdeal.Frame
import proofs.«149234_j88510686036237_2_alg».proof.Proof.Region0
import proofs.«149234_j88510686036237_2_alg».proof.Proof.Region1
import proofs.«149234_j88510686036237_2_alg».proof.Proof.Region2
import proofs.«149234_j88510686036237_2_alg».proof.Proof.Region3
import proofs.«149234_j88510686036237_2_alg».proof.Proof.Stretch2Drug
import proofs.«149234_j88510686036237_2_alg».proof.Proof.Stretch2Gene
import proofs.«149234_j88510686036237_2_alg».proof.Proof.ShortStretches

set_option maxRecDepth 16384

noncomputable section

namespace Cert.KernelIdeal.Whole

open Cert.KernelIdeal Cert.KernelIdeal.Gen Cert.Arrays Cert.KernelIdeal.Stages
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The projected drug features, from the launch arrays. -/
def hDrug : (⟨S100000x512, .f32⟩ : BufTy).Contents (Elt Ideal) :=
  projected (m ((c : Thread nD τ).loc main_arg0)) (m ((c : Thread nD τ).loc main_arg2)) (asRow (m ((c : Thread nD τ).loc main_arg3)))
/-- The projected gene features, from the launch arrays. -/
def hGene : (⟨S100000x512, .f32⟩ : BufTy).Contents (Elt Ideal) :=
  projected (m ((c : Thread nD τ).loc main_arg1)) (m ((c : Thread nD τ).loc main_arg4)) (asRow (m ((c : Thread nD τ).loc main_arg5)))

/-! ## Arguments nobody has written yet -/

theorem atW2_arg1 : W2 m ρ c (Proc.devRef .tc main_arg1) = (m ((c : Thread nD τ).loc main_arg1)) :=
  (W2_of_ne m ρ c main_arg1 (by decide)).trans (stretch0_keeps_arg1 (W0 m ρ c))
theorem atW2_arg4 : W2 m ρ c (Proc.devRef .tc main_arg4) = (m ((c : Thread nD τ).loc main_arg4)) :=
  (W2_of_ne m ρ c main_arg4 (by decide)).trans (stretch0_keeps_arg4 (W0 m ρ c))
theorem atW2_arg5 : W2 m ρ c (Proc.devRef .tc main_arg5) = (m ((c : Thread nD τ).loc main_arg5)) :=
  (W2_of_ne m ρ c main_arg5 (by decide)).trans (stretch0_keeps_arg5 (W0 m ρ c))
theorem atW2_arg6 : W2 m ρ c (Proc.devRef .tc main_arg6) = (m ((c : Thread nD τ).loc main_arg6)) :=
  (W2_of_ne m ρ c main_arg6 (by decide)).trans (stretch0_keeps_arg6 (W0 m ρ c))
theorem atW2_arg7 : W2 m ρ c (Proc.devRef .tc main_arg7) = (m ((c : Thread nD τ).loc main_arg7)) :=
  (W2_of_ne m ρ c main_arg7 (by decide)).trans (stretch0_keeps_arg7 (W0 m ρ c))
theorem atW2_arg8 : W2 m ρ c (Proc.devRef .tc main_arg8) = (m ((c : Thread nD τ).loc main_arg8)) :=
  (W2_of_ne m ρ c main_arg8 (by decide)).trans (stretch0_keeps_arg8 (W0 m ρ c))
theorem atW2_arg9 : W2 m ρ c (Proc.devRef .tc main_arg9) = (m ((c : Thread nD τ).loc main_arg9)) :=
  (W2_of_ne m ρ c main_arg9 (by decide)).trans (stretch0_keeps_arg9 (W0 m ρ c))
theorem atW2_arg10 : W2 m ρ c (Proc.devRef .tc main_arg10) = (m ((c : Thread nD τ).loc main_arg10)) :=
  (W2_of_ne m ρ c main_arg10 (by decide)).trans (stretch0_keeps_arg10 (W0 m ρ c))
theorem atW2_arg11 : W2 m ρ c (Proc.devRef .tc main_arg11) = (m ((c : Thread nD τ).loc main_arg11)) :=
  (W2_of_ne m ρ c main_arg11 (by decide)).trans (stretch0_keeps_arg11 (W0 m ρ c))
theorem atW2_arg12 : W2 m ρ c (Proc.devRef .tc main_arg12) = (m ((c : Thread nD τ).loc main_arg12)) :=
  (W2_of_ne m ρ c main_arg12 (by decide)).trans (stretch0_keeps_arg12 (W0 m ρ c))
theorem atW2_arg13 : W2 m ρ c (Proc.devRef .tc main_arg13) = (m ((c : Thread nD τ).loc main_arg13)) :=
  (W2_of_ne m ρ c main_arg13 (by decide)).trans (stretch0_keeps_arg13 (W0 m ρ c))
theorem atW2_arg14 : W2 m ρ c (Proc.devRef .tc main_arg14) = (m ((c : Thread nD τ).loc main_arg14)) :=
  (W2_of_ne m ρ c main_arg14 (by decide)).trans (stretch0_keeps_arg14 (W0 m ρ c))
theorem atW2_arg15 : W2 m ρ c (Proc.devRef .tc main_arg15) = (m ((c : Thread nD τ).loc main_arg15)) :=
  (W2_of_ne m ρ c main_arg15 (by decide)).trans (stretch0_keeps_arg15 (W0 m ρ c))
theorem atW2_arg16 : W2 m ρ c (Proc.devRef .tc main_arg16) = (m ((c : Thread nD τ).loc main_arg16)) :=
  (W2_of_ne m ρ c main_arg16 (by decide)).trans (stretch0_keeps_arg16 (W0 m ρ c))
theorem atW2_arg17 : W2 m ρ c (Proc.devRef .tc main_arg17) = (m ((c : Thread nD τ).loc main_arg17)) :=
  (W2_of_ne m ρ c main_arg17 (by decide)).trans (stretch0_keeps_arg17 (W0 m ρ c))
theorem atW2_arg18 : W2 m ρ c (Proc.devRef .tc main_arg18) = (m ((c : Thread nD τ).loc main_arg18)) :=
  (W2_of_ne m ρ c main_arg18 (by decide)).trans (stretch0_keeps_arg18 (W0 m ρ c))
theorem atW2_arg19 : W2 m ρ c (Proc.devRef .tc main_arg19) = (m ((c : Thread nD τ).loc main_arg19)) :=
  (W2_of_ne m ρ c main_arg19 (by decide)).trans (stretch0_keeps_arg19 (W0 m ρ c))
theorem atW2_arg20 : W2 m ρ c (Proc.devRef .tc main_arg20) = (m ((c : Thread nD τ).loc main_arg20)) :=
  (W2_of_ne m ρ c main_arg20 (by decide)).trans (stretch0_keeps_arg20 (W0 m ρ c))
theorem atW2_arg21 : W2 m ρ c (Proc.devRef .tc main_arg21) = (m ((c : Thread nD τ).loc main_arg21)) :=
  (W2_of_ne m ρ c main_arg21 (by decide)).trans (stretch0_keeps_arg21 (W0 m ρ c))
theorem atW4_arg6 : W4 m ρ c (Proc.devRef .tc main_arg6) = (m ((c : Thread nD τ).loc main_arg6)) :=
  (W4_of_ne m ρ c main_arg6 (by decide)).trans ((stretch1_keeps_arg6 (W2 m ρ c)).trans (atW2_arg6 m ρ c))
theorem atW4_arg7 : W4 m ρ c (Proc.devRef .tc main_arg7) = (m ((c : Thread nD τ).loc main_arg7)) :=
  (W4_of_ne m ρ c main_arg7 (by decide)).trans ((stretch1_keeps_arg7 (W2 m ρ c)).trans (atW2_arg7 m ρ c))
theorem atW4_arg8 : W4 m ρ c (Proc.devRef .tc main_arg8) = (m ((c : Thread nD τ).loc main_arg8)) :=
  (W4_of_ne m ρ c main_arg8 (by decide)).trans ((stretch1_keeps_arg8 (W2 m ρ c)).trans (atW2_arg8 m ρ c))
theorem atW4_arg9 : W4 m ρ c (Proc.devRef .tc main_arg9) = (m ((c : Thread nD τ).loc main_arg9)) :=
  (W4_of_ne m ρ c main_arg9 (by decide)).trans ((stretch1_keeps_arg9 (W2 m ρ c)).trans (atW2_arg9 m ρ c))
theorem atW4_arg10 : W4 m ρ c (Proc.devRef .tc main_arg10) = (m ((c : Thread nD τ).loc main_arg10)) :=
  (W4_of_ne m ρ c main_arg10 (by decide)).trans ((stretch1_keeps_arg10 (W2 m ρ c)).trans (atW2_arg10 m ρ c))
theorem atW4_arg11 : W4 m ρ c (Proc.devRef .tc main_arg11) = (m ((c : Thread nD τ).loc main_arg11)) :=
  (W4_of_ne m ρ c main_arg11 (by decide)).trans ((stretch1_keeps_arg11 (W2 m ρ c)).trans (atW2_arg11 m ρ c))
theorem atW4_arg12 : W4 m ρ c (Proc.devRef .tc main_arg12) = (m ((c : Thread nD τ).loc main_arg12)) :=
  (W4_of_ne m ρ c main_arg12 (by decide)).trans ((stretch1_keeps_arg12 (W2 m ρ c)).trans (atW2_arg12 m ρ c))
theorem atW4_arg13 : W4 m ρ c (Proc.devRef .tc main_arg13) = (m ((c : Thread nD τ).loc main_arg13)) :=
  (W4_of_ne m ρ c main_arg13 (by decide)).trans ((stretch1_keeps_arg13 (W2 m ρ c)).trans (atW2_arg13 m ρ c))
theorem atW4_arg14 : W4 m ρ c (Proc.devRef .tc main_arg14) = (m ((c : Thread nD τ).loc main_arg14)) :=
  (W4_of_ne m ρ c main_arg14 (by decide)).trans ((stretch1_keeps_arg14 (W2 m ρ c)).trans (atW2_arg14 m ρ c))
theorem atW4_arg15 : W4 m ρ c (Proc.devRef .tc main_arg15) = (m ((c : Thread nD τ).loc main_arg15)) :=
  (W4_of_ne m ρ c main_arg15 (by decide)).trans ((stretch1_keeps_arg15 (W2 m ρ c)).trans (atW2_arg15 m ρ c))
theorem atW4_arg16 : W4 m ρ c (Proc.devRef .tc main_arg16) = (m ((c : Thread nD τ).loc main_arg16)) :=
  (W4_of_ne m ρ c main_arg16 (by decide)).trans ((stretch1_keeps_arg16 (W2 m ρ c)).trans (atW2_arg16 m ρ c))
theorem atW4_arg17 : W4 m ρ c (Proc.devRef .tc main_arg17) = (m ((c : Thread nD τ).loc main_arg17)) :=
  (W4_of_ne m ρ c main_arg17 (by decide)).trans ((stretch1_keeps_arg17 (W2 m ρ c)).trans (atW2_arg17 m ρ c))
theorem atW4_arg18 : W4 m ρ c (Proc.devRef .tc main_arg18) = (m ((c : Thread nD τ).loc main_arg18)) :=
  (W4_of_ne m ρ c main_arg18 (by decide)).trans ((stretch1_keeps_arg18 (W2 m ρ c)).trans (atW2_arg18 m ρ c))
theorem atW4_arg19 : W4 m ρ c (Proc.devRef .tc main_arg19) = (m ((c : Thread nD τ).loc main_arg19)) :=
  (W4_of_ne m ρ c main_arg19 (by decide)).trans ((stretch1_keeps_arg19 (W2 m ρ c)).trans (atW2_arg19 m ρ c))
theorem atW4_arg20 : W4 m ρ c (Proc.devRef .tc main_arg20) = (m ((c : Thread nD τ).loc main_arg20)) :=
  (W4_of_ne m ρ c main_arg20 (by decide)).trans ((stretch1_keeps_arg20 (W2 m ρ c)).trans (atW2_arg20 m ρ c))
theorem atW4_arg21 : W4 m ρ c (Proc.devRef .tc main_arg21) = (m ((c : Thread nD τ).loc main_arg21)) :=
  (W4_of_ne m ρ c main_arg21 (by decide)).trans ((stretch1_keeps_arg21 (W2 m ρ c)).trans (atW2_arg21 m ρ c))

/-! ## The two projections -/

theorem entry0_x : V1 m ρ c main_arg0 = (m ((c : Thread nD τ).loc main_arg0)) := stretch0_keeps_arg0 (W0 m ρ c)
theorem entry0_w : V1 m ρ c main_arg2 = (m ((c : Thread nD τ).loc main_arg2)) := stretch0_keeps_arg2 (W0 m ρ c)
theorem entry0_b : V1 m ρ c main_v0 = asRow (m ((c : Thread nD τ).loc main_arg3)) := stretch0_bias (W0 m ρ c)

/-- After region 0 its output holds the projected drug features. -/
theorem atW2_hDrug : W2 m ρ c (Proc.devRef .tc main_v1) = hDrug m c :=
  (W2_arr m ρ c 3).trans ((Region0.final (V1 m ρ) c).trans (by rw [entry0_x, entry0_w, entry0_b]; rfl))

theorem entry1_x : V3 m ρ c main_arg1 = (m ((c : Thread nD τ).loc main_arg1)) := (stretch1_keeps_arg1 (W2 m ρ c)).trans (atW2_arg1 m ρ c)
theorem entry1_w : V3 m ρ c main_arg4 = (m ((c : Thread nD τ).loc main_arg4)) := (stretch1_keeps_arg4 (W2 m ρ c)).trans (atW2_arg4 m ρ c)
theorem entry1_b : V3 m ρ c main_v2 = asRow (m ((c : Thread nD τ).loc main_arg5)) :=
  (stretch1_bias (W2 m ρ c)).trans (congrArg asRow (atW2_arg5 m ρ c))

/-- After region 1 its output holds the projected gene features … -/
theorem atW4_hGene : W4 m ρ c (Proc.devRef .tc main_v3) = hGene m c :=
  (W4_arr m ρ c 3).trans ((Region1.final (V3 m ρ) c).trans (by rw [entry1_x, entry1_w, entry1_b]; rfl))

/-- … and the drug features are still there. -/
theorem atW4_hDrug : W4 m ρ c (Proc.devRef .tc main_v1) = hDrug m c :=
  (W4_of_ne m ρ c main_v1 (by decide)).trans ((stretch1_keeps_v1 (W2 m ρ c)).trans (atW2_hDrug m ρ c))

/-! ## What the drug-side fused region finds at its windows -/

theorem entry2_first : V5 m ρ c main_v36 = aggregate (hDrug m c) (m ((c : Thread nD τ).loc main_arg14)) (m ((c : Thread nD τ).loc main_arg15)) :=
  (stretch2_agg_dd (W4 m ρ c)).trans (by rw [atW4_hDrug, atW4_arg14, atW4_arg15])
theorem entry2_second : V5 m ρ c main_v69 = aggregate (hGene m c) (m ((c : Thread nD τ).loc main_arg18)) (m ((c : Thread nD τ).loc main_arg19)) :=
  (stretch2_agg_gd (W4 m ρ c)).trans (by rw [atW4_hGene, atW4_arg18, atW4_arg19])
theorem entry2_first_norm : V5 m ρ c main_v137 = asColumn (degNorm (m ((c : Thread nD τ).loc main_arg15))) :=
  (stretch2_norm_dd (W4 m ρ c)).trans (by rw [atW4_arg15])
theorem entry2_second_norm : V5 m ρ c main_v138 = asColumn (degNorm (m ((c : Thread nD τ).loc main_arg19))) :=
  (stretch2_norm_gd (W4 m ρ c)).trans (by rw [atW4_arg19])
theorem entry2_first_weight : V5 m ρ c main_arg6 = (m ((c : Thread nD τ).loc main_arg6)) :=
  (stretch2_keeps_arg6 (W4 m ρ c)).trans (atW4_arg6 m ρ c)
theorem entry2_second_weight : V5 m ρ c main_arg10 = (m ((c : Thread nD τ).loc main_arg10)) :=
  (stretch2_keeps_arg10 (W4 m ρ c)).trans (atW4_arg10 m ρ c)
theorem entry2_bias : V5 m ρ c main_v139 = asRow (addf (F := Ideal) (s := S512) (φ := .f32) (m ((c : Thread nD τ).loc main_arg7)) (m ((c : Thread nD τ).loc main_arg11))) :=
  (stretch2_bias (W4 m ρ c)).trans (by rw [atW4_arg7, atW4_arg11])

/-- THE DRUG RESULT: what the last segment boundary holds at the first result buffer. -/
theorem drug_result :
    W8 m ρ c (Proc.devRef .tc main_v140)
      = mixed (aggregate (hDrug m c) (m ((c : Thread nD τ).loc main_arg14)) (m ((c : Thread nD τ).loc main_arg15))) (aggregate (hGene m c) (m ((c : Thread nD τ).loc main_arg18)) (m ((c : Thread nD τ).loc main_arg19)))
          (asColumn (degNorm (m ((c : Thread nD τ).loc main_arg15)))) (asColumn (degNorm (m ((c : Thread nD τ).loc main_arg19)))) (m ((c : Thread nD τ).loc main_arg6)) (m ((c : Thread nD τ).loc main_arg10))
          (asRow (F := Ideal) (addf (F := Ideal) (s := S512) (φ := .f32) (m ((c : Thread nD τ).loc main_arg7)) (m ((c : Thread nD τ).loc main_arg11)))) := by
  refine (W8_of_ne m ρ c main_v140 (by decide)).trans ?_
  refine (stretch3_keeps_v140 (W6 m ρ c)).trans ?_
  refine (W6_arr m ρ c 7).trans ?_
  refine (Region2.final (V5 m ρ) c).trans ?_
  rw [entry2_first, entry2_second, entry2_first_norm, entry2_second_norm, entry2_first_weight, entry2_second_weight,
    entry2_bias]

/-! ## What the gene-side fused region finds at its windows -/

theorem atW6_of_W4 (b : Ref sig .tc) (h : ∀ w, Pipeline.arrRef spec2 w ≠ b) :
    W6 m ρ c (Proc.devRef .tc b) = StableHlo.after hostOps2 (W4 m ρ c) (Proc.devRef .tc b) :=
  W6_of_ne m ρ c b h

theorem entry3_first : V7 m ρ c main_v102 = aggregate (hDrug m c) (m ((c : Thread nD τ).loc main_arg16)) (m ((c : Thread nD τ).loc main_arg17)) :=
  (stretch3_keeps_v102 (W6 m ρ c)).trans ((atW6_of_W4 m ρ c main_v102 (by decide)).trans
    ((stretch2_agg_dg (W4 m ρ c)).trans (by rw [atW4_hDrug, atW4_arg16, atW4_arg17])))
theorem entry3_second : V7 m ρ c main_v135 = aggregate (hGene m c) (m ((c : Thread nD τ).loc main_arg20)) (m ((c : Thread nD τ).loc main_arg21)) :=
  (stretch3_keeps_v135 (W6 m ρ c)).trans ((atW6_of_W4 m ρ c main_v135 (by decide)).trans
    ((stretch2_agg_gg (W4 m ρ c)).trans (by rw [atW4_hGene, atW4_arg20, atW4_arg21])))
theorem entry3_first_norm : V7 m ρ c main_v142 = asColumn (degNorm (m ((c : Thread nD τ).loc main_arg17))) :=
  (stretch3_norm_dg (W6 m ρ c)).trans (congrArg asColumn ((atW6_of_W4 m ρ c main_v82 (by decide)).trans
    ((stretch2_norm_dg (W4 m ρ c)).trans (by rw [atW4_arg17]))))
theorem entry3_second_norm : V7 m ρ c main_v143 = asColumn (degNorm (m ((c : Thread nD τ).loc main_arg21))) :=
  (stretch3_norm_gg (W6 m ρ c)).trans (congrArg asColumn ((atW6_of_W4 m ρ c main_v115 (by decide)).trans
    ((stretch2_norm_gg (W4 m ρ c)).trans (by rw [atW4_arg21]))))
theorem entry3_first_weight : V7 m ρ c main_arg8 = (m ((c : Thread nD τ).loc main_arg8)) :=
  (stretch3_keeps_arg8 (W6 m ρ c)).trans ((atW6_of_W4 m ρ c main_arg8 (by decide)).trans
    ((stretch2_keeps_arg8 (W4 m ρ c)).trans (atW4_arg8 m ρ c)))
theorem entry3_second_weight : V7 m ρ c main_arg12 = (m ((c : Thread nD τ).loc main_arg12)) :=
  (stretch3_keeps_arg12 (W6 m ρ c)).trans ((atW6_of_W4 m ρ c main_arg12 (by decide)).trans
    ((stretch2_keeps_arg12 (W4 m ρ c)).trans (atW4_arg12 m ρ c)))
theorem atW6_arg9 : W6 m ρ c (Proc.devRef .tc main_arg9) = (m ((c : Thread nD τ).loc main_arg9)) :=
  (atW6_of_W4 m ρ c main_arg9 (by decide)).trans ((stretch2_keeps_arg9 (W4 m ρ c)).trans (atW4_arg9 m ρ c))
theorem atW6_arg13 : W6 m ρ c (Proc.devRef .tc main_arg13) = (m ((c : Thread nD τ).loc main_arg13)) :=
  (atW6_of_W4 m ρ c main_arg13 (by decide)).trans ((stretch2_keeps_arg13 (W4 m ρ c)).trans (atW4_arg13 m ρ c))
theorem entry3_bias : V7 m ρ c main_v144 = asRow (addf (F := Ideal) (s := S512) (φ := .f32) (m ((c : Thread nD τ).loc main_arg9)) (m ((c : Thread nD τ).loc main_arg13))) :=
  (stretch3_bias (W6 m ρ c)).trans (by rw [atW6_arg9, atW6_arg13])

/-- THE GENE RESULT: what the last segment boundary holds at the second result buffer. -/
theorem gene_result :
    W8 m ρ c (Proc.devRef .tc main_v145)
      = mixed (aggregate (hDrug m c) (m ((c : Thread nD τ).loc main_arg16)) (m ((c : Thread nD τ).loc main_arg17))) (aggregate (hGene m c) (m ((c : Thread nD τ).loc main_arg20)) (m ((c : Thread nD τ).loc main_arg21)))
          (asColumn (degNorm (m ((c : Thread nD τ).loc main_arg17)))) (asColumn (degNorm (m ((c : Thread nD τ).loc main_arg21)))) (m ((c : Thread nD τ).loc main_arg8)) (m ((c : Thread nD τ).loc main_arg12))
          (asRow (F := Ideal) (addf (F := Ideal) (s := S512) (φ := .f32) (m ((c : Thread nD τ).loc main_arg9)) (m ((c : Thread nD τ).loc main_arg13)))) := by
  refine (W8_arr m ρ c 7).trans ?_
  refine (Region3.final (V7 m ρ) c).trans ?_
  rw [entry3_first, entry3_second, entry3_first_norm, entry3_second_norm, entry3_first_weight, entry3_second_weight,
    entry3_bias]

end Cert.KernelIdeal.Whole

end
-- ==== Proof.LibIndexedRows.lean ====
/-
  ROW GATHER, VECTOR GATHER AND ROW SCATTER-ADD BY A COLUMN OF SIGNED INDEX WORDS, WITH THE ROW MAP AND THE TARGET
  MAP NAMED.

  An [m, 1] column `idx` of signed index words (the index vector's axis being the column's second axis, of size
  one) moves whole rows of an [n, c] matrix, or entries of a length-n vector.

  * `word idx e` is the e-th index word read as a signed integer.
  * `rowOf n hn idx e` is the row a gather reads for entry e: the word clamped into [0, n - 1] (a negative word
    reads row 0, a word ≥ n reads row n - 1).
  * `tgtOf n idx e` is the row a scatter writes for update e: the word itself when 0 ≤ word < n, and none
    otherwise (an update that falls outside the matrix is dropped, not clamped).

  * `gather_rows_at`: the gather of the rows of an [n, c] matrix `x` is, at entry (e, k), x (rowOf e, k).
  * `gather_vec_at`: the gather of a length-n vector `x` is, at entry e, x (rowOf e).
  * `scatterAdd_rows_at` (and `scatterAdd_rows_at'` for the operation as a program spells it): the accumulating
    scatter of the [m, c] update rows `u` into `x` is, at entry (p, k), x (p, k) plus the sum of u (e, k) over
    the update rows e with tgtOf e = some p.
  * `word_of_tgtOf`, `rowOf_of_word`: an update with target p has word p, and a word p < n has row p; so the two
    maps agree wherever the target exists.

  Then the link between two columns built from one vector v of 32-bit words: the column of v itself, and the column
  of v with a constant added to the negative words (select (v < 0) (v + cN) v). Where the first column's target
  exists the word of v is non-negative, so the second column holds the same word (`word_shifted_of_nonneg`), and
  its gather row is that target (`rowOf_shifted_of_tgtOf`). No fact about the added constant is used.
-/
import Idealize.ShloMosaic.Lib.ValueIdx
import Idealize.ShloMosaic.PureOps.Ideal

open scoped BigOperators

namespace Cert.Lib.IndexedRows

open Idealize.ShloMosaic Idealize.ShloMosaic.ValueIdx

variable {m n c w : Nat}

/-- The e-th word of an [m, 1] column of index words, read as a signed integer. -/
def word (idx : IVec (⟨2, ![m, 1]⟩ : Shape) w) (e : Fin m) : Int := (idx (ix2 e 0)).toInt

/-- The row a gather reads for entry e of the column: the signed word clamped into [0, n - 1]. -/
def rowOf (n : Nat) (hn : 0 < n) (idx : IVec (⟨2, ![m, 1]⟩ : Shape) w) (e : Fin m) : Fin n :=
  ⟨min (word idx e).toNat (n - 1), by omega⟩

/-- The row a scatter writes for update e of the column: the signed word when it lies in [0, n), none otherwise. -/
def tgtOf (n : Nat) (idx : IVec (⟨2, ![m, 1]⟩ : Shape) w) (e : Fin m) : Option (Fin n) :=
  if h : 0 ≤ word idx e ∧ word idx e < (n : Int) then some ⟨(word idx e).toNat, by omega⟩ else none

/-- An update whose target is row p carries the word p. -/
theorem word_of_tgtOf {idx : IVec (⟨2, ![m, 1]⟩ : Shape) w} {e : Fin m} {p : Fin n}
    (h : tgtOf n idx e = some p) : word idx e = (p.val : Int) := by
  unfold tgtOf at h
  by_cases hc : 0 ≤ word idx e ∧ word idx e < (n : Int)
  · rw [dif_pos hc] at h
    have hv : (word idx e).toNat = p.val := congrArg Fin.val (Option.some.inj h)
    omega
  · rw [dif_neg hc] at h
    cases h

/-- An entry whose word is p (a row of the matrix) reads row p: the clamp does nothing inside the range. -/
theorem rowOf_of_word (hn : 0 < n) {idx : IVec (⟨2, ![m, 1]⟩ : Shape) w} {e : Fin m} {p : Fin n}
    (h : word idx e = (p.val : Int)) : rowOf n hn idx e = p := by
  refine Fin.ext ?_
  show min (word idx e).toNat (n - 1) = p.val
  have := p.isLt
  omega

/-- Gathering entries of a vector: the gather x[idx] of a length-n vector by an [m, 1] column of index words reads,
    at entry e, the vector at the row of e. -/
theorem gather_vec_at {α : Type}
    (d : GatherDims (⟨1, ![n]⟩ : Shape) (⟨2, ![m, 1]⟩ : Shape) (⟨1, ![m]⟩ : Shape))
    (hod : d.offsetDims = []) (hcs : d.collapsedSliceDims = [0]) (hob : d.operandBatchingDims = [])
    (hsb : d.startIndicesBatchingDims = []) (hsm : d.startIndexMap = [0]) (hiv : d.indexVectorDim = 1)
    (hn : 0 < n) (idx : IVec (⟨2, ![m, 1]⟩ : Shape) w) (x : (⟨1, ![n]⟩ : Shape).Idx → α) (e : Fin m) :
    Host.gather d x idx (ix1 e) = x (ix1 (rowOf n hn idx e)) := by
  have hs0 : d.sliceSizes 0 = 1 := d.slice_collapsed 0 (by rw [hcs]; exact List.mem_singleton.mpr rfl)
  obtain ⟨od, cd, ob, sb, sm, iv, ss, wf⟩ := d
  simp only at hod hcs hob hsb hsm hiv hs0
  subst hod hcs hob hsb hsm hiv
  unfold Host.gather
  congr 1
  funext a
  obtain rfl : a = 0 := Subsingleton.elim _ _
  refine Fin.ext ?_
  show GatherDims.start _ _ idx 0 + GatherDims.batchCoord _ _ 0 + GatherDims.offCoord _ _ 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : ∀ (q : Fin ([0] : List (Fin (⟨1, ![n]⟩ : Shape).rank)).length),
      GatherDims.siIdx (⟨[], [0], [], [], [0], 1, ss, wf⟩ :
        GatherDims (⟨1, ![n]⟩ : Shape) (⟨2, ![m, 1]⟩ : Shape) (⟨1, ![m]⟩ : Shape)) (ix1 e) q = ix2 e 0 := by
    intro q
    funext b; refine Fin.ext ?_
    match b with
    | ⟨0, _⟩ => rfl
    | ⟨1, _⟩ =>
      have := q.isLt
      simp only [List.length_singleton] at this
      show q.val = 0
      omega
  rw [hsi]
  show min _ (n - ss 0) = _
  rw [hs0]
  rfl

/-- Gathering whole rows: the row gather x[idx] of an [n, c] matrix by an [m, 1] column of index words reads, at
    entry (e, k), the matrix at (row of e, k). -/
theorem gather_rows_at {α : Type}
    (d : GatherDims (⟨2, ![n, c]⟩ : Shape) (⟨2, ![m, 1]⟩ : Shape) (⟨2, ![m, c]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hn : 0 < n) (idx : IVec (⟨2, ![m, 1]⟩ : Shape) w) (x : (⟨2, ![n, c]⟩ : Shape).Idx → α) (e : Fin m)
    (k : Fin c) : Host.gather d x idx (ix2 e k) = x (ix2 (rowOf n hn idx e) k) := by
  have hs0 : d.sliceSizes 0 = 1 := d.slice_collapsed 0 (by rw [hcs]; exact List.mem_singleton.mpr rfl)
  obtain ⟨od, cd, ob, sb, sm, iv, ss, wf⟩ := d
  simp only at hod hcs hob hsb hsm hiv hs0
  subst hod hcs hob hsb hsm hiv
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (q : Fin ([0] : List (Fin (⟨2, ![n, c]⟩ : Shape).rank)).length),
        GatherDims.siIdx (⟨[1], [0], [], [], [0], 1, ss, wf⟩ :
          GatherDims (⟨2, ![n, c]⟩ : Shape) (⟨2, ![m, 1]⟩ : Shape) (⟨2, ![m, c]⟩ : Shape)) (ix2 e k) q = ix2 e 0 := by
      intro q
      funext b; refine Fin.ext ?_
      match b with
      | ⟨0, _⟩ => rfl
      | ⟨1, _⟩ =>
        have := q.isLt
        simp only [List.length_singleton] at this
        show q.val = 0
        omega
    rw [hsi]
    show min _ (n - ss 0) = _
    rw [hs0]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (fun h => absurd (Fin.val_eq_of_eq (List.mem_singleton.mp h)) Nat.one_ne_zero)]
    simp only [Nat.zero_add]
    rfl

/-- Scatter-adding whole rows at the exact instance: entry (p, k) of the result is the operand's entry plus the sum,
    over the update rows e whose target row is p, of the update at (e, k). The result index of update entry (e, k')
    is read coordinate by coordinate — row (word of e) + 0, column 0 + k' —, so that entry lands at (p, k) exactly
    when tgtOf e = some p and k' = k; the sum over the rank-2 update index set then splits into the double sum over
    rows and columns, and the inner sum over columns keeps the single term k' = k. -/
theorem scatterAdd_rows_at
    (d : ScatterDims (⟨2, ![n, c]⟩ : Shape) (⟨2, ![m, 1]⟩ : Shape) (⟨2, ![m, c]⟩ : Shape))
    (huw : d.updateWindowDims = [1]) (hiw : d.insertedWindowDims = [0]) (hsd : d.scatterDimsToOperandDims = [0])
    (hiv : d.indexVectorDim = 1) (idx : IVec (⟨2, ![m, 1]⟩ : Shape) w)
    (x : (⟨2, ![n, c]⟩ : Shape).Idx → EReal) (u : (⟨2, ![m, c]⟩ : Shape).Idx → EReal) (p : Fin n) (k : Fin c) :
    Ideal.hostScatterAdd d x idx u (ix2 p k)
      = x (ix2 p k) + ∑ e ∈ Finset.univ.filter (fun e => tgtOf n idx e = some p), u (ix2 e k) := by
  obtain ⟨uw, iw, sd, iv, wf⟩ := d
  simp only at huw hiw hsd hiv
  subst huw hiw hsd hiv
  generalize hD : (⟨[1], [0], [0], 1, wf⟩ :
    ScatterDims (⟨2, ![n, c]⟩ : Shape) (⟨2, ![m, 1]⟩ : Shape) (⟨2, ![m, c]⟩ : Shape)) = D
  have hstart0 : ∀ (e : Fin m) (k' : Fin c), D.start (ix2 e k') idx 0 = word idx e := by
    intro e k'
    subst hD
    unfold ScatterDims.start word
    rw [dif_pos (List.mem_singleton.mpr rfl)]
    congr 2
    funext b; refine Fin.ext ?_
    match b with
    | ⟨0, _⟩ => rfl
    | ⟨1, _⟩ => rfl
  have hstart1 : ∀ (e : Fin m) (k' : Fin c), D.start (ix2 e k') idx 1 = 0 := by
    intro e k'
    subst hD
    unfold ScatterDims.start
    rw [dif_neg (fun h => absurd (Fin.val_eq_of_eq (List.mem_singleton.mp h)) Nat.one_ne_zero)]
  have hwin0 : ∀ (e : Fin m) (k' : Fin c), D.window (ix2 e k') 0 = 0 := by
    intro e k'
    subst hD
    unfold ScatterDims.window
    rw [dif_neg]
    intro h
    simp [ScatterDims.sKept, Shape.kept] at h
  have hwin1 : ∀ (e : Fin m) (k' : Fin c), D.window (ix2 e k') 1 = k'.val := by
    intro e k'
    subst hD
    rfl
  have hsz0 : ((⟨2, ![n, c]⟩ : Shape).size 0 : Int) = (n : Int) := rfl
  have hsz1 : ((⟨2, ![n, c]⟩ : Shape).size 1 : Int) = (c : Int) := rfl
  have key : ∀ (e : Fin m) (k' : Fin c), D.resultIdx? (ix2 e k') idx = some (ix2 p k) ↔
      (tgtOf n idx e = some p ∧ k' = k) := by
    intro e k'
    unfold tgtOf ScatterDims.resultIdx?
    by_cases h : 0 ≤ word idx e ∧ word idx e < (n : Int)
    · have hall : ∀ a, 0 ≤ D.start (ix2 e k') idx a + D.window (ix2 e k') a ∧
          D.start (ix2 e k') idx a + D.window (ix2 e k') a < ((⟨2, ![n, c]⟩ : Shape).size a : Int) := by
        intro a
        match a with
        | ⟨0, _⟩ =>
          show 0 ≤ D.start (ix2 e k') idx 0 + D.window (ix2 e k') 0 ∧
            D.start (ix2 e k') idx 0 + D.window (ix2 e k') 0 < ((⟨2, ![n, c]⟩ : Shape).size 0 : Int)
          rw [hstart0, hwin0, hsz0]
          omega
        | ⟨1, _⟩ =>
          show 0 ≤ D.start (ix2 e k') idx 1 + D.window (ix2 e k') 1 ∧
            D.start (ix2 e k') idx 1 + D.window (ix2 e k') 1 < ((⟨2, ![n, c]⟩ : Shape).size 1 : Int)
          rw [hstart1, hwin1, hsz1]
          have := k'.isLt
          omega
      rw [dif_pos hall, dif_pos h, Option.some.injEq, Option.some.injEq]
      constructor
      · intro hf
        have h0 : (D.start (ix2 e k') idx 0 + (D.window (ix2 e k') 0 : Int)).toNat = p.val :=
          congrArg (fun f => (f 0).val) hf
        have h1 : (D.start (ix2 e k') idx 1 + (D.window (ix2 e k') 1 : Int)).toNat = k.val :=
          congrArg (fun f => (f 1).val) hf
        rw [hstart0, hwin0] at h0
        rw [hstart1, hwin1] at h1
        refine ⟨Fin.ext ?_, Fin.ext ?_⟩
        · show (word idx e).toNat = p.val
          omega
        · omega
      · rintro ⟨hp, hk⟩
        have hp' : (word idx e).toNat = p.val := congrArg Fin.val hp
        funext a
        refine Fin.ext ?_
        match a with
        | ⟨0, _⟩ =>
          show (D.start (ix2 e k') idx 0 + (D.window (ix2 e k') 0 : Int)).toNat = p.val
          rw [hstart0, hwin0]
          omega
        | ⟨1, _⟩ =>
          show (D.start (ix2 e k') idx 1 + (D.window (ix2 e k') 1 : Int)).toNat = k.val
          rw [hstart1, hwin1, hk]
          omega
    · have hnall : ¬ ∀ a, 0 ≤ D.start (ix2 e k') idx a + D.window (ix2 e k') a ∧
          D.start (ix2 e k') idx a + D.window (ix2 e k') a < ((⟨2, ![n, c]⟩ : Shape).size a : Int) := by
        intro hall
        have h0 := hall 0
        rw [hstart0, hwin0, hsz0] at h0
        exact h (by omega)
      rw [dif_neg hnall, dif_neg h]
      constructor
      · intro hf; cases hf
      · rintro ⟨hf, _⟩; cases hf
  unfold Ideal.hostScatterAdd
  refine congrArg (x (ix2 p k) + ·) ?_
  rw [Finset.sum_filter, Finset.sum_filter, sum_idx2]
  refine Finset.sum_congr rfl (fun e _ => ?_)
  by_cases ht : tgtOf n idx e = some p
  · rw [if_pos ht, Finset.sum_eq_single k]
    · rw [if_pos ((key e k).mpr ⟨ht, rfl⟩)]
    · intro k' _ hk'
      rw [if_neg (fun hh => hk' ((key e k').mp hh).2)]
    · intro hh
      exact absurd (Finset.mem_univ k) hh
  · rw [if_neg ht]
    refine Finset.sum_eq_zero (fun k' _ => ?_)
    rw [if_neg (fun hh => ht ((key e k').mp hh).1)]

/-- The same reading of the accumulating row scatter as a program spells it: at the exact instance the host's
    scatter-add is the sum above. -/
theorem scatterAdd_rows_at' {φ : FTy}
    (d : ScatterDims (⟨2, ![n, c]⟩ : Shape) (⟨2, ![m, 1]⟩ : Shape) (⟨2, ![m, c]⟩ : Shape))
    (huw : d.updateWindowDims = [1]) (hiw : d.insertedWindowDims = [0]) (hsd : d.scatterDimsToOperandDims = [0])
    (hiv : d.indexVectorDim = 1) (idx : IVec (⟨2, ![m, 1]⟩ : Shape) w)
    (x : (⟨2, ![n, c]⟩ : Shape).Idx → EReal) (u : (⟨2, ![m, c]⟩ : Shape).Idx → EReal) (p : Fin n) (k : Fin c) :
    Host.scatterAdd (F := Ideal) (φ := φ) d x idx u (ix2 p k)
      = x (ix2 p k) + ∑ e ∈ Finset.univ.filter (fun e => tgtOf n idx e = some p), u (ix2 e k) :=
  scatterAdd_rows_at d huw hiw hsd hiv idx x u p k

/-! ## Two columns built from one vector of words -/

/-- The column of a vector holds the vector's words: entry (e, 0) of the [m, 1] column of v is v at e. -/
theorem word_column (v : IVec (⟨1, ![m]⟩ : Shape) w)
    (hb : (⟨1, ![m]⟩ : Shape).BroadcastsInDim (⟨2, ![m, 1]⟩ : Shape) ![0]) (e : Fin m) :
    word (broadcastInDim (⟨2, ![m, 1]⟩ : Shape) ![0] hb v) e = (v (ix1 e)).toInt := by
  unfold word broadcastInDim
  refine congrArg (fun j => (v j).toInt) ?_
  funext a
  obtain rfl : a = 0 := Subsingleton.elim _ _
  refine Fin.ext ?_
  by_cases h1 : (⟨1, ![m]⟩ : Shape).size 0 = 1
  · rw [dif_pos h1]
    have hm : m = 1 := h1
    have := e.isLt
    show 0 = e.val
    omega
  · rw [dif_neg h1]
    rfl

/-- Where the word of v is non-negative, the column of v with the negative words shifted (v + cN where v < 0, v
    elsewhere) holds the word of v: the signed comparison with zero is false there, so the select keeps v. -/
theorem word_shifted_of_nonneg (v z cN : IVec (⟨1, ![m]⟩ : Shape) 32) (hz : ∀ i, z i = 0#32)
    (hb : (⟨1, ![m]⟩ : Shape).BroadcastsInDim (⟨2, ![m, 1]⟩ : Shape) ![0]) (e : Fin m)
    (h0 : 0 ≤ (v (ix1 e)).toInt) :
    word (broadcastInDim (⟨2, ![m, 1]⟩ : Shape) ![0] hb (select (cmpi .slt v z) (addi v cN) v)) e
      = (v (ix1 e)).toInt := by
  rw [word_column]
  refine congrArg BitVec.toInt ?_
  show Scalar.select (IntOp.cmpi .slt (v (ix1 e)) (z (ix1 e))) (addi v cN (ix1 e)) (v (ix1 e)) = v (ix1 e)
  have hc : IntOp.cmpi .slt (v (ix1 e)) (z (ix1 e)) = 0#1 := by
    rw [hz]
    show BitVec.ofBool ((v (ix1 e)).slt 0#32) = 0#1
    have hs : (v (ix1 e)).slt 0#32 = false := by
      rw [BitVec.slt_eq_decide]
      exact decide_eq_false (by rw [BitVec.toInt_zero]; omega)
    rw [hs]
    rfl
  rw [hc]
  exact select_zero _ _

/-- Where the column of v has a scatter target p, the shifted column's gather row is p: the target's word is p,
    which is non-negative, so the shifted column holds the same word, and a word inside [0, n) is its own row. -/
theorem rowOf_shifted_of_tgtOf (hn : 0 < n) (v z cN : IVec (⟨1, ![m]⟩ : Shape) 32) (hz : ∀ i, z i = 0#32)
    (hb : (⟨1, ![m]⟩ : Shape).BroadcastsInDim (⟨2, ![m, 1]⟩ : Shape) ![0]) {e : Fin m} {p : Fin n}
    (h : tgtOf n (broadcastInDim (⟨2, ![m, 1]⟩ : Shape) ![0] hb v) e = some p) :
    rowOf n hn (broadcastInDim (⟨2, ![m, 1]⟩ : Shape) ![0] hb (select (cmpi .slt v z) (addi v cN) v)) e = p := by
  have hw : (v (ix1 e)).toInt = (p.val : Int) := (word_column v hb e).symm.trans (word_of_tgtOf h)
  refine rowOf_of_word hn ?_
  rw [word_shifted_of_nonneg v z cN hz hb e (by omega)]
  exact hw

end Cert.Lib.IndexedRows
-- ==== Proof.HalfLaw.lean ====
/-
  The two float literals of the kernel bodies as real numbers, and the one algebraic law that joins the two programs.

  The kernels scale by the literal 1 (the projections) and by the literal 1/2 (the mean of two edge types). On the
  extended reals a NON-NEGATIVE REAL factor distributes over any sum (also one that meets an infinity), and addition is
  commutative and associative, so

      h · (P + Q) + h · (b₁ + b₂)  =  h · ((P + b₁) + (Q + b₂))        (0 ≤ h real)

  which is how "half the sum of two matrix products, plus half the sum of the two biases" (the kernel) equals "half the
  sum of two biased products" (the reference). No finiteness of the inputs is needed.
-/
import Idealize.ShloMosaic.PureOps.Ideal.Laws

noncomputable section

namespace Cert.HalfLaw

open Idealize.ShloMosaic

/-- The pattern 0x3F800000 denotes 1. -/
theorem one_f32 : Ideal.ofBits .f32 0x3F800000#32 = (1 : EReal) := by
  simp [Ideal.ofBits, Ideal.ieee]
  have e : (8388608 : ℝ) * ((2 : ℝ) ^ 23)⁻¹ = 1 := by norm_num
  exact_mod_cast e

/-- The pattern 0x3F000000 denotes the real 1/2. -/
theorem half_f32 : Ideal.ofBits .f32 0x3F000000#32 = (((1 / 2 : ℝ)) : EReal) := by
  simp [Ideal.ofBits, Ideal.ieee]
  have e : (8388608 : ℝ) * ((2 : ℝ) ^ 24)⁻¹ = 2⁻¹ := by norm_num
  exact_mod_cast e

/-- A non-negative real factor distributes over a sum of extended reals. -/
theorem real_mul_add (h : ℝ) (hh : 0 ≤ h) (x y : EReal) : (h : EReal) * (x + y) = (h : EReal) * x + (h : EReal) * y :=
  EReal.left_distrib_of_nonneg_of_ne_top (by exact_mod_cast hh) (EReal.coe_ne_top h) x y

/-- Half of two products plus half of two biases is half of the two biased products. -/
theorem scaled_pair (h : ℝ) (hh : 0 ≤ h) (P Q b₁ b₂ : EReal) :
    (h : EReal) * (P + Q) + (h : EReal) * (b₁ + b₂) = (h : EReal) * ((P + b₁) + (Q + b₂)) := by
  rw [← real_mul_add h hh, add_add_add_comm]

end Cert.HalfLaw

end
-- ==== Proof.LayerLaws.lean ====
/-
  The three facts that join the kernel program's spelling to the reference's, at exact arithmetic, for any dimension
  records with the stated dimension numbers.

  1. Scaling commutes with a row gather:  h[I] · (v[I] as an [E,1] column repeated along the rows)
       = (h · (v as an [n,1] column repeated along the rows))[I].
     Both sides read row ρ(e) of h and entry ρ(e) of v at edge e, where ρ(e) is the e-th index word clamped into range.
  2. A projection:  1 · (x·W)(r,q) + 1 · b(0,q)  =  (x·W)(r,q) + b(q)   (the literal 1 denotes 1).
  3. The mean of two layers:  ½·(P + Q) + ½·(b₁ + b₂) = ½·((P + b₁) + (Q + b₂)),  where P = ((A · column n₁)·W₁)(r,q),
     Q likewise: a non-negative real factor distributes over sums of extended reals (HalfLaw).
-/
import proofs.«149234_j88510686036237_2_alg».proof.Proof.LibDotEntry
import proofs.«149234_j88510686036237_2_alg».proof.Proof.LibMatDims
import proofs.«149234_j88510686036237_2_alg».proof.Proof.LibIndexedRows
import proofs.«149234_j88510686036237_2_alg».proof.Proof.Arrays
import proofs.«149234_j88510686036237_2_alg».proof.Proof.HalfLaw
import Idealize.ShloMosaic.Lib.ValueIdx
import Idealize.ShloMosaic.Lib.Pipeline.Value
import Idealize.ShloMosaic.PureOps.Ideal.Laws

noncomputable section

namespace Cert.LayerLaws

open Idealize.ShloMosaic Idealize.ShloMosaic.TcCoe Idealize.ShloMosaic.ValueIdx
open Cert.Lib Cert.Arrays

/-! ## Layouts read at an entry -/

/-- A length-a vector laid out as an [a,1] column. -/
theorem vec_as_column {α : Type} {a : ℕ} (v : (⟨1, ![a]⟩ : Shape).Idx → α)
    (hb : (⟨1, ![a]⟩ : Shape).BroadcastsInDim ⟨2, ![a, 1]⟩ ![0]) (p : Fin a) (z : Fin 1) :
    broadcastInDim ⟨2, ![a, 1]⟩ ![0] hb v (ix2 p z) = v (ix1 p) := by
  refine broadcastInDim_apply _ hb v (ix2 p z) (ix1 p) fun ax => ?_
  match ax with
  | ⟨0, _⟩ =>
    show p.val = if a = 1 then 0 else p.val
    split
    · have := p.isLt; omega
    · rfl

/-- An [a,1] column repeated along the rows of an [a,b] array. -/
theorem column_across {α : Type} {a b : ℕ} (v : (⟨2, ![a, 1]⟩ : Shape).Idx → α)
    (hb : (⟨2, ![a, 1]⟩ : Shape).BroadcastsInDim ⟨2, ![a, b]⟩ ![0, 1]) (p : Fin a) (k : Fin b) :
    broadcastInDim ⟨2, ![a, b]⟩ ![0, 1] hb v (ix2 p k) = v (ix2 p (0 : Fin 1)) := by
  refine broadcastInDim_apply _ hb v (ix2 p k) (ix2 p (0 : Fin 1)) fun ax => ?_
  match ax with
  | ⟨0, _⟩ =>
    show p.val = if a = 1 then 0 else p.val
    split
    · have := p.isLt; omega
    · rfl
  | ⟨1, _⟩ => rfl

/-- A length-b vector laid out as a [1,b] row. -/
theorem vec_as_row {α : Type} {b : ℕ} (v : (⟨1, ![b]⟩ : Shape).Idx → α)
    (hb : (⟨1, ![b]⟩ : Shape).BroadcastsInDim ⟨2, ![1, b]⟩ ![1]) (z : Fin 1) (q : Fin b) :
    broadcastInDim ⟨2, ![1, b]⟩ ![1] hb v (ix2 z q) = v (ix1 q) := by
  refine broadcastInDim_apply _ hb v (ix2 z q) (ix1 q) fun ax => ?_
  match ax with
  | ⟨0, _⟩ =>
    show q.val = if b = 1 then 0 else q.val
    split
    · have := q.isLt; omega
    · rfl

/-- A [1,b] row repeated down an [a,b] array. -/
theorem row_down {α : Type} {a b : ℕ} (v : (⟨2, ![1, b]⟩ : Shape).Idx → α)
    (hb : (⟨2, ![1, b]⟩ : Shape).BroadcastsInDim ⟨2, ![a, b]⟩ ![0, 1]) (p : Fin a) (q : Fin b) :
    broadcastInDim ⟨2, ![a, b]⟩ ![0, 1] hb v (ix2 p q) = v (ix2 (0 : Fin 1) q) := by
  refine broadcastInDim_apply _ hb v (ix2 p q) (ix2 (0 : Fin 1) q) fun ax => ?_
  match ax with
  | ⟨0, _⟩ => rfl
  | ⟨1, _⟩ =>
    show q.val = if b = 1 then 0 else q.val
    split
    · have := q.isLt; omega
    · rfl

/-- A length-a vector reshaped to an [a,1] column. -/
theorem reshape_column {α : Type} {a : ℕ} (v : (⟨1, ![a]⟩ : Shape).Idx → α)
    (hc : (⟨1, ![a]⟩ : Shape).ShapeCasts ⟨2, ![a, 1]⟩) (p : Fin a) (z : Fin 1) :
    shapeCast ⟨2, ![a, 1]⟩ v hc (ix2 p z) = v (ix1 p) := by
  refine shapeCast_apply v hc (ix2 p z) (ix1 p) ?_
  rw [Shape.rowMajor_val_two, Shape.rowMajor_val_one]
  show p.val = p.val * 1 + z.val
  have := z.isLt; omega

/-- A length-b vector reshaped to a [1,b] row. -/
theorem reshape_row {α : Type} {b : ℕ} (v : (⟨1, ![b]⟩ : Shape).Idx → α)
    (hc : (⟨1, ![b]⟩ : Shape).ShapeCasts ⟨2, ![1, b]⟩) (z : Fin 1) (q : Fin b) :
    shapeCast ⟨2, ![1, b]⟩ v hc (ix2 z q) = v (ix1 q) := by
  refine shapeCast_apply v hc (ix2 z q) (ix1 q) ?_
  rw [Shape.rowMajor_val_two, Shape.rowMajor_val_one]
  show q.val = z.val * b + q.val
  have := z.isLt
  have hz : z.val = 0 := by omega
  rw [hz, Nat.zero_mul, Nat.zero_add]

/-! ## 1. Scaling commutes with a row gather -/

theorem gather_scaled {E n c : ℕ} (hn : 0 < n)
    (d2 : GatherDims (⟨2, ![n, c]⟩ : Shape) (⟨2, ![E, 1]⟩ : Shape) (⟨2, ![E, c]⟩ : Shape))
    (h2od : d2.offsetDims = [1]) (h2cs : d2.collapsedSliceDims = [0]) (h2ob : d2.operandBatchingDims = [])
    (h2sb : d2.startIndicesBatchingDims = []) (h2sm : d2.startIndexMap = [0]) (h2iv : d2.indexVectorDim = 1)
    (d1 : GatherDims (⟨1, ![n]⟩ : Shape) (⟨2, ![E, 1]⟩ : Shape) (⟨1, ![E]⟩ : Shape))
    (h1od : d1.offsetDims = []) (h1cs : d1.collapsedSliceDims = [0]) (h1ob : d1.operandBatchingDims = [])
    (h1sb : d1.startIndicesBatchingDims = []) (h1sm : d1.startIndexMap = [0]) (h1iv : d1.indexVectorDim = 1)
    (bE1 : (⟨1, ![E]⟩ : Shape).BroadcastsInDim ⟨2, ![E, 1]⟩ ![0])
    (bE2 : (⟨2, ![E, 1]⟩ : Shape).BroadcastsInDim ⟨2, ![E, c]⟩ ![0, 1])
    (bn1 : (⟨1, ![n]⟩ : Shape).BroadcastsInDim ⟨2, ![n, 1]⟩ ![0])
    (bn2 : (⟨2, ![n, 1]⟩ : Shape).BroadcastsInDim ⟨2, ![n, c]⟩ ![0, 1])
    (h : FVec Ideal ⟨2, ![n, c]⟩ .f32) (v : FVec Ideal ⟨1, ![n]⟩ .f32) (I : IVec (⟨2, ![E, 1]⟩ : Shape) 32) :
    mulf (Host.gather d2 h I)
        (broadcastInDim ⟨2, ![E, c]⟩ ![0, 1] bE2 (broadcastInDim ⟨2, ![E, 1]⟩ ![0] bE1 (Host.gather d1 v I)))
      = Host.gather d2 (mulf h (broadcastInDim ⟨2, ![n, c]⟩ ![0, 1] bn2 (broadcastInDim ⟨2, ![n, 1]⟩ ![0] bn1 v))) I := by
  funext i
  obtain ⟨e, k, rfl⟩ : ∃ (e : Fin E) (k : Fin c), i = ix2 e k := ⟨i 0, i 1, eq_ix2 i⟩
  rw [mulf_apply, IndexedRows.gather_rows_at d2 h2od h2cs h2ob h2sb h2sm h2iv hn I h e k,
    IndexedRows.gather_rows_at d2 h2od h2cs h2ob h2sb h2sm h2iv hn I _ e k, mulf_apply,
    column_across, vec_as_column, column_across, vec_as_column,
    IndexedRows.gather_vec_at d1 h1od h1cs h1ob h1sb h1sm h1iv hn I v e]

/-! ## 2. A projection -/

theorem projected_eq {n K : ℕ} (D : DotDims ⟨2, ![n, K]⟩ ⟨2, ![K, 512]⟩ ⟨2, ![n, 512]⟩)
    (hlc : D.lhsContracting = [1]) (hrc : D.rhsContracting = [0]) (hlb : D.lhsBatch = []) (hrb : D.rhsBatch = [])
    (hln : D.lhsNonContracting = [0]) (hrn : D.rhsNonContracting = [1])
    (hc : (⟨1, ![512]⟩ : Shape).ShapeCasts ⟨2, ![1, 512]⟩)
    (hb1 : (⟨1, ![512]⟩ : Shape).BroadcastsInDim ⟨2, ![1, 512]⟩ ![1])
    (hb2 : (⟨2, ![1, 512]⟩ : Shape).BroadcastsInDim ⟨2, ![n, 512]⟩ ![0, 1])
    (x : FVec Ideal ⟨2, ![n, K]⟩ .f32) (w : FVec Ideal ⟨2, ![K, 512]⟩ .f32) (b : FVec Ideal ⟨1, ![512]⟩ .f32) :
    projected x w (shapeCast ⟨2, ![1, 512]⟩ b hc)
      = addf (Host.dotGeneral (F := Ideal) D none x w)
          (broadcastInDim ⟨2, ![n, 512]⟩ ![0, 1] hb2 (broadcastInDim ⟨2, ![1, 512]⟩ ![1] hb1 b)) := by
  funext i
  obtain ⟨r, q, rfl⟩ : ∃ (r : Fin n) (q : Fin 512), i = ix2 r q := ⟨i 0, i 1, eq_ix2 i⟩
  rw [addf_apply, DotEntry.dotGeneral_ix2 D (MatDims.contr_rank D hlc) (MatDims.contr_size D hlc)
      (MatDims.lhs_row D hlb hln) (MatDims.lhs_col D hlc) (MatDims.rhs_row D hlc hrc)
      (MatDims.rhs_col D hlb hrb hln hrn) x w r q, row_down, vec_as_row]
  unfold projected
  rw [arrOf_ix2, reshape_row]
  show lit1 * _ + lit1 * _ = _
  rw [show lit1 = (1 : EReal) from HalfLaw.one_f32, one_mul, one_mul]

/-! ## 3. The mean of two layers -/

theorem mixed_eq {n : ℕ} (D : DotDims ⟨2, ![n, 512]⟩ ⟨2, ![512, 512]⟩ ⟨2, ![n, 512]⟩)
    (hlc : D.lhsContracting = [1]) (hrc : D.rhsContracting = [0]) (hlb : D.lhsBatch = []) (hrb : D.rhsBatch = [])
    (hln : D.lhsNonContracting = [0]) (hrn : D.rhsNonContracting = [1])
    (hcc : (⟨1, ![n]⟩ : Shape).ShapeCasts ⟨2, ![n, 1]⟩) (hcr : (⟨1, ![512]⟩ : Shape).ShapeCasts ⟨2, ![1, 512]⟩)
    (bn1 : (⟨1, ![n]⟩ : Shape).BroadcastsInDim ⟨2, ![n, 1]⟩ ![0])
    (bn2 : (⟨2, ![n, 1]⟩ : Shape).BroadcastsInDim ⟨2, ![n, 512]⟩ ![0, 1])
    (hb1 : (⟨1, ![512]⟩ : Shape).BroadcastsInDim ⟨2, ![1, 512]⟩ ![1])
    (hb2 : (⟨2, ![1, 512]⟩ : Shape).BroadcastsInDim ⟨2, ![n, 512]⟩ ![0, 1])
    (hs : (⟨0, ![]⟩ : Shape).BroadcastsInDim ⟨2, ![n, 512]⟩ ![])
    (A B : FVec Ideal ⟨2, ![n, 512]⟩ .f32) (n₁ n₂ : FVec Ideal ⟨1, ![n]⟩ .f32)
    (w₁ w₂ : FVec Ideal ⟨2, ![512, 512]⟩ .f32) (b₁ b₂ : FVec Ideal ⟨1, ![512]⟩ .f32) :
    mixed A B (shapeCast ⟨2, ![n, 1]⟩ n₁ hcc) (shapeCast ⟨2, ![n, 1]⟩ n₂ hcc) w₁ w₂
        (shapeCast ⟨2, ![1, 512]⟩ (addf b₁ b₂) hcr)
      = mulf (broadcastInDim ⟨2, ![n, 512]⟩ ![] hs (constant (F := Ideal) ⟨0, ![]⟩ .f32 0x3F000000#32))
          (addf
            (addf (Host.dotGeneral (F := Ideal) D none
                (mulf A (broadcastInDim ⟨2, ![n, 512]⟩ ![0, 1] bn2 (broadcastInDim ⟨2, ![n, 1]⟩ ![0] bn1 n₁))) w₁)
              (broadcastInDim ⟨2, ![n, 512]⟩ ![0, 1] hb2 (broadcastInDim ⟨2, ![1, 512]⟩ ![1] hb1 b₁)))
            (addf (Host.dotGeneral (F := Ideal) D none
                (mulf B (broadcastInDim ⟨2, ![n, 512]⟩ ![0, 1] bn2 (broadcastInDim ⟨2, ![n, 1]⟩ ![0] bn1 n₂))) w₂)
              (broadcastInDim ⟨2, ![n, 512]⟩ ![0, 1] hb2 (broadcastInDim ⟨2, ![1, 512]⟩ ![1] hb1 b₂)))) := by
  funext i
  obtain ⟨r, q, rfl⟩ : ∃ (r : Fin n) (q : Fin 512), i = ix2 r q := ⟨i 0, i 1, eq_ix2 i⟩
  have hdot := fun (l : FVec Ideal ⟨2, ![n, 512]⟩ .f32) (w : FVec Ideal ⟨2, ![512, 512]⟩ .f32) =>
    DotEntry.dotGeneral_ix2 D (MatDims.contr_rank D hlc) (MatDims.contr_size D hlc)
      (MatDims.lhs_row D hlb hln) (MatDims.lhs_col D hlc) (MatDims.rhs_row D hlc hrc)
      (MatDims.rhs_col D hlb hrb hln hrn) l w r q
  have hcol : ∀ (v : FVec Ideal ⟨1, ![n]⟩ .f32) (k : Fin 512),
      broadcastInDim (⟨2, ![n, 512]⟩ : Shape) ![0, 1] bn2 (broadcastInDim (⟨2, ![n, 1]⟩ : Shape) ![0] bn1 v) (ix2 r k)
        = v (ix1 r) := fun v k => by rw [column_across, vec_as_column]
  rw [mulf_apply, addf_apply, addf_apply, addf_apply, hdot, hdot, row_down, vec_as_row, row_down, vec_as_row]
  simp only [mulf_apply, hcol]
  unfold mixed
  rw [arrOf_ix2]
  simp only [reshape_column, reshape_row, addf_apply]
  have hbc : broadcastInDim (⟨2, ![n, 512]⟩ : Shape) ![] hs (constant (F := Ideal) ⟨0, ![]⟩ .f32 0x3F000000#32) (ix2 r q)
      = litHalf := rfl
  rw [hbc]
  show litHalf * _ + litHalf * _ = litHalf * _
  rw [show litHalf = (((1 / 2 : ℝ)) : EReal) from HalfLaw.half_f32]
  exact HalfLaw.scaled_pair (1 / 2) (by norm_num) _ _ _ _

end Cert.LayerLaws

end
-- ==== Proof.Bridge.lean ====
/-
  The kernel program's functions are the reference's.

  The reference's run is read one operation at a time as stage functions of the arguments (`val_main_v…`). Stage by
  stage the kernel's functions are those:
    * the degree norms are the same text (rsqrt of the clamped scatter-added counts);
    * each projection `1·(x·W) + 1·b` is the reference's `x·W + b`;
    * per edge type, scaling AFTER the row gather (kernel) is scaling BEFORE it (reference): both read row ρ(e) of the
      features and entry ρ(e) of the source norms at edge e; the scatter-add into destination rows is then the same
      operation on the same messages and is never opened;
    * the fused mean `½·(P+Q) + ½·(b₁+b₂)` is the reference's `½·((P+b₁) + (Q+b₂))`.
-/
import proofs.«149234_j88510686036237_2_alg».proof.Proof.Gen.ReferenceIdeal.Read
import proofs.«149234_j88510686036237_2_alg».proof.Proof.Stages
import proofs.«149234_j88510686036237_2_alg».proof.Proof.LayerLaws

set_option maxRecDepth 16384

noncomputable section

namespace Cert.Bridge

open Idealize.ShloMosaic Idealize.ShloMosaic.TcCoe Idealize.SL.Sem
open Cert.Arrays Cert.KernelIdeal.Stages Cert.ReferenceIdeal.Read

/-! ## The degree norms: one text -/

theorem norm_v17 (s : (⟨Cert.KernelIdeal.S250000, .i32⟩ : BufTy).Contents (Elt Ideal)) : degNorm (F := Ideal) s = val_main_v17 (F := Ideal) s := rfl
theorem norm_v20 (s : (⟨Cert.KernelIdeal.S250000, .i32⟩ : BufTy).Contents (Elt Ideal)) : degNorm (F := Ideal) s = val_main_v20 (F := Ideal) s := rfl
theorem norm_v50 (s : (⟨Cert.KernelIdeal.S250000, .i32⟩ : BufTy).Contents (Elt Ideal)) : degNorm (F := Ideal) s = val_main_v50 (F := Ideal) s := rfl
theorem norm_v53 (s : (⟨Cert.KernelIdeal.S250000, .i32⟩ : BufTy).Contents (Elt Ideal)) : degNorm (F := Ideal) s = val_main_v53 (F := Ideal) s := rfl
theorem norm_v83 (s : (⟨Cert.KernelIdeal.S250000, .i32⟩ : BufTy).Contents (Elt Ideal)) : degNorm (F := Ideal) s = val_main_v83 (F := Ideal) s := rfl
theorem norm_v86 (s : (⟨Cert.KernelIdeal.S250000, .i32⟩ : BufTy).Contents (Elt Ideal)) : degNorm (F := Ideal) s = val_main_v86 (F := Ideal) s := rfl
theorem norm_v116 (s : (⟨Cert.KernelIdeal.S250000, .i32⟩ : BufTy).Contents (Elt Ideal)) : degNorm (F := Ideal) s = val_main_v116 (F := Ideal) s := rfl
theorem norm_v119 (s : (⟨Cert.KernelIdeal.S250000, .i32⟩ : BufTy).Contents (Elt Ideal)) : degNorm (F := Ideal) s = val_main_v119 (F := Ideal) s := rfl

/-! ## The projections -/

/-- The drug projection. -/
theorem projection_drug (x0 : (⟨Cert.KernelIdeal.S100000x512, .f32⟩ : BufTy).Contents (Elt Ideal)) (x2 : (⟨Cert.KernelIdeal.S512x512, .f32⟩ : BufTy).Contents (Elt Ideal)) (x3 : (⟨Cert.KernelIdeal.S512, .f32⟩ : BufTy).Contents (Elt Ideal)) :
    projected x0 x2 (asRow (F := Ideal) x3) = val_main_v3 (F := Ideal) x0 x2 x3 := by
  unfold asRow
  refine (LayerLaws.projected_eq (n := 100000) (K := 512) Cert.ReferenceIdeal.dot_S100000x512_S512x512_S100000x512_1_0_0_1_n_n rfl rfl rfl rfl rfl rfl
    Cert.KernelIdeal.Facts₀.shapeCasts_S512_S1x512 Cert.ReferenceIdeal.Facts₀.bcast_S512_S1x512_1 Cert.ReferenceIdeal.Facts₀.bcast_S1x512_S100000x512_0_1 x0 x2 x3).trans ?_
  rfl

/-- The gene projection. -/
theorem projection_gene (x1 : (⟨Cert.KernelIdeal.S100000x256, .f32⟩ : BufTy).Contents (Elt Ideal)) (x4 : (⟨Cert.KernelIdeal.S256x512, .f32⟩ : BufTy).Contents (Elt Ideal)) (x5 : (⟨Cert.KernelIdeal.S512, .f32⟩ : BufTy).Contents (Elt Ideal)) :
    projected x1 x4 (asRow (F := Ideal) x5) = val_main_v7 (F := Ideal) x1 x4 x5 := by
  unfold asRow
  refine (LayerLaws.projected_eq (n := 100000) (K := 256) Cert.ReferenceIdeal.dot_S100000x256_S256x512_S100000x512_1_0_0_1_n_n rfl rfl rfl rfl rfl rfl
    Cert.KernelIdeal.Facts₀.shapeCasts_S512_S1x512 Cert.ReferenceIdeal.Facts₀.bcast_S512_S1x512_1 Cert.ReferenceIdeal.Facts₀.bcast_S1x512_S100000x512_0_1 x1 x4 x5).trans ?_
  rfl

/-! ## The four edge types -/

/-- Edge type dd: the kernel's messages (gather, then scale by the gathered source norms) are the reference's
    (scale the features by the source norms, then gather). -/
theorem messages_dd (x0 : (⟨Cert.KernelIdeal.S100000x512, .f32⟩ : BufTy).Contents (Elt Ideal)) (x2 : (⟨Cert.KernelIdeal.S512x512, .f32⟩ : BufTy).Contents (Elt Ideal)) (x3 : (⟨Cert.KernelIdeal.S512, .f32⟩ : BufTy).Contents (Elt Ideal)) (s : (⟨Cert.KernelIdeal.S250000, .i32⟩ : BufTy).Contents (Elt Ideal)) :
    messages (F := Ideal) (val_main_v3 (F := Ideal) x0 x2 x3) s = val_main_v30 (F := Ideal) x0 x2 x3 s := by
  unfold messages
  refine (LayerLaws.gather_scaled (E := 250000) (n := 100000) (c := 512) (by norm_num)
    Cert.KernelIdeal.gather_S100000x512_S250000x1_S250000x512_1_0_n_n_0_1_1512 rfl rfl rfl rfl rfl rfl
    Cert.KernelIdeal.gather_S100000_S250000x1_S250000_n_0_n_n_0_1_1 rfl rfl rfl rfl rfl rfl
    Cert.KernelIdeal.Facts₀.bcast_S250000_S250000x1_0 Cert.KernelIdeal.Facts₀.bcast_S250000x1_S250000x512_0_1
    Cert.ReferenceIdeal.Facts₀.bcast_S100000_S100000x1_0 Cert.ReferenceIdeal.Facts₀.bcast_S100000x1_S100000x512_0_1
    (val_main_v3 (F := Ideal) x0 x2 x3) (degNorm (F := Ideal) s) (rowIdx (F := Ideal) s)).trans ?_
  rfl

/-- Edge type dd: so the two aggregates are the same scatter-add of the same messages. -/
theorem aggregate_dd (x0 : (⟨Cert.KernelIdeal.S100000x512, .f32⟩ : BufTy).Contents (Elt Ideal)) (x2 : (⟨Cert.KernelIdeal.S512x512, .f32⟩ : BufTy).Contents (Elt Ideal)) (x3 : (⟨Cert.KernelIdeal.S512, .f32⟩ : BufTy).Contents (Elt Ideal)) (s d : (⟨Cert.KernelIdeal.S250000, .i32⟩ : BufTy).Contents (Elt Ideal)) :
    aggregate (F := Ideal) (val_main_v3 (F := Ideal) x0 x2 x3) s d = val_main_v33 (F := Ideal) x0 x2 x3 s d := by
  unfold aggregate
  rw [messages_dd]
  rfl

/-- Edge type gd: the kernel's messages (gather, then scale by the gathered source norms) are the reference's
    (scale the features by the source norms, then gather). -/
theorem messages_gd (x1 : (⟨Cert.KernelIdeal.S100000x256, .f32⟩ : BufTy).Contents (Elt Ideal)) (x4 : (⟨Cert.KernelIdeal.S256x512, .f32⟩ : BufTy).Contents (Elt Ideal)) (x5 : (⟨Cert.KernelIdeal.S512, .f32⟩ : BufTy).Contents (Elt Ideal)) (s : (⟨Cert.KernelIdeal.S250000, .i32⟩ : BufTy).Contents (Elt Ideal)) :
    messages (F := Ideal) (val_main_v7 (F := Ideal) x1 x4 x5) s = val_main_v63 (F := Ideal) x1 x4 x5 s := by
  unfold messages
  refine (LayerLaws.gather_scaled (E := 250000) (n := 100000) (c := 512) (by norm_num)
    Cert.KernelIdeal.gather_S100000x512_S250000x1_S250000x512_1_0_n_n_0_1_1512 rfl rfl rfl rfl rfl rfl
    Cert.KernelIdeal.gather_S100000_S250000x1_S250000_n_0_n_n_0_1_1 rfl rfl rfl rfl rfl rfl
    Cert.KernelIdeal.Facts₀.bcast_S250000_S250000x1_0 Cert.KernelIdeal.Facts₀.bcast_S250000x1_S250000x512_0_1
    Cert.ReferenceIdeal.Facts₀.bcast_S100000_S100000x1_0 Cert.ReferenceIdeal.Facts₀.bcast_S100000x1_S100000x512_0_1
    (val_main_v7 (F := Ideal) x1 x4 x5) (degNorm (F := Ideal) s) (rowIdx (F := Ideal) s)).trans ?_
  rfl

/-- Edge type gd: so the two aggregates are the same scatter-add of the same messages. -/
theorem aggregate_gd (x1 : (⟨Cert.KernelIdeal.S100000x256, .f32⟩ : BufTy).Contents (Elt Ideal)) (x4 : (⟨Cert.KernelIdeal.S256x512, .f32⟩ : BufTy).Contents (Elt Ideal)) (x5 : (⟨Cert.KernelIdeal.S512, .f32⟩ : BufTy).Contents (Elt Ideal)) (s d : (⟨Cert.KernelIdeal.S250000, .i32⟩ : BufTy).Contents (Elt Ideal)) :
    aggregate (F := Ideal) (val_main_v7 (F := Ideal) x1 x4 x5) s d = val_main_v66 (F := Ideal) x1 x4 x5 s d := by
  unfold aggregate
  rw [messages_gd]
  rfl

/-- Edge type dg: the kernel's messages (gather, then scale by the gathered source norms) are the reference's
    (scale the features by the source norms, then gather). -/
theorem messages_dg (x0 : (⟨Cert.KernelIdeal.S100000x512, .f32⟩ : BufTy).Contents (Elt Ideal)) (x2 : (⟨Cert.KernelIdeal.S512x512, .f32⟩ : BufTy).Contents (Elt Ideal)) (x3 : (⟨Cert.KernelIdeal.S512, .f32⟩ : BufTy).Contents (Elt Ideal)) (s : (⟨Cert.KernelIdeal.S250000, .i32⟩ : BufTy).Contents (Elt Ideal)) :
    messages (F := Ideal) (val_main_v3 (F := Ideal) x0 x2 x3) s = val_main_v96 (F := Ideal) x0 x2 x3 s := by
  unfold messages
  refine (LayerLaws.gather_scaled (E := 250000) (n := 100000) (c := 512) (by norm_num)
    Cert.KernelIdeal.gather_S100000x512_S250000x1_S250000x512_1_0_n_n_0_1_1512 rfl rfl rfl rfl rfl rfl
    Cert.KernelIdeal.gather_S100000_S250000x1_S250000_n_0_n_n_0_1_1 rfl rfl rfl rfl rfl rfl
    Cert.KernelIdeal.Facts₀.bcast_S250000_S250000x1_0 Cert.KernelIdeal.Facts₀.bcast_S250000x1_S250000x512_0_1
    Cert.ReferenceIdeal.Facts₀.bcast_S100000_S100000x1_0 Cert.ReferenceIdeal.Facts₀.bcast_S100000x1_S100000x512_0_1
    (val_main_v3 (F := Ideal) x0 x2 x3) (degNorm (F := Ideal) s) (rowIdx (F := Ideal) s)).trans ?_
  rfl

/-- Edge type dg: so the two aggregates are the same scatter-add of the same messages. -/
theorem aggregate_dg (x0 : (⟨Cert.KernelIdeal.S100000x512, .f32⟩ : BufTy).Contents (Elt Ideal)) (x2 : (⟨Cert.KernelIdeal.S512x512, .f32⟩ : BufTy).Contents (Elt Ideal)) (x3 : (⟨Cert.KernelIdeal.S512, .f32⟩ : BufTy).Contents (Elt Ideal)) (s d : (⟨Cert.KernelIdeal.S250000, .i32⟩ : BufTy).Contents (Elt Ideal)) :
    aggregate (F := Ideal) (val_main_v3 (F := Ideal) x0 x2 x3) s d = val_main_v99 (F := Ideal) x0 x2 x3 s d := by
  unfold aggregate
  rw [messages_dg]
  rfl

/-- Edge type gg: the kernel's messages (gather, then scale by the gathered source norms) are the reference's
    (scale the features by the source norms, then gather). -/
theorem messages_gg (x1 : (⟨Cert.KernelIdeal.S100000x256, .f32⟩ : BufTy).Contents (Elt Ideal)) (x4 : (⟨Cert.KernelIdeal.S256x512, .f32⟩ : BufTy).Contents (Elt Ideal)) (x5 : (⟨Cert.KernelIdeal.S512, .f32⟩ : BufTy).Contents (Elt Ideal)) (s : (⟨Cert.KernelIdeal.S250000, .i32⟩ : BufTy).Contents (Elt Ideal)) :
    messages (F := Ideal) (val_main_v7 (F := Ideal) x1 x4 x5) s = val_main_v129 (F := Ideal) x1 x4 x5 s := by
  unfold messages
  refine (LayerLaws.gather_scaled (E := 250000) (n := 100000) (c := 512) (by norm_num)
    Cert.KernelIdeal.gather_S100000x512_S250000x1_S250000x512_1_0_n_n_0_1_1512 rfl rfl rfl rfl rfl rfl
    Cert.KernelIdeal.gather_S100000_S250000x1_S250000_n_0_n_n_0_1_1 rfl rfl rfl rfl rfl rfl
    Cert.KernelIdeal.Facts₀.bcast_S250000_S250000x1_0 Cert.KernelIdeal.Facts₀.bcast_S250000x1_S250000x512_0_1
    Cert.ReferenceIdeal.Facts₀.bcast_S100000_S100000x1_0 Cert.ReferenceIdeal.Facts₀.bcast_S100000x1_S100000x512_0_1
    (val_main_v7 (F := Ideal) x1 x4 x5) (degNorm (F := Ideal) s) (rowIdx (F := Ideal) s)).trans ?_
  rfl

/-- Edge type gg: so the two aggregates are the same scatter-add of the same messages. -/
theorem aggregate_gg (x1 : (⟨Cert.KernelIdeal.S100000x256, .f32⟩ : BufTy).Contents (Elt Ideal)) (x4 : (⟨Cert.KernelIdeal.S256x512, .f32⟩ : BufTy).Contents (Elt Ideal)) (x5 : (⟨Cert.KernelIdeal.S512, .f32⟩ : BufTy).Contents (Elt Ideal)) (s d : (⟨Cert.KernelIdeal.S250000, .i32⟩ : BufTy).Contents (Elt Ideal)) :
    aggregate (F := Ideal) (val_main_v7 (F := Ideal) x1 x4 x5) s d = val_main_v132 (F := Ideal) x1 x4 x5 s d := by
  unfold aggregate
  rw [messages_gg]
  rfl

/-! ## The two results -/

/-- THE DRUG RESULT: the kernel program's function of the arguments is the reference's first result. -/
theorem drug (x0 : (⟨Cert.KernelIdeal.S100000x512, .f32⟩ : BufTy).Contents (Elt Ideal)) (x2 : (⟨Cert.KernelIdeal.S512x512, .f32⟩ : BufTy).Contents (Elt Ideal)) (x3 : (⟨Cert.KernelIdeal.S512, .f32⟩ : BufTy).Contents (Elt Ideal)) (x1 : (⟨Cert.KernelIdeal.S100000x256, .f32⟩ : BufTy).Contents (Elt Ideal)) (x4 : (⟨Cert.KernelIdeal.S256x512, .f32⟩ : BufTy).Contents (Elt Ideal)) (x5 : (⟨Cert.KernelIdeal.S512, .f32⟩ : BufTy).Contents (Elt Ideal)) (x6 x10 : (⟨Cert.KernelIdeal.S512x512, .f32⟩ : BufTy).Contents (Elt Ideal)) (x7 x11 : (⟨Cert.KernelIdeal.S512, .f32⟩ : BufTy).Contents (Elt Ideal)) (x14 x15 x18 x19 : (⟨Cert.KernelIdeal.S250000, .i32⟩ : BufTy).Contents (Elt Ideal)) :
    mixed (aggregate (F := Ideal) (projected x0 x2 (asRow (F := Ideal) x3)) x14 x15)
        (aggregate (F := Ideal) (projected x1 x4 (asRow (F := Ideal) x5)) x18 x19)
        (asColumn (F := Ideal) (degNorm (F := Ideal) x15)) (asColumn (F := Ideal) (degNorm (F := Ideal) x19)) x6 x10
        (asRow (F := Ideal) (addf (F := Ideal) (s := Cert.KernelIdeal.S512) (φ := .f32) x7 x11))
      = val_main_v142 (F := Ideal) x0 x1 x2 x3 x4 x5 x6 x7 x10 x11 x14 x15 x18 x19 := by
  rw [projection_drug, projection_gene, aggregate_dd, aggregate_gd]
  unfold asColumn asRow
  refine (LayerLaws.mixed_eq (n := 100000) Cert.ReferenceIdeal.dot_S100000x512_S512x512_S100000x512_1_0_0_1_n_n rfl rfl rfl rfl rfl rfl
    Cert.KernelIdeal.Facts₀.shapeCasts_S100000_S100000x1 Cert.KernelIdeal.Facts₀.shapeCasts_S512_S1x512
    Cert.ReferenceIdeal.Facts₀.bcast_S100000_S100000x1_0 Cert.ReferenceIdeal.Facts₀.bcast_S100000x1_S100000x512_0_1
    Cert.ReferenceIdeal.Facts₀.bcast_S512_S1x512_1 Cert.ReferenceIdeal.Facts₀.bcast_S1x512_S100000x512_0_1 Cert.ReferenceIdeal.Facts₀.bcast_S_S100000x512
    (val_main_v33 (F := Ideal) x0 x2 x3 x14 x15) (val_main_v66 (F := Ideal) x1 x4 x5 x18 x19)
    (degNorm (F := Ideal) x15) (degNorm (F := Ideal) x19) x6 x10 x7 x11).trans ?_
  rfl

/-- THE GENE RESULT: the kernel program's function of the arguments is the reference's second result. -/
theorem gene (x0 : (⟨Cert.KernelIdeal.S100000x512, .f32⟩ : BufTy).Contents (Elt Ideal)) (x2 : (⟨Cert.KernelIdeal.S512x512, .f32⟩ : BufTy).Contents (Elt Ideal)) (x3 : (⟨Cert.KernelIdeal.S512, .f32⟩ : BufTy).Contents (Elt Ideal)) (x1 : (⟨Cert.KernelIdeal.S100000x256, .f32⟩ : BufTy).Contents (Elt Ideal)) (x4 : (⟨Cert.KernelIdeal.S256x512, .f32⟩ : BufTy).Contents (Elt Ideal)) (x5 : (⟨Cert.KernelIdeal.S512, .f32⟩ : BufTy).Contents (Elt Ideal)) (x8 x12 : (⟨Cert.KernelIdeal.S512x512, .f32⟩ : BufTy).Contents (Elt Ideal)) (x9 x13 : (⟨Cert.KernelIdeal.S512, .f32⟩ : BufTy).Contents (Elt Ideal)) (x16 x17 x20 x21 : (⟨Cert.KernelIdeal.S250000, .i32⟩ : BufTy).Contents (Elt Ideal)) :
    mixed (aggregate (F := Ideal) (projected x0 x2 (asRow (F := Ideal) x3)) x16 x17)
        (aggregate (F := Ideal) (projected x1 x4 (asRow (F := Ideal) x5)) x20 x21)
        (asColumn (F := Ideal) (degNorm (F := Ideal) x17)) (asColumn (F := Ideal) (degNorm (F := Ideal) x21)) x8 x12
        (asRow (F := Ideal) (addf (F := Ideal) (s := Cert.KernelIdeal.S512) (φ := .f32) x9 x13))
      = val_main_v145 (F := Ideal) x0 x1 x2 x3 x4 x5 x8 x9 x12 x13 x16 x17 x20 x21 := by
  rw [projection_drug, projection_gene, aggregate_dg, aggregate_gg]
  unfold asColumn asRow
  refine (LayerLaws.mixed_eq (n := 100000) Cert.ReferenceIdeal.dot_S100000x512_S512x512_S100000x512_1_0_0_1_n_n rfl rfl rfl rfl rfl rfl
    Cert.KernelIdeal.Facts₀.shapeCasts_S100000_S100000x1 Cert.KernelIdeal.Facts₀.shapeCasts_S512_S1x512
    Cert.ReferenceIdeal.Facts₀.bcast_S100000_S100000x1_0 Cert.ReferenceIdeal.Facts₀.bcast_S100000x1_S100000x512_0_1
    Cert.ReferenceIdeal.Facts₀.bcast_S512_S1x512_1 Cert.ReferenceIdeal.Facts₀.bcast_S1x512_S100000x512_0_1 Cert.ReferenceIdeal.Facts₀.bcast_S_S100000x512
    (val_main_v99 (F := Ideal) x0 x2 x3 x16 x17) (val_main_v132 (F := Ideal) x1 x4 x5 x20 x21)
    (degNorm (F := Ideal) x17) (degNorm (F := Ideal) x21) x8 x12 x9 x13).trans ?_
  rfl

end Cert.Bridge

end
-- ==== Proof.lean ====
/-
  The certificate of a two-node-type relational graph convolution: four pipelined TensorCore regions among host
  operations (the kernel program) against plain array code (the reference), at exact arithmetic.

  Both programs project the drug and gene features (x·W + b), and for each of four edge types scale the source features
  by rsqrt(max(out-degree, 1)), sum them along the edges into the destination rows, scale by rsqrt(max(in-degree, 1)),
  apply a dense layer, and average the two edge types that end at each node type.
  The kernel program differs in three places, none of which changes the value on the extended reals:
    * a projection region computes 1·(x·W) + 1·b;
    * the source scaling is applied to the gathered rows (h[s] · n[s]) instead of before the gather ((h·n)[s]);
    * a fused region computes ½·((A·n_a)·W₁ + (B·n_b)·W₂) + ½·(b₁ + b₂) instead of ½·(((A·n_a)·W₁ + b₁) + ((B·n_b)·W₂ + b₂)):
      a non-negative real factor distributes over sums of extended reals, so no finiteness of the inputs is used.
  The three frames are the generated ones (the reference's is its run with the results dropped); the ideal pass rewrote
  nothing, so `preserves` asks nothing; `algebraic` puts the kernel program's run, read at its two result buffers
  (KernelRun, KernelValue), beside the reference's run read as stage functions, joined by Bridge.
-/
import proofs.«149234_j88510686036237_2_alg».proof.Defs
import proofs.«149234_j88510686036237_2_alg».proof.Proof.Gen.Kernel
import proofs.«149234_j88510686036237_2_alg».proof.Proof.Gen.Kernel.Skeleton
import proofs.«149234_j88510686036237_2_alg».proof.Proof.Gen.Kernel.Launch
import proofs.«149234_j88510686036237_2_alg».proof.Proof.Gen.Kernel.Points
import proofs.«149234_j88510686036237_2_alg».proof.Proof.Gen.Kernel.Frame
import proofs.«149234_j88510686036237_2_alg».proof.Proof.Gen.KernelIdeal
import proofs.«149234_j88510686036237_2_alg».proof.Proof.Gen.KernelIdeal.Skeleton
import proofs.«149234_j88510686036237_2_alg».proof.Proof.Gen.KernelIdeal.Launch
import proofs.«149234_j88510686036237_2_alg».proof.Proof.Gen.KernelIdeal.Points
import proofs.«149234_j88510686036237_2_alg».proof.Proof.Gen.KernelIdeal.Frame
import proofs.«149234_j88510686036237_2_alg».proof.Proof.Gen.ReferenceIdeal
import proofs.«149234_j88510686036237_2_alg».proof.Proof.Gen.ReferenceIdeal.Run
import proofs.«149234_j88510686036237_2_alg».proof.Proof.Gen.ReferenceIdeal.Read
import proofs.«149234_j88510686036237_2_alg».proof.Proof.Gen.Pre_finite_inputs
import proofs.«149234_j88510686036237_2_alg».proof.Proof.KernelRun
import proofs.«149234_j88510686036237_2_alg».proof.Proof.KernelValue
import proofs.«149234_j88510686036237_2_alg».proof.Proof.Bridge
import Idealize.ShloMosaic.Adequacy
import Idealize.ShloMosaic.Init

set_option maxRecDepth 16384

noncomputable section

namespace Cert.Proof

open Idealize.ShloMosaic Idealize.SL.Sem

/-- The word-level kernel program runs and leaves its arguments as launched (generated frame). -/
theorem frame_kernel : Cert.frame_Kernel := fun m ρ _ => Cert.Kernel.Gen.frame m ρ

/-- So does the idealized kernel program (generated frame). -/
theorem frame_kernel_ideal : Cert.frame_KernelIdeal := fun m ρ _ => Cert.KernelIdeal.Gen.frame m ρ

/-- The reference runs and leaves its arguments as launched: its generated run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the arguments both programs run, and end with equal results: the kernel program's two
    result buffers hold its functions of the launch arrays (KernelValue), the reference's hold its stage functions of
    the same arrays, and those are equal (Bridge). -/
theorem algebraic : Cert.algebraic_KernelIdeal_ReferenceIdeal := by
  intro m ρ m' ρ' _ hagree
  refine ⟨_, _, Cert.KernelIdeal.RunValue.run_results (F := Ideal) m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18, h19, h20, h21⟩ := hagree c
    rw [Cert.ReferenceIdeal.Read.val_main_v142_eq, h0, h1, h2, h3, h4, h5, h6, h7, h10, h11, h14, h15, h18, h19]
    exact ((Cert.KernelIdeal.Whole.drug_result m ρ c).trans (Cert.Bridge.drug _ _ _ _ _ _ _ _ _ _ _ _ _ _)).symm
  · obtain ⟨h0, h1, h2, h3, h4, h5, h6, h7, h8, h9, h10, h11, h12, h13, h14, h15, h16, h17, h18, h19, h20, h21⟩ := hagree c
    rw [Cert.ReferenceIdeal.Read.val_main_v145_eq, h0, h1, h2, h3, h4, h5, h8, h9, h12, h13, h16, h17, h20, h21]
    exact ((Cert.KernelIdeal.Whole.gene_result m ρ c).trans (Cert.Bridge.gene _ _ _ _ _ _ _ _ _ _ _ _ _ _)).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
